-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v137) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_v273) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S800000x6 : Shape := ⟨2, ![800000, 6]⟩
abbrev S128x128 : Shape := ⟨2, ![128, 128]⟩
abbrev S128 : Shape := ⟨1, ![128]⟩
abbrev S6x128 : Shape := ⟨2, ![6, 128]⟩
abbrev S128x8 : Shape := ⟨2, ![128, 8]⟩
abbrev S8 : Shape := ⟨1, ![8]⟩
abbrev S129x128 : Shape := ⟨2, ![129, 128]⟩
abbrev S128x4 : Shape := ⟨2, ![128, 4]⟩
abbrev S4 : Shape := ⟨1, ![4]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S800000x6 : S_.BroadcastsInDim S800000x6 (![] : Fin 0 → Fin S800000x6.rank)
  reducesTo_S800000x6_S_d0_1 : S800000x6.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x128 : S_.BroadcastsInDim S6x128 (![] : Fin 0 → Fin S6x128.rank)
  reducesTo_S6x128_S_d0_1 : S6x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S129x128 : S_.BroadcastsInDim S129x128 (![] : Fin 0 → Fin S129x128.rank)
  reducesTo_S129x128_S_d0_1 : S129x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_arg21 : FVec F S128x4 .f32) (main_arg22 : FVec F S4 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x4 .f32 := Host.absf main_arg21
  let main_cst_40 : FVec F S_ .f32 := constant S_ .f32 0x7F800000#32
  let main_v105 : FVec F S128x4 .f32 := broadcastInDim S128x4 ![] bcast_S_S128x4 main_cst_40
  let main_v106 : IVec S128x4 1 := cmpf .olt main_v104 main_v105
  let main_c_41 : IVec S_ 1 := constantI S_ 1 1#1
  let main_v107 : IVec S_ 1 := (fun x v => Host.reduce IntOp.andi x v reducesTo_S128x4_S_d0_1 h_S_) main_v106 main_c_41
  let main_v108 : IVec S_ 1 := andi main_v103 main_v107
  let main_v109 : FVec F S4 .f32 := Host.absf main_arg22
  let main_cst_42 : FVec F S_ .f32 := constant S_ .f32 0x7F800000#32
  let main_v110 : FVec F S4 .f32 := broadcastInDim S4 ![] bcast_S_S4 main_cst_42
  let main_v111 : IVec S4 1 := cmpf .olt main_v109 main_v110
  let main_c_43 : IVec S_ 1 := constantI S_ 1 1#1
  let main_v112 : IVec S_ 1 := (fun x v => Host.reduce IntOp.andi x v reducesTo_S4_S_d0 h_S_) main_v111 main_c_43
  let main_v113 : IVec S_ 1 := andi main_v108 main_v112
  main_v113

def fn_part5 {F : FTy → Type} [FloatOps F] (main_arg18 : FVec F S8 .f32) (main_arg19 : FVec F S129x128 .f32) (main_arg20 : FVec F S128 .f32) (main_arg21 : FVec F S128x4 .f32) (main_arg22 : FVec F S4 .f32) (main_v83 : IVec S_ 1) (main_v84 : FVec F S128x8 .f32) (main_cst_32 : FVec F S_ .f32) : IVec S_ 1 :=
  let main_v85 : FVec F S128x8 .f32 := broadcastInDim S128x8 ![] bcast_S_S128x8 main_cst_32
  let main_v86 : IVec S128x8 1 := cmpf .olt main_v84 main_v85
  let main_c_33 : IVec S_ 1 := constantI S_ 1 1#1
  let main_v87 : IVec S_ 1 := (fun x v => Host.reduce IntOp.andi x v reducesTo_S128x8_S_d0_1 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S129x128 .f32 := Host.absf main_arg19
  let main_cst_36 : FVec F S_ .f32 := constant S_ .f32 0x7F800000#32
  let main_v95 : FVec F S129x128 .f32 := broadcastInDim S129x128 ![] bcast_S_S129x128 main_cst_36
  let main_v96 : IVec S129x128 1 := cmpf .olt main_v94 main_v95
  let main_c_37 : IVec S_ 1 := constantI S_ 1 1#1
  let main_v97 : IVec S_ 1 := (fun x v => Host.reduce IntOp.andi x v reducesTo_S129x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S128 .f32) (main_arg15 : FVec F S128x128 .f32) (main_arg16 : FVec F S128 .f32) (main_arg17 : FVec F S128x8 .f32) (main_arg18 : FVec F S8 .f32) (main_arg19 : FVec F S129x128 .f32) (main_arg20 : FVec F S128 .f32) (main_arg21 : FVec F S128x4 .f32) (main_arg22 : FVec F S4 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x8 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S6x128 .f32) (main_arg12 : FVec F S128 .f32) (main_arg13 : FVec F S128x128 .f32) (main_arg14 : FVec F S128 .f32) (main_arg15 : FVec F S128x128 .f32) (main_arg16 : FVec F S128 .f32) (main_arg17 : FVec F S128x8 .f32) (main_arg18 : FVec F S8 .f32) (main_arg19 : FVec F S129x128 .f32) (main_arg20 : FVec F S128 .f32) (main_arg21 : FVec F S128x4 .f32) (main_arg22 : FVec F S4 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S6x128 .f32 := Host.absf main_arg11
  let main_cst_20 : FVec F S_ .f32 := constant S_ .f32 0x7F800000#32
  let main_v55 : FVec F S6x128 .f32 := broadcastInDim S6x128 ![] bcast_S_S6x128 main_cst_20
  let main_v56 : IVec S6x128 1 := cmpf .olt main_v54 main_v55
  let main_c_21 : IVec S_ 1 := constantI S_ 1 1#1
  let main_v57 : IVec S_ 1 := (fun x v => Host.reduce IntOp.andi x v reducesTo_S6x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128x128 .f32) (main_arg8 : FVec F S128 .f32) (main_arg9 : FVec F S128 .f32) (main_arg10 : FVec F S128 .f32) (main_arg11 : FVec F S6x128 .f32) (main_arg12 : FVec F S128 .f32) (main_arg13 : FVec F S128x128 .f32) (main_arg14 : FVec F S128 .f32) (main_arg15 : FVec F S128x128 .f32) (main_arg16 : FVec F S128 .f32) (main_arg17 : FVec F S128x8 .f32) (main_arg18 : FVec F S8 .f32) (main_arg19 : FVec F S129x128 .f32) (main_arg20 : FVec F S128 .f32) (main_arg21 : FVec F S128x4 .f32) (main_arg22 : FVec F S4 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S6x128 .f32) (main_arg12 : FVec F S128 .f32) (main_arg13 : FVec F S128x128 .f32) (main_arg14 : FVec F S128 .f32) (main_arg15 : FVec F S128x128 .f32) (main_arg16 : FVec F S128 .f32) (main_arg17 : FVec F S128x8 .f32) (main_arg18 : FVec F S8 .f32) (main_arg19 : FVec F S129x128 .f32) (main_arg20 : FVec F S128 .f32) (main_arg21 : FVec F S128x4 .f32) (main_arg22 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : FVec F S50000 .f32) (main_arg2 : FVec F S800000x6 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S6x128 .f32) (main_arg12 : FVec F S128 .f32) (main_arg13 : FVec F S128x128 .f32) (main_arg14 : FVec F S128 .f32) (main_arg15 : FVec F S128x128 .f32) (main_arg16 : FVec F S128 .f32) (main_arg17 : FVec F S128x8 .f32) (main_arg18 : FVec F S8 .f32) (main_arg19 : FVec F S129x128 .f32) (main_arg20 : FVec F S128 .f32) (main_arg21 : FVec F S128x4 .f32) (main_arg22 : FVec F S4 .f32) (main_arg23 : IVec S800000 32) (main_arg24 : IVec S800000 32) (main_arg25 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S800000x6 .f32 := Host.absf main_arg2
  let main_cst_2 : FVec F S_ .f32 := constant S_ .f32 0x7F800000#32
  let main_v10 : FVec F S800000x6 .f32 := broadcastInDim S800000x6 ![] bcast_S_S800000x6 main_cst_2
  let main_v11 : IVec S800000x6 1 := cmpf .olt main_v9 main_v10
  let main_c_3 : IVec S_ 1 := constantI S_ 1 1#1
  let main_v12 : IVec S_ 1 := (fun x v => Host.reduce IntOp.andi x v reducesTo_S800000x6_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S50000 : Shape := ⟨1, ![50000]⟩
abbrev S800000x6 : Shape := ⟨2, ![800000, 6]⟩
abbrev S128x128 : Shape := ⟨2, ![128, 128]⟩
abbrev S128 : Shape := ⟨1, ![128]⟩
abbrev S6x128 : Shape := ⟨2, ![6, 128]⟩
abbrev S128x8 : Shape := ⟨2, ![128, 8]⟩
abbrev S8 : Shape := ⟨1, ![8]⟩
abbrev S129x128 : Shape := ⟨2, ![129, 128]⟩
abbrev S128x4 : Shape := ⟨2, ![128, 4]⟩
abbrev S4 : Shape := ⟨1, ![4]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S10000x128 : Shape := ⟨2, ![10000, 128]⟩
abbrev S10000x1 : Shape := ⟨2, ![10000, 1]⟩
abbrev S1x8 : Shape := ⟨2, ![1, 8]⟩
abbrev S50000x8 : Shape := ⟨2, ![50000, 8]⟩
abbrev S10000x8 : Shape := ⟨2, ![10000, 8]⟩
abbrev S50000x129 : Shape := ⟨2, ![50000, 129]⟩
abbrev S800000x129 : Shape := ⟨2, ![800000, 129]⟩
abbrev S10000x129 : Shape := ⟨2, ![10000, 129]⟩
abbrev S64 : Shape := ⟨1, ![64]⟩
abbrev S64x128 : Shape := ⟨2, ![64, 128]⟩
abbrev S64x1 : Shape := ⟨2, ![64, 1]⟩
abbrev S64x4 : Shape := ⟨2, ![64, 4]⟩
abbrev S1x4 : Shape := ⟨2, ![1, 4]⟩

abbrev nBuf : Space → Nat
  | .hbm => 197
  | .vmem => 64
  | .smem => 0
  | _ => 0

abbrev hbmTy0_0 (i : Nat) : BufTy := match i % 128 with
  | 0 => ⟨S50000x128, .f32⟩
  | 1 => ⟨S50000, .f32⟩
  | 2 => ⟨S800000x6, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S6x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x8, .f32⟩
  | 18 => ⟨S8, .f32⟩
  | 19 => ⟨S129x128, .f32⟩
  | 20 => ⟨S128, .f32⟩
  | 21 => ⟨S128x4, .f32⟩
  | 22 => ⟨S4, .f32⟩
  | 23 => ⟨S800000, .i32⟩
  | 24 => ⟨S800000, .i32⟩
  | 25 => ⟨S50000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S1x128, .f32⟩
  | 64 => ⟨S50000x128, .f32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S50000x128, .f32⟩
  | 83 => ⟨S50000x1, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S1x128, .f32⟩
  | 100 => ⟨S50000x128, .f32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S50000x128, .f32⟩
  | 108 => ⟨S50000x128, .f32⟩
  | 109 => ⟨S50000x128, .f32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S50000x128, .f32⟩
  | 119 => ⟨S50000x1, .f32⟩
  | 120 => ⟨S50000x128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S1x128, .f32⟩
  | 8 => ⟨S50000x128, .f32⟩
  | 9 => ⟨S50000x1, .f32⟩
  | 10 => ⟨S50000x128, .f32⟩
  | 11 => ⟨S50000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S1x128, .f32⟩
  | 26 => ⟨S50000x128, .f32⟩
  | 27 => ⟨S1x8, .f32⟩
  | 28 => ⟨S50000x8, .f32⟩
  | 29 => ⟨S50000x1, .f32⟩
  | 30 => ⟨S50000x129, .f32⟩
  | 31 => ⟨S50000x1, .f32⟩
  | 32 => ⟨S50000x129, .f32⟩
  | 33 => ⟨S50000x129, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x129, .f32⟩
  | 43 => ⟨S_, .f32⟩
  | 44 => ⟨S50000x129, .f32⟩
  | 45 => ⟨S800000x1, .i32⟩
  | 46 => ⟨S50000x129, .f32⟩
  | 47 => ⟨S1x128, .f32⟩
  | 48 => ⟨S50000x128, .f32⟩
  | 49 => ⟨S_, .f32⟩
  | 50 => ⟨S50000, .f32⟩
  | 51 => ⟨S_, .f32⟩
  | 52 => ⟨S64, .f32⟩
  | 53 => ⟨S50000x1, .i32⟩
  | 54 => ⟨S64, .f32⟩
  | 55 => ⟨S_, .f32⟩
  | 56 => ⟨S64, .f32⟩
  | 57 => ⟨S64, .f32⟩
  | 58 => ⟨S_, .f32⟩
  | 59 => ⟨S64x128, .f32⟩
  | 60 => ⟨S50000x1, .i32⟩
  | 61 => ⟨S64x128, .f32⟩
  | 62 => ⟨S64x1, .f32⟩
  | 63 => ⟨S64x128, .f32⟩
  | 64 => ⟨S64x128, .f32⟩
  | 65 => ⟨S64x4, .f32⟩
  | 66 => ⟨S1x4, .f32⟩
  | 67 => ⟨S64x4, .f32⟩
  | 68 => ⟨S64x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x1, .f32⟩
  | .local _ .vmem, ⟨19, _⟩ => ⟨S10000x1, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x1, .f32⟩
  | .local _ .vmem, ⟨35, _⟩ => ⟨S10000x1, .f32⟩
  | .local _ .vmem, ⟨36, _⟩ => ⟨S128x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S10000x1, .f32⟩
  | .local _ .vmem, ⟨43, _⟩ => ⟨S10000x1, .f32⟩
  | .local _ .vmem, ⟨44, _⟩ => ⟨S128x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | .local _ .vmem, ⟨49, _⟩ => ⟨S10000x128, .f32⟩
  | .local _ .vmem, ⟨50, _⟩ => ⟨S10000x1, .f32⟩
  | .local _ .vmem, ⟨51, _⟩ => ⟨S10000x1, .f32⟩
  | .local _ .vmem, ⟨52, _⟩ => ⟨S128x8, .f32⟩
  | .local _ .vmem, ⟨53, _⟩ => ⟨S1x8, .f32⟩
  | .local _ .vmem, ⟨54, _⟩ => ⟨S10000x8, .f32⟩
  | .local _ .vmem, ⟨55, _⟩ => ⟨S10000x8, .f32⟩
  | .local _ .vmem, ⟨56, _⟩ => ⟨S10000x129, .f32⟩
  | .local _ .vmem, ⟨57, _⟩ => ⟨S10000x129, .f32⟩
  | .local _ .vmem, ⟨58, _⟩ => ⟨S10000x1, .f32⟩
  | .local _ .vmem, ⟨59, _⟩ => ⟨S10000x1, .f32⟩
  | .local _ .vmem, ⟨60, _⟩ => ⟨S129x128, .f32⟩
  | .local _ .vmem, ⟨61, _⟩ => ⟨S1x128, .f32⟩
  | .local _ .vmem, ⟨62, _⟩ => ⟨S10000x128, .f32⟩
  | .local _ .vmem, ⟨63, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_3 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_4 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c : Ref sig .tc := ⟨.hbm, 50, rfl⟩
abbrev main_v18 : Ref sig .tc := ⟨.hbm, 51, rfl⟩
abbrev main_v19 : Ref sig .tc := ⟨.hbm, 52, rfl⟩
abbrev main_c_5 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_6 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_v31 : Ref sig .tc := ⟨.hbm, 67, rfl⟩
abbrev main_cst_8 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_9 : Ref sig .tc := ⟨.hbm, 74, rfl⟩
abbrev main_v37 : Ref sig .tc := ⟨.hbm, 75, rfl⟩
abbrev main_v38 : Ref sig .tc := ⟨.hbm, 76, rfl⟩
abbrev main_cst_10 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_11 : Ref sig .tc := ⟨.hbm, 86, rfl⟩
abbrev main_v47 : Ref sig .tc := ⟨.hbm, 87, rfl⟩
abbrev main_v48 : Ref sig .tc := ⟨.hbm, 88, rfl⟩
abbrev main_c_12 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_13 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_14 : Ref sig .tc := ⟨.hbm, 101, rfl⟩
abbrev main_v59 : Ref sig .tc := ⟨.hbm, 102, rfl⟩
abbrev main_v60 : Ref sig .tc := ⟨.hbm, 103, rfl⟩
abbrev main_cst_15 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_16 : Ref sig .tc := ⟨.hbm, 110, rfl⟩
abbrev main_v66 : Ref sig .tc := ⟨.hbm, 111, rfl⟩
abbrev main_v67 : Ref sig .tc := ⟨.hbm, 112, rfl⟩
abbrev main_cst_17 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_c_18 : Ref sig .tc := ⟨.hbm, 122, rfl⟩
abbrev main_v76 : Ref sig .tc := ⟨.hbm, 123, rfl⟩
abbrev main_v77 : Ref sig .tc := ⟨.hbm, 124, rfl⟩
abbrev main_c_19 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_20 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_c_21 : Ref sig .tc := ⟨.hbm, 140, rfl⟩
abbrev main_v91 : Ref sig .tc := ⟨.hbm, 141, rfl⟩
abbrev main_v92 : Ref sig .tc := ⟨.hbm, 142, rfl⟩
abbrev main_c_22 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_23 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_c_24 : Ref sig .tc := ⟨.hbm, 162, rfl⟩
abbrev main_v110 : Ref sig .tc := ⟨.hbm, 163, rfl⟩
abbrev main_v111 : Ref sig .tc := ⟨.hbm, 164, rfl⟩
abbrev main_c_25 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_cst_26 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_27 : Ref sig .tc := ⟨.hbm, 177, rfl⟩
abbrev main_v122 : Ref sig .tc := ⟨.hbm, 178, rfl⟩
abbrev main_cst_28 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_29 : Ref sig .tc := ⟨.hbm, 183, rfl⟩
abbrev main_v126 : Ref sig .tc := ⟨.hbm, 184, rfl⟩
abbrev main_v127 : Ref sig .tc := ⟨.hbm, 185, rfl⟩
abbrev main_cst_30 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem4_1 : DmaSem sig := 63

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x8 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x8 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x129 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S129x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S8_S1x8 : S8.ShapeCasts S1x8
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  concatenates_S50000x128_S50000x1_S50000x129_d1 : Shape.Concatenates [S50000x128, S50000x1] S50000x129 1
  bcast_S50000x1_S50000x129_0_1 : S50000x1.BroadcastsInDim S50000x129 (![0, 1] : Fin 2 → Fin S50000x129.rank)
  bcast_S_S50000x129 : S_.BroadcastsInDim S50000x129 (![] : Fin 0 → Fin S50000x129.rank)
  inb_S10000x129_S10000x129_0_0 : ∀ a, (![0, 0] : Fin 2 → Nat) a + S10000x129.size a ≤ S10000x129.size a
  h_S10000x129 : 0 < S10000x129.numel
  shapeCasts_S10000x129_S10000x129 : S10000x129.ShapeCasts S10000x129
  broadcasts_S10000x1_S10000x129 : S10000x1.Broadcasts S10000x129
  inb_S129x128_S129x128_0_0 : ∀ a, (![0, 0] : Fin 2 → Nat) a + S129x128.size a ≤ S129x128.size a
  h_S129x128 : 0 < S129x128.numel
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S10000x128_S128x8_S10000x8_1_0_0_1_n_n_wf : DotDims.WF S10000x128 S128x8 S10000x8 [1] [0] [0] [1] [] []
  gather_S50000x129_S800000x1_S800000x129_1_0_n_n_0_1_1129_wf : GatherDims.WF S50000x129 S800000x1 S800000x129 [1] [0] [] [0] [] 1 ![1, 129]
  scatter_S50000x129_S800000x1_S800000x129_1_0_0_1_wf : ScatterDims.WF S50000x129 S800000x1 S800000x129 [1] [0] [0] 1
  dot_S10000x129_S129x128_S10000x128_1_0_0_1_n_n_wf : DotDims.WF S10000x129 S129x128 S10000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x4_S64x4_1_0_0_1_n_n_wf : DotDims.WF S64x128 S128x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S50000x128.size a
  hwx0_4 : ∀ i : grid0.Coords, EltTy.bits .f32 = 32 ∨ (Rect.block (s := S50000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S50000x128.size a
  hwx2_4 : ∀ i : grid2.Coords, EltTy.bits .f32 = 32 ∨ (Rect.block (s := S50000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S50000x1.size a
  hwx4_1 : ∀ i : grid4.Coords, EltTy.bits .f32 = 32 ∨ (Rect.block (s := S50000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S50000x128.size a
  hwx4_4 : ∀ i : grid4.Coords, EltTy.bits .f32 = 32 ∨ (Rect.block (s := S50000x128) S10000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S50000x1.size a
  hwx5_1 : ∀ i : grid5.Coords, EltTy.bits .f32 = 32 ∨ (Rect.block (s := S50000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x128.size a ≤ S50000x128.size a
  hwx5_4 : ∀ i : grid5.Coords, EltTy.bits .f32 = 32 ∨ (Rect.block (s := S50000x128) S10000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S50000x1.size a
  hwx6_1 : ∀ i : grid6.Coords, EltTy.bits .f32 = 32 ∨ (Rect.block (s := S50000x1) S10000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x8.size a ≤ S128x8.size a
  hwx6_2 : ∀ i : grid6.Coords, EltTy.bits .f32 = 32 ∨ (Rect.block (s := S128x8) S128x8.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x8.size a ≤ S1x8.size a
  hwx6_3 : ∀ i : grid6.Coords, EltTy.bits .f32 = 32 ∨ (Rect.block (s := S1x8) S1x8.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x8.size a ≤ S50000x8.size a
  hwx6_4 : ∀ i : grid6.Coords, EltTy.bits .f32 = 32 ∨ (Rect.block (s := S50000x8) S10000x8.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x129.size a ≤ S50000x129.size a
  hwx7_0 : ∀ i : grid7.Coords, EltTy.bits .f32 = 32 ∨ (Rect.block (s := S50000x129) S10000x129.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S50000x1.size a
  hwx7_1 : ∀ i : grid7.Coords, EltTy.bits .f32 = 32 ∨ (Rect.block (s := S50000x1) S10000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S129x128.size a ≤ S129x128.size a
  hwx7_2 : ∀ i : grid7.Coords, EltTy.bits .f32 = 32 ∨ (Rect.block (s := S129x128) S129x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x128.size a ≤ S50000x128.size a
  hwx7_4 : ∀ i : grid7.Coords, EltTy.bits .f32 = 32 ∨ (Rect.block (s := S50000x128) S10000x128.size (cc7_transform_4 i) (hinb7_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def gather_S50000x129_S800000x1_S800000x129_1_0_n_n_0_1_1129 : GatherDims S50000x129 S800000x1 S800000x129 where
  offsetDims := [1]
  collapsedSliceDims := [0]
  operandBatchingDims := []
  startIndicesBatchingDims := []
  startIndexMap := [0]
  indexVectorDim := 1
  sliceSizes := ![1, 129]
  wf := gather_S50000x129_S800000x1_S800000x129_1_0_n_n_0_1_1129_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S10000x129_S129x128_S10000x128_1_0_0_1_n_n : DotDims S10000x129 S129x128 S10000x128 where
  lhsContracting := [1]
  rhsContracting := [0]
  lhsNonContracting := [0]
  rhsNonContracting := [1]
  lhsBatch := []
  rhsBatch := []
  wf := dot_S10000x129_S129x128_S10000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

abbrev win0_0 : Pipeline.Window sig grid0 :=
  Pipeline.Window.ofSpec (Memref.whole main_v27) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v58) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v85) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S10000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v100) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg15) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S10000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v102) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v14) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg17) S128x8.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v103) S1x8.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v104) S10000x8.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v119) S10000x129.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v13) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg19) S129x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v120) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v121) S10000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x128 : Shape := ⟨2, ![50000, 128]⟩
abbrev S50000 : Shape := ⟨1, ![50000]⟩
abbrev S800000x6 : Shape := ⟨2, ![800000, 6]⟩
abbrev S128x128 : Shape := ⟨2, ![128, 128]⟩
abbrev S128 : Shape := ⟨1, ![128]⟩
abbrev S6x128 : Shape := ⟨2, ![6, 128]⟩
abbrev S128x8 : Shape := ⟨2, ![128, 8]⟩
abbrev S8 : Shape := ⟨1, ![8]⟩
abbrev S129x128 : Shape := ⟨2, ![129, 128]⟩
abbrev S128x4 : Shape := ⟨2, ![128, 4]⟩
abbrev S4 : Shape := ⟨1, ![4]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x8 : Shape := ⟨2, ![50000, 8]⟩
abbrev S1x8 : Shape := ⟨2, ![1, 8]⟩
abbrev S50000x129 : Shape := ⟨2, ![50000, 129]⟩
abbrev S800000x129 : Shape := ⟨2, ![800000, 129]⟩
abbrev S64 : Shape := ⟨1, ![64]⟩
abbrev S64x128 : Shape := ⟨2, ![64, 128]⟩
abbrev S64x1 : Shape := ⟨2, ![64, 1]⟩
abbrev S64x4 : Shape := ⟨2, ![64, 4]⟩
abbrev S1x4 : Shape := ⟨2, ![1, 4]⟩

abbrev nBuf : Space → Nat
  | .hbm => 366
  | .vmem => 0
  | .smem => 0
  | _ => 0

abbrev hbmTy0_0 (i : Nat) : BufTy := match i % 128 with
  | 0 => ⟨S50000x128, .f32⟩
  | 1 => ⟨S50000, .f32⟩
  | 2 => ⟨S800000x6, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S6x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x8, .f32⟩
  | 18 => ⟨S8, .f32⟩
  | 19 => ⟨S129x128, .f32⟩
  | 20 => ⟨S128, .f32⟩
  | 21 => ⟨S128x4, .f32⟩
  | 22 => ⟨S4, .f32⟩
  | 23 => ⟨S800000, .i32⟩
  | 24 => ⟨S800000, .i32⟩
  | 25 => ⟨S50000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .i1⟩
  | 100 => ⟨S_, .f32⟩
  | 101 => ⟨S50000x128, .f32⟩
  | 102 => ⟨S50000x128, .f32⟩
  | 103 => ⟨S50000x128, .f32⟩
  | 104 => ⟨S_, .f32⟩
  | 105 => ⟨S800000, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S50000, .f32⟩
  | 119 => ⟨S50000, .f32⟩
  | 120 => ⟨S50000, .f32⟩
  | 121 => ⟨S50000x1, .f32⟩
  | 122 => ⟨S50000x128, .f32⟩
  | 123 => ⟨S50000x128, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S128, .f32⟩
  | 28 => ⟨S_, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .i1⟩
  | 50 => ⟨S_, .f32⟩
  | 51 => ⟨S50000x128, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x128, .f32⟩
  | 64 => ⟨S800000x128, .f32⟩
  | 65 => ⟨S1x128, .f32⟩
  | 66 => ⟨S800000x128, .f32⟩
  | 67 => ⟨S800000x128, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S50000x1, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000, .f32⟩
  | 102 => ⟨S50000x1, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x128, .f32⟩
  | 116 => ⟨S_, .f32⟩
  | 117 => ⟨S800000, .f32⟩
  | 118 => ⟨S_, .f32⟩
  | 119 => ⟨S50000, .f32⟩
  | 120 => ⟨S800000x1, .i32⟩
  | 121 => ⟨S50000, .f32⟩
  | 122 => ⟨S_, .f32⟩
  | 123 => ⟨S50000, .f32⟩
  | 124 => ⟨S50000, .f32⟩
  | 125 => ⟨S_, .f32⟩
  | 126 => ⟨S50000, .f32⟩
  | 127 => ⟨S800000x1, .i32⟩
  | _ => ⟨S50000x128, .f32⟩

abbrev hbmTy0_2 (i : Nat) : BufTy := match i % 128 with
  | 0 => ⟨S50000, .f32⟩
  | 1 => ⟨S_, .f32⟩
  | 2 => ⟨S50000, .f32⟩
  | 3 => ⟨S50000, .f32⟩
  | 4 => ⟨S50000, .f32⟩
  | 5 => ⟨S50000x1, .f32⟩
  | 6 => ⟨S50000x128, .f32⟩
  | 7 => ⟨S50000x128, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S_, .f32⟩
  | 18 => ⟨S50000x128, .f32⟩
  | 19 => ⟨S800000x1, .i32⟩
  | 20 => ⟨S50000x128, .f32⟩
  | 21 => ⟨S50000, .f32⟩
  | 22 => ⟨S50000x1, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .i1⟩
  | 32 => ⟨S_, .f32⟩
  | 33 => ⟨S50000x128, .f32⟩
  | 34 => ⟨S50000x128, .f32⟩
  | 35 => ⟨S50000x128, .f32⟩
  | 36 => ⟨S50000x8, .f32⟩
  | 37 => ⟨S1x8, .f32⟩
  | 38 => ⟨S50000x8, .f32⟩
  | 39 => ⟨S50000x8, .f32⟩
  | 40 => ⟨S50000x1, .f32⟩
  | 41 => ⟨S50000x129, .f32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S_, .f32⟩
  | 52 => ⟨S50000, .f32⟩
  | 53 => ⟨S800000x1, .i32⟩
  | 54 => ⟨S50000, .f32⟩
  | 55 => ⟨S_, .f32⟩
  | 56 => ⟨S50000, .f32⟩
  | 57 => ⟨S50000, .f32⟩
  | 58 => ⟨S50000, .f32⟩
  | 59 => ⟨S50000x1, .f32⟩
  | 60 => ⟨S50000x129, .f32⟩
  | 61 => ⟨S50000x129, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x129, .f32⟩
  | 71 => ⟨S_, .f32⟩
  | 72 => ⟨S50000x129, .f32⟩
  | 73 => ⟨S800000x1, .i32⟩
  | 74 => ⟨S50000x129, .f32⟩
  | 75 => ⟨S50000, .f32⟩
  | 76 => ⟨S50000x1, .f32⟩
  | 77 => ⟨S50000x129, .f32⟩
  | 78 => ⟨S50000x129, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .i1⟩
  | 86 => ⟨S_, .f32⟩
  | 87 => ⟨S50000x128, .f32⟩
  | 88 => ⟨S50000x128, .f32⟩
  | 89 => ⟨S50000x128, .f32⟩
  | 90 => ⟨S_, .f32⟩
  | 91 => ⟨S50000, .f32⟩
  | 92 => ⟨S_, .f32⟩
  | 93 => ⟨S64, .f32⟩
  | 94 => ⟨S50000x1, .i32⟩
  | 95 => ⟨S64, .f32⟩
  | 96 => ⟨S_, .f32⟩
  | 97 => ⟨S64, .f32⟩
  | 98 => ⟨S64, .f32⟩
  | 99 => ⟨S_, .f32⟩
  | 100 => ⟨S64x128, .f32⟩
  | 101 => ⟨S50000x1, .i32⟩
  | 102 => ⟨S64x128, .f32⟩
  | 103 => ⟨S64x1, .f32⟩
  | 104 => ⟨S64x128, .f32⟩
  | 105 => ⟨S64x128, .f32⟩
  | 106 => ⟨S64x4, .f32⟩
  | 107 => ⟨S1x4, .f32⟩
  | 108 => ⟨S64x4, .f32⟩
  | 109 => ⟨S64x4, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_3 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_8 : Ref sig .tc := ⟨.hbm, 76, rfl⟩
abbrev main_v40 : Ref sig .tc := ⟨.hbm, 77, rfl⟩
abbrev main_cst_9 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_10 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_11 : Ref sig .tc := ⟨.hbm, 97, rfl⟩
abbrev main_v58 : Ref sig .tc := ⟨.hbm, 98, rfl⟩
abbrev main_v59 : Ref sig .tc := ⟨.hbm, 99, rfl⟩
abbrev main_cst_12 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_13 : Ref sig .tc := ⟨.hbm, 104, rfl⟩
abbrev main_v63 : Ref sig .tc := ⟨.hbm, 105, rfl⟩
abbrev main_cst_14 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_15 : Ref sig .tc := ⟨.hbm, 110, rfl⟩
abbrev main_v67 : Ref sig .tc := ⟨.hbm, 111, rfl⟩
abbrev main_v68 : Ref sig .tc := ⟨.hbm, 112, rfl⟩
abbrev main_cst_16 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_17 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_18 : Ref sig .tc := ⟨.hbm, 124, rfl⟩
abbrev main_v78 : Ref sig .tc := ⟨.hbm, 125, rfl⟩
abbrev main_v79 : Ref sig .tc := ⟨.hbm, 126, rfl⟩
abbrev main_c_19 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_20 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_21 : Ref sig .tc := ⟨.hbm, 145, rfl⟩
abbrev main_v96 : Ref sig .tc := ⟨.hbm, 146, rfl⟩
abbrev main_cst_22 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_23 : Ref sig .tc := ⟨.hbm, 154, rfl⟩
abbrev main_v103 : Ref sig .tc := ⟨.hbm, 155, rfl⟩
abbrev main_cst_24 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_25 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_26 : Ref sig .tc := ⟨.hbm, 175, rfl⟩
abbrev main_v121 : Ref sig .tc := ⟨.hbm, 176, rfl⟩
abbrev main_v122 : Ref sig .tc := ⟨.hbm, 177, rfl⟩
abbrev main_cst_27 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_c_28 : Ref sig .tc := ⟨.hbm, 182, rfl⟩
abbrev main_v126 : Ref sig .tc := ⟨.hbm, 183, rfl⟩
abbrev main_v127 : Ref sig .tc := ⟨.hbm, 184, rfl⟩
abbrev main_c_29 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_30 : Ref sig .tc := ⟨.hbm, 196, rfl⟩
abbrev main_v138 : Ref sig .tc := ⟨.hbm, 197, rfl⟩
abbrev main_cst_31 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_32 : Ref sig .tc := ⟨.hbm, 202, rfl⟩
abbrev main_v142 : Ref sig .tc := ⟨.hbm, 203, rfl⟩
abbrev main_v143 : Ref sig .tc := ⟨.hbm, 204, rfl⟩
abbrev main_cst_33 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_34 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_c_35 : Ref sig .tc := ⟨.hbm, 216, rfl⟩
abbrev main_v153 : Ref sig .tc := ⟨.hbm, 217, rfl⟩
abbrev main_v154 : Ref sig .tc := ⟨.hbm, 218, rfl⟩
abbrev main_c_36 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_37 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_cst_38 : Ref sig .tc := ⟨.hbm, 237, rfl⟩
abbrev main_v171 : Ref sig .tc := ⟨.hbm, 238, rfl⟩
abbrev main_v172 : Ref sig .tc := ⟨.hbm, 239, rfl⟩
abbrev main_cst_39 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_cst_40 : Ref sig .tc := ⟨.hbm, 244, rfl⟩
abbrev main_v176 : Ref sig .tc := ⟨.hbm, 245, rfl⟩
abbrev main_cst_41 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_cst_42 : Ref sig .tc := ⟨.hbm, 250, rfl⟩
abbrev main_v180 : Ref sig .tc := ⟨.hbm, 251, rfl⟩
abbrev main_v181 : Ref sig .tc := ⟨.hbm, 252, rfl⟩
abbrev main_cst_43 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_cst_44 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_c_45 : Ref sig .tc := ⟨.hbm, 264, rfl⟩
abbrev main_v191 : Ref sig .tc := ⟨.hbm, 265, rfl⟩
abbrev main_v192 : Ref sig .tc := ⟨.hbm, 266, rfl⟩
abbrev main_c_46 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_cst_47 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_cst_48 : Ref sig .tc := ⟨.hbm, 285, rfl⟩
abbrev main_v209 : Ref sig .tc := ⟨.hbm, 286, rfl⟩
abbrev main_v210 : Ref sig .tc := ⟨.hbm, 287, rfl⟩
abbrev main_cst_49 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_cst_50 : Ref sig .tc := ⟨.hbm, 298, rfl⟩
abbrev main_v220 : Ref sig .tc := ⟨.hbm, 299, rfl⟩
abbrev main_cst_51 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_cst_52 : Ref sig .tc := ⟨.hbm, 304, rfl⟩
abbrev main_v224 : Ref sig .tc := ⟨.hbm, 305, rfl⟩
abbrev main_v225 : Ref sig .tc := ⟨.hbm, 306, rfl⟩
abbrev main_cst_53 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_cst_54 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_c_55 : Ref sig .tc := ⟨.hbm, 318, rfl⟩
abbrev main_v235 : Ref sig .tc := ⟨.hbm, 319, rfl⟩
abbrev main_v236 : Ref sig .tc := ⟨.hbm, 320, rfl⟩
abbrev main_c_56 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_cst_57 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_cst_58 : Ref sig .tc := ⟨.hbm, 339, rfl⟩
abbrev main_v253 : Ref sig .tc := ⟨.hbm, 340, rfl⟩
abbrev main_v254 : Ref sig .tc := ⟨.hbm, 341, rfl⟩
abbrev main_cst_59 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_cst_60 : Ref sig .tc := ⟨.hbm, 346, rfl⟩
abbrev main_v258 : Ref sig .tc := ⟨.hbm, 347, rfl⟩
abbrev main_cst_61 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_cst_62 : Ref sig .tc := ⟨.hbm, 352, rfl⟩
abbrev main_v262 : Ref sig .tc := ⟨.hbm, 353, rfl⟩
abbrev main_v263 : Ref sig .tc := ⟨.hbm, 354, rfl⟩
abbrev main_cst_63 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S1x128_S800000x128_0_1 : S1x128.BroadcastsInDim S800000x128 (![0, 1] : Fin 2 → Fin S800000x128.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  concatenates_S50000x128_S50000x1_S50000x129_d1 : Shape.Concatenates [S50000x128, S50000x1] S50000x129 1
  bcast_S50000x1_S50000x129_0_1 : S50000x1.BroadcastsInDim S50000x129 (![0, 1] : Fin 2 → Fin S50000x129.rank)
  bcast_S_S50000x129 : S_.BroadcastsInDim S50000x129 (![] : Fin 0 → Fin S50000x129.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S800000x6_S6x128_S800000x128_1_0_0_1_n_n_wf : DotDims.WF S800000x6 S6x128 S800000x128 [1] [0] [0] [1] [] []
  dot_S50000x128_S128x8_S50000x8_1_0_0_1_n_n_wf : DotDims.WF S50000x128 S128x8 S50000x8 [1] [0] [0] [1] [] []
  gather_S50000x129_S800000x1_S800000x129_1_0_n_n_0_1_1129_wf : GatherDims.WF S50000x129 S800000x1 S800000x129 [1] [0] [] [0] [] 1 ![1, 129]
  scatter_S50000x129_S800000x1_S800000x129_1_0_0_1_wf : ScatterDims.WF S50000x129 S800000x1 S800000x129 [1] [0] [0] 1
  dot_S50000x129_S129x128_S50000x128_1_0_0_1_n_n_wf : DotDims.WF S50000x129 S129x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x4_S64x4_1_0_0_1_n_n_wf : DotDims.WF S64x128 S128x4 S64x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x6_S6x128_S800000x128_1_0_0_1_n_n : DotDims S800000x6 S6x128 S800000x128 where
  lhsContracting := [1]
  rhsContracting := [0]
  lhsNonContracting := [0]
  rhsNonContracting := [1]
  lhsBatch := []
  rhsBatch := []
  wf := dot_S800000x6_S6x128_S800000x128_1_0_0_1_n_n_wf
def dot_S50000x128_S128x8_S50000x8_1_0_0_1_n_n : DotDims S50000x128 S128x8 S50000x8 where
  lhsContracting := [1]
  rhsContracting := [0]
  lhsNonContracting := [0]
  rhsNonContracting := [1]
  lhsBatch := []
  rhsBatch := []
  wf := dot_S50000x128_S128x8_S50000x8_1_0_0_1_n_n_wf
def gather_S50000x129_S800000x1_S800000x129_1_0_n_n_0_1_1129 : GatherDims S50000x129 S800000x1 S800000x129 where
  offsetDims := [1]
  collapsedSliceDims := [0]
  operandBatchingDims := []
  startIndicesBatchingDims := []
  startIndexMap := [0]
  indexVectorDim := 1
  sliceSizes := ![1, 129]
  wf := gather_S50000x129_S800000x1_S800000x129_1_0_n_n_0_1_1129_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S50000x129_S129x128_S50000x128_1_0_0_1_n_n : DotDims S50000x129 S129x128 S50000x128 where
  lhsContracting := [1]
  rhsContracting := [0]
  lhsNonContracting := [0]
  rhsNonContracting := [1]
  lhsBatch := []
  rhsBatch := []
  wf := dot_S50000x129_S129x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

class Facts : Prop extends Facts₀ where

variable [Facts]
-- ==== Proof.KernelRun.lean ====
/-
  The idealized kernel program's run with every buffer named.

  The program is eight regions among nine stretches of host operations. Its generated frame proof carries, through every
  segment, the contents of all unscoped buffers as a fold from the launch memory (`Gen.W0` … `Gen.W17`) and at the end
  keeps only the argument arrays. The same run is read here at EVERY unscoped buffer: each ends at the last boundary's
  contents `Gen.W17`, from which the two results are then computed.
-/
import proofs.«115186_j77309411328099_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped TensorCore buffer ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- A TensorCore buffer of @main that is not scoped ends at `W17`. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W17 m ρ c (Proc.devRef .tc b)) :=
  (θ_run defs _ _).mono (fun r h c b hb => h c _ (mem_uc b hb)) (run_all m ρ)

end Cert.KernelRun

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«115186_j77309411328099_1_alg».proof.Proof.LibDenseLayer
import proofs.«115186_j77309411328099_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.LibBiasRow.lean ====
/-
  A dense layer whose bias arrives as a `[1, N]` row.

  A vector unit that is handed the bias already laid out as one row of `N` entries forms `x · w + b` by a matrix
  multiplication into a zero accumulator plus that row — passed through a shape cast that changes nothing — broadcast over
  the `M` rows. Entry `(p, q)` of the result is `(∑ k, x (p, k) · w (k, q)) + b (0, q)`: the array `dense x w (rowBias b)`.
-/
import proofs.«115186_j77309411328099_1_alg».proof.Proof.LibDenseLayer
import proofs.«115186_j77309411328099_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibBiasRow

open Idealize.ShloMosaic Idealize.ShloMosaic.ValueIdx Cert.DenseLayer

/-- A `[1, N]` bias row as a function of the column. -/
def rowBias {N : ℕ} (b : (⟨2, ![1, N]⟩ : Shape).Idx → EReal) : Fin N → EReal := fun q => b (ix2 (0 : Fin 1) q)

/-- The layer as a vector unit spells it when the bias is a `[1, N]` row: the product into a zero accumulator, plus the row
    broadcast over the rows. -/
theorem vec_layer_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (rowBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]

end Cert.LibBiasRow

end
-- ==== Proof.LibScaledLayer.lean ====
/-
  A dense layer on row-scaled input, followed by the rectifier, on the extended reals.

  For `x : [M, K]`, a scale `s p` per row, `w : [K, N]` and a bias `b q` per column, the entry `(p, q)` of the layer is
  `max ((∑ k, (x (p, k) · s p) · w (k, q)) + b q) 0`: row `p` of `x`, every entry multiplied by `s p`, against column `q`
  of `w`, plus the bias, clamped below at zero (`scaledLayer`).

  A vector unit is handed the scales as an `[M, 1]` column and the bias as a `[1, N]` row: it broadcasts the column over
  the `K` columns of `x`, multiplies, narrows both factors of the product to a shorter float format (no change on the
  extended reals), multiplies the matrices into a zero accumulator, adds the row broadcast over the `M` rows, and takes the
  maximum with a scalar zero (`vec_scaledLayer`). A host program is handed the scales as a vector of length `M` and the
  bias as a vector of length `N`: it lifts the scales to a column and broadcasts it, multiplies, takes a general dot product,
  adds the bias lifted to a row and broadcast, and takes the maximum with a rank-0 zero broadcast to the shape
  (`host_scaledLayer`). Both are `scaledLayer`.

  An entry of the layer depends on ONE row of `x` and on that row's scale only, so a block of consecutive rows of the
  layer is the layer of that block of rows (`scaledLayer_rows`).
-/
import proofs.«115186_j77309411328099_1_alg».proof.Proof.LibDenseLayer
import proofs.«115186_j77309411328099_1_alg».proof.Proof.LibPlainMatmul
import proofs.«115186_j77309411328099_1_alg».proof.Proof.LibLayerForms
import proofs.«115186_j77309411328099_1_alg».proof.Proof.LibBiasRow
import proofs.«115186_j77309411328099_1_alg».proof.Proof.LibColumn
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.ScaledLayer

open Idealize.ShloMosaic Idealize.ShloMosaic.ValueIdx Cert.DenseLayer Cert.LayerForms Cert.LibBiasRow

/-- Every row of `x` multiplied by that row's scale. -/
def scaleRows {M K : ℕ} (x : (⟨2, ![M, K]⟩ : Shape).Idx → EReal) (s : Fin M → EReal) : (⟨2, ![M, K]⟩ : Shape).Idx → EReal :=
  fun i => x i * s (i 0)

/-- The layer: rows scaled, times `w`, plus the bias, clamped below at zero. -/
def scaledLayer {M K N : ℕ} (x : (⟨2, ![M, K]⟩ : Shape).Idx → EReal) (s : Fin M → EReal)
    (w : (⟨2, ![K, N]⟩ : Shape).Idx → EReal) (b : Fin N → EReal) : (⟨2, ![M, N]⟩ : Shape).Idx → EReal :=
  relu (dense (scaleRows x s) w b)

theorem scaledLayer_ix2 {M K N : ℕ} (x : (⟨2, ![M, K]⟩ : Shape).Idx → EReal) (s : Fin M → EReal)
    (w : (⟨2, ![K, N]⟩ : Shape).Idx → EReal) (b : Fin N → EReal) (p : Fin M) (q : Fin N) :
    scaledLayer x s w b (ix2 p q) = max ((∑ k : Fin K, (x (ix2 p k) * s p) * w (ix2 k q)) + b q) 0 := rfl

/-- Row `p` of the layer on a block of rows is row `P` of the layer on the whole array, when row `p` of the block is
    row `P` of the array and carries the same scale. -/
theorem scaledLayer_rows {m M K N : ℕ} (xb : (⟨2, ![m, K]⟩ : Shape).Idx → EReal) (x : (⟨2, ![M, K]⟩ : Shape).Idx → EReal)
    (sb : Fin m → EReal) (s : Fin M → EReal) (w : (⟨2, ![K, N]⟩ : Shape).Idx → EReal) (b : Fin N → EReal)
    (p : Fin m) (P : Fin M) (q : Fin N) (hx : ∀ k : Fin K, xb (ix2 p k) = x (ix2 P k)) (hs : sb p = s P) :
    scaledLayer xb sb w b (ix2 p q) = scaledLayer x s w b (ix2 P q) := by
  rw [scaledLayer_ix2, scaledLayer_ix2]
  refine congrArg (fun z => max (z + b q) 0) (Finset.sum_congr rfl fun k _ => ?_)
  rw [hx k, hs]

/-- The layer as a vector unit spells it: the scales an `[M, 1]` column, the bias a `[1, N]` row. -/
theorem vec_scaledLayer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (s : FVec Ideal ⟨2, ![M, 1]⟩ .f32)
    (w : FVec Ideal ⟨2, ![K, N]⟩ .f32) (b : FVec Ideal ⟨2, ![1, N]⟩ .f32)
    (hx : (⟨2, ![M, K]⟩ : Shape).ShapeCasts ⟨2, ![M, K]⟩) (hs : (⟨2, ![M, 1]⟩ : Shape).ShapeCasts ⟨2, ![M, 1]⟩)
    (hsb : (⟨2, ![M, 1]⟩ : Shape).Broadcasts ⟨2, ![M, K]⟩) (hc : (⟨2, ![1, N]⟩ : Shape).ShapeCasts ⟨2, ![1, N]⟩)
    (hb : (⟨2, ![1, N]⟩ : Shape).Broadcasts ⟨2, ![M, N]⟩) (hlt : FTy.bf16.bits < FTy.f32.bits) :
    maximumf
        (addf
          (matmul D prec
            (truncf .bf16 (mulf (shapeCast ⟨2, ![M, K]⟩ x hx) (broadcastTo ⟨2, ![M, K]⟩ (shapeCast ⟨2, ![M, 1]⟩ s hs) hsb)) hlt)
            (truncf .bf16 w hlt) (constant ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32))
      = scaledLayer x (fun p => s (ix2 p (0 : Fin 1))) w (rowBias b) := by
  funext i
  obtain ⟨p, q, rfl⟩ : ∃ (p : Fin M) (q : Fin N), i = ix2 p q := ⟨i 0, i 1, eq_ix2 i⟩
  rw [scaledLayer_ix2]
  show max (FloatOps.matmul D prec
        (truncf .bf16 (mulf (shapeCast ⟨2, ![M, K]⟩ x hx) (broadcastTo ⟨2, ![M, K]⟩ (shapeCast ⟨2, ![M, 1]⟩ s hs) hsb)) hlt)
        (truncf .bf16 w hlt) (constant ⟨2, ![M, N]⟩ .f32 0x00000000#32) (ix2 p q)
      + broadcastTo ⟨2, ![M, N]⟩ (shapeCast ⟨2, ![1, N]⟩ b hc) hb (ix2 p q)) (Ideal.ofBits .f32 0x00000000#32)
    = max ((∑ k : Fin K, (x (ix2 p k) * s (ix2 p (0 : Fin 1))) * w (ix2 k q)) + b (ix2 (0 : Fin 1) q)) 0
  rw [Cert.LibPlainMatmul.matmul_plain_zero_apply D hD, broadcastTo_1b_ab_apply, Ideal.ofBits_zero_f32]
  simp only [shapeCast_self]
  refine congrArg (fun z => max (z + b (ix2 (0 : Fin 1) q)) 0) (Finset.sum_congr rfl fun k _ => ?_)
  show (x (ix2 p k) * broadcastTo ⟨2, ![M, K]⟩ s hsb (ix2 p k)) * w (ix2 k q)
    = (x (ix2 p k) * s (ix2 p (0 : Fin 1))) * w (ix2 k q)
  rw [Cert.LibColumn.broadcastTo_a1_ab_apply]

/-- A vector of length `M` lifted to a column along a new trailing axis and broadcast over `K` columns reads, at
    `(p, k)`, the vector's entry `p`. -/
theorem colSpread_apply {M K : ℕ} (s : (⟨1, ![M]⟩ : Shape).Idx → EReal)
    (h1 : (⟨1, ![M]⟩ : Shape).BroadcastsInDim ⟨2, ![M, 1]⟩ ![0])
    (h2 : (⟨2, ![M, 1]⟩ : Shape).BroadcastsInDim ⟨2, ![M, K]⟩ ![0, 1]) (p : Fin M) (k : Fin K) :
    broadcastInDim ⟨2, ![M, K]⟩ ![0, 1] h2 (broadcastInDim ⟨2, ![M, 1]⟩ ![0] h1 s) (ix2 p k) = s (ix1 p) := by
  have e2 : broadcastInDim ⟨2, ![M, K]⟩ ![0, 1] h2 (broadcastInDim ⟨2, ![M, 1]⟩ ![0] h1 s) (ix2 p k)
      = broadcastInDim ⟨2, ![M, 1]⟩ ![0] h1 s (ix2 p (0 : Fin 1)) := by
    refine broadcastInDim_apply ![0, 1] h2 _ (ix2 p k) (ix2 p (0 : Fin 1)) fun a => ?_
    match a with
    | ⟨0, _⟩ =>
      show p.val = if M = 1 then 0 else p.val
      split
      · have := p.isLt; omega
      · rfl
    | ⟨1, _⟩ => rfl
  have e1 : broadcastInDim ⟨2, ![M, 1]⟩ ![0] h1 s (ix2 p (0 : Fin 1)) = s (ix1 p) := by
    refine broadcastInDim_apply ![0] h1 s (ix2 p (0 : Fin 1)) (ix1 p) fun a => ?_
    match a with
    | ⟨0, _⟩ =>
      show p.val = if M = 1 then 0 else p.val
      split
      · have := p.isLt; omega
      · rfl
  rw [e2, e1]

/-- The layer as a host program spells it: the scales a vector of length `M`, the bias a vector of length `N`. -/
theorem host_scaledLayer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (s : FVec Ideal ⟨1, ![M]⟩ .f32)
    (w : FVec Ideal ⟨2, ![K, N]⟩ .f32) (b : FVec Ideal ⟨1, ![N]⟩ .f32)
    (hs1 : (⟨1, ![M]⟩ : Shape).BroadcastsInDim ⟨2, ![M, 1]⟩ ![0])
    (hs2 : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf
        (addf
          (Host.dotGeneral D prec
            (mulf x (broadcastInDim ⟨2, ![M, K]⟩ ![0, 1] hs2 (broadcastInDim ⟨2, ![M, 1]⟩ ![0] hs1 s))) w)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = scaledLayer x (fun p => s (ix1 p)) w (colBias b) := by
  rw [host_layer D hD, host_relu]
  refine congrArg (fun y => relu (dense y w (colBias b))) (funext fun i => ?_)
  obtain ⟨p, k, rfl⟩ : ∃ (p : Fin M) (k : Fin K), i = ix2 p k := ⟨i 0, i 1, eq_ix2 i⟩
  show x (ix2 p k) * broadcastInDim ⟨2, ![M, K]⟩ ![0, 1] hs2 (broadcastInDim ⟨2, ![M, 1]⟩ ![0] hs1 s) (ix2 p k)
    = x (ix2 p k) * s (ix1 p)
  rw [colSpread_apply]

end Cert.ScaledLayer

end
-- ==== Proof.Spec.lean ====
/-
  The dense pieces of a graph network on the extended reals, each in the two spellings it is computed in.

  A graph-convolution layer, once the neighbourhood sums `x` are formed, multiplies every row `p` of `x : [M, K]` by a
  scale `s p`, multiplies by a weight matrix `w : [K, N]` and adds a bias `b q` per column: entry `(p, q)` is
  `(∑ k, (x (p, k) · s p) · w (k, q)) + b q` (`linF`). The leaky rectifier keeps an entry that is at least zero and multiplies
  any other entry by a fixed slope (`leaky1`). Batch normalisation takes an entry `z` of column `q`, that column's mean
  `μ q` and variance `v q`, a gain `g q` and a shift `β q` to `((z − μ q) · (v q + ε)^(−1/2)) · g q + β q`, followed here by
  the leaky rectifier (`bnF`).

  A vector unit is handed the scales as an `[M, 1]` column and every per-column quantity as a `[1, N]` row, and narrows the
  two factors of the matrix product to a shorter float format, which changes nothing on the extended reals; a host
  program is handed vectors of length `M` and `N` and lifts them by broadcasts. Each spelling is shown equal to the
  index-by-index function. An entry of each piece depends on ONE row of its matrix operand, so a block of rows of the
  result is the piece applied to that block of rows (`linF_rows`).
-/
import proofs.«115186_j77309411328099_1_alg».proof.Proof.LibDenseLayer
import proofs.«115186_j77309411328099_1_alg».proof.Proof.LibPlainMatmul
import proofs.«115186_j77309411328099_1_alg».proof.Proof.LibLayerForms
import proofs.«115186_j77309411328099_1_alg».proof.Proof.LibColumn
import proofs.«115186_j77309411328099_1_alg».proof.Proof.LibScaledLayer
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.Spec

open Idealize.ShloMosaic Idealize.ShloMosaic.ValueIdx Cert.DenseLayer Cert.LayerForms Cert.ScaledLayer

/-- Row `0` of a `[1, N]` array as a function of the column. -/
def rowOf {N : ℕ} (b : (⟨2, ![1, N]⟩ : Shape).Idx → EReal) : Fin N → EReal := fun q => b (ix2 (0 : Fin 1) q)

/-- Column `0` of an `[M, 1]` array as a function of the row. -/
def colOf {M : ℕ} (s : (⟨2, ![M, 1]⟩ : Shape).Idx → EReal) : Fin M → EReal := fun p => s (ix2 p (0 : Fin 1))

/-- A vector of length `N` as a function of its one coordinate. -/
def vecOf {N : ℕ} (b : (⟨1, ![N]⟩ : Shape).Idx → EReal) : Fin N → EReal := fun q => b (ix1 q)

/-! ## The leaky rectifier -/

/-- An entry that is at least zero is kept; any other is multiplied by the slope. -/
def leaky1 (y : EReal) : EReal :=
  Scalar.select (FloatOps.cmpf (F := Ideal) (φ := .f32) .oge y (Ideal.ofBits .f32 0x00000000#32)) y
    (Ideal.ofBits .f32 0x3C23D70A#32 * y)

/-- The leaky rectifier of every entry. -/
def leaky {S : Shape} (v : S.Idx → EReal) : S.Idx → EReal := fun i => leaky1 (v i)

/-- As a vector unit spells it: the comparison with a scalar zero broadcast to the shape, the slope a broadcast scalar. -/
theorem vec_leaky {S : Shape} (v : FVec Ideal S .f32) :
    select (cmpf .oge v (broadcast S (Scalar.ofBits (F := Ideal) .f32 0x00000000#32))) v
        (mulf (broadcast S (Scalar.ofBits (F := Ideal) .f32 0x3C23D70A#32)) v)
      = leaky v := by
  funext i
  rfl

/-- As a host program spells it: zero and the slope rank-0 constants broadcast to the shape. -/
theorem host_leaky {S : Shape} (v : FVec Ideal S .f32) (h : (⟨0, ![]⟩ : Shape).BroadcastsInDim S ![]) :
    select (cmpf .oge v (broadcastInDim S ![] h (constant (F := Ideal) ⟨0, ![]⟩ .f32 0x00000000#32))) v
        (mulf (broadcastInDim S ![] h (constant (F := Ideal) ⟨0, ![]⟩ .f32 0x3C23D70A#32)) v)
      = leaky v := by
  funext i
  show Scalar.select (FloatOps.cmpf (F := Ideal) (φ := .f32) .oge (v i)
        (broadcastInDim S ![] h (constant (F := Ideal) ⟨0, ![]⟩ .f32 0x00000000#32) i)) (v i)
      (broadcastInDim S ![] h (constant (F := Ideal) ⟨0, ![]⟩ .f32 0x3C23D70A#32) i * v i) = leaky1 (v i)
  rw [broadcastInDim_scalar_apply, broadcastInDim_scalar_apply]
  rfl

/-! ## The scaled dense layer -/

/-- Rows scaled, times `w`, plus the bias. -/
def linF {M K N : ℕ} (x : (⟨2, ![M, K]⟩ : Shape).Idx → EReal) (s : Fin M → EReal)
    (w : (⟨2, ![K, N]⟩ : Shape).Idx → EReal) (b : Fin N → EReal) : (⟨2, ![M, N]⟩ : Shape).Idx → EReal :=
  dense (scaleRows x s) w b

theorem linF_ix2 {M K N : ℕ} (x : (⟨2, ![M, K]⟩ : Shape).Idx → EReal) (s : Fin M → EReal)
    (w : (⟨2, ![K, N]⟩ : Shape).Idx → EReal) (b : Fin N → EReal) (p : Fin M) (q : Fin N) :
    linF x s w b (ix2 p q) = (∑ k : Fin K, (x (ix2 p k) * s p) * w (ix2 k q)) + b q := rfl

/-- Row `p` of the layer on a block of rows is row `P` of the layer on the whole array, when row `p` of the block is
    row `P` of the array and carries the same scale. -/
theorem linF_rows {m M K N : ℕ} (xb : (⟨2, ![m, K]⟩ : Shape).Idx → EReal) (x : (⟨2, ![M, K]⟩ : Shape).Idx → EReal)
    (sb : Fin m → EReal) (s : Fin M → EReal) (w : (⟨2, ![K, N]⟩ : Shape).Idx → EReal) (b : Fin N → EReal)
    (p : Fin m) (P : Fin M) (q : Fin N) (hx : ∀ k : Fin K, xb (ix2 p k) = x (ix2 P k)) (hs : sb p = s P) :
    linF xb sb w b (ix2 p q) = linF x s w b (ix2 P q) := by
  rw [linF_ix2, linF_ix2]
  refine congrArg (fun z => z + b q) (Finset.sum_congr rfl fun k _ => ?_)
  rw [hx k, hs]

/-- A scale of one on every row changes nothing. -/
theorem linF_one {M K N : ℕ} (x : (⟨2, ![M, K]⟩ : Shape).Idx → EReal) (s : Fin M → EReal) (hs : ∀ p, s p = 1)
    (w : (⟨2, ![K, N]⟩ : Shape).Idx → EReal) (b : Fin N → EReal) : linF x s w b = dense x w b := by
  unfold linF
  refine congrArg (fun y => dense y w b) (funext fun i => ?_)
  exact (congrArg (fun t => x i * t) (hs (i 0))).trans (mul_one _)

/-- The layer as a vector unit spells it: the scales an `[M, 1]` column, the bias a `[1, N]` row. -/
theorem vec_lin {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (s : FVec Ideal ⟨2, ![M, 1]⟩ .f32)
    (w : FVec Ideal ⟨2, ![K, N]⟩ .f32) (b : FVec Ideal ⟨2, ![1, N]⟩ .f32)
    (hx : (⟨2, ![M, K]⟩ : Shape).ShapeCasts ⟨2, ![M, K]⟩) (hs : (⟨2, ![M, 1]⟩ : Shape).ShapeCasts ⟨2, ![M, 1]⟩)
    (hsb : (⟨2, ![M, 1]⟩ : Shape).Broadcasts ⟨2, ![M, K]⟩) (hc : (⟨2, ![1, N]⟩ : Shape).ShapeCasts ⟨2, ![1, N]⟩)
    (hb : (⟨2, ![1, N]⟩ : Shape).Broadcasts ⟨2, ![M, N]⟩) (hlt : FTy.bf16.bits < FTy.f32.bits) :
    addf
        (matmul D prec
          (truncf .bf16 (mulf (shapeCast ⟨2, ![M, K]⟩ x hx) (broadcastTo ⟨2, ![M, K]⟩ (shapeCast ⟨2, ![M, 1]⟩ s hs) hsb)) hlt)
          (truncf .bf16 w hlt) (constant ⟨2, ![M, N]⟩ .f32 0x00000000#32))
        (broadcastTo ⟨2, ![M, N]⟩ (shapeCast ⟨2, ![1, N]⟩ b hc) hb)
      = linF x (colOf s) w (rowOf b) := by
  funext i
  obtain ⟨p, q, rfl⟩ : ∃ (p : Fin M) (q : Fin N), i = ix2 p q := ⟨i 0, i 1, eq_ix2 i⟩
  rw [linF_ix2]
  show FloatOps.matmul D prec
        (truncf .bf16 (mulf (shapeCast ⟨2, ![M, K]⟩ x hx) (broadcastTo ⟨2, ![M, K]⟩ (shapeCast ⟨2, ![M, 1]⟩ s hs) hsb)) hlt)
        (truncf .bf16 w hlt) (constant ⟨2, ![M, N]⟩ .f32 0x00000000#32) (ix2 p q)
      + broadcastTo ⟨2, ![M, N]⟩ (shapeCast ⟨2, ![1, N]⟩ b hc) hb (ix2 p q)
    = (∑ k : Fin K, (x (ix2 p k) * s (ix2 p (0 : Fin 1))) * w (ix2 k q)) + b (ix2 (0 : Fin 1) q)
  rw [Cert.LibPlainMatmul.matmul_plain_zero_apply D hD, broadcastTo_1b_ab_apply]
  simp only [shapeCast_self]
  refine congrArg (fun z => z + b (ix2 (0 : Fin 1) q)) (Finset.sum_congr rfl fun k _ => ?_)
  show (x (ix2 p k) * broadcastTo ⟨2, ![M, K]⟩ s hsb (ix2 p k)) * w (ix2 k q)
    = (x (ix2 p k) * s (ix2 p (0 : Fin 1))) * w (ix2 k q)
  rw [Cert.LibColumn.broadcastTo_a1_ab_apply]

/-- The layer as a host program spells it: the scales a vector of length `M`, the bias a vector of length `N`. -/
theorem host_lin {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (s : FVec Ideal ⟨1, ![M]⟩ .f32)
    (w : FVec Ideal ⟨2, ![K, N]⟩ .f32) (b : FVec Ideal ⟨1, ![N]⟩ .f32)
    (hs1 : (⟨1, ![M]⟩ : Shape).BroadcastsInDim ⟨2, ![M, 1]⟩ ![0])
    (hs2 : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1]) :
    addf
        (Host.dotGeneral D prec
          (mulf x (broadcastInDim ⟨2, ![M, K]⟩ ![0, 1] hs2 (broadcastInDim ⟨2, ![M, 1]⟩ ![0] hs1 s))) w)
        (broadcastInDim ⟨2, ![M, N]⟩ ![0, 1] h2 (broadcastInDim ⟨2, ![1, N]⟩ ![1] h1 b))
      = linF x (vecOf s) w (vecOf b) := by
  rw [host_layer D hD]
  refine congrArg (fun y => dense y w (colBias b)) (funext fun i => ?_)
  obtain ⟨p, k, rfl⟩ : ∃ (p : Fin M) (k : Fin K), i = ix2 p k := ⟨i 0, i 1, eq_ix2 i⟩
  show x (ix2 p k) * broadcastInDim ⟨2, ![M, K]⟩ ![0, 1] hs2 (broadcastInDim ⟨2, ![M, 1]⟩ ![0] hs1 s) (ix2 p k)
    = x (ix2 p k) * s (ix1 p)
  rw [colSpread_apply]

/-- A host program's unscaled layer. -/
theorem host_dense {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (vecOf b) :=
  host_layer D hD prec x w b h1 h2

/-! ## Batch normalisation followed by the leaky rectifier -/

/-- One entry normalised: `((z − μ) · (v + ε)^(−1/2)) · g + β`. -/
def bnAt (z mu var g be : EReal) : EReal :=
  ((z - mu) * Ideal.rsqrt (var + Ideal.ofBits .f32 0x3727C5AC#32)) * g + be

/-- Every entry normalised with its column's statistics, gain and shift, then rectified. -/
def bnF {M N : ℕ} (z : (⟨2, ![M, N]⟩ : Shape).Idx → EReal) (mu var g be : Fin N → EReal) :
    (⟨2, ![M, N]⟩ : Shape).Idx → EReal :=
  fun i => leaky1 (bnAt (z i) (mu (i 1)) (var (i 1)) (g (i 1)) (be (i 1)))

theorem bnF_ix2 {M N : ℕ} (z : (⟨2, ![M, N]⟩ : Shape).Idx → EReal) (mu var g be : Fin N → EReal) (p : Fin M) (q : Fin N) :
    bnF z mu var g be (ix2 p q) = leaky1 (bnAt (z (ix2 p q)) (mu q) (var q) (g q) (be q)) := rfl

end Cert.Spec

end
-- ==== Proof.Model.lean ====
/-
  The whole network as one function of its inputs.

  The irregular pieces — counting the edges at every node, gathering the source rows of every edge and summing them into
  the destination rows, joining a column to a matrix, and the mean over every graph's nodes followed by the last small
  layer — are computed by the same host operations on both sides, so they are carried here as named functions that are
  never opened: `invSqrtDeg`, `aggK`, `agg129K`, `catK`, `tailK`. The column statistics of a batch are the host's
  column sum divided by the number of rows (`colMean`) and the same mean of the squared deviations (`colVar`).

  Between them sit the dense pieces of `Cert.Spec`: five scaled layers, two batch normalisations, four leaky rectifiers
  and the node classifier. `nodeOut` and `graphOut` are the two results.
-/
import proofs.«115186_j77309411328099_1_alg».proof.Proof.Spec
import proofs.«115186_j77309411328099_1_alg».proof.Proof.Gen.KernelIdeal

noncomputable section

open scoped BigOperators

namespace Cert.Model

open Idealize.ShloMosaic Idealize.ShloMosaic.ValueIdx Cert.KernelIdeal Cert.KernelIdeal.Facts₀ Cert.KernelIdeal.Facts
open Cert.DenseLayer Cert.Spec

/-! ## The shared host pieces -/

/-- One over the square root of the number of edges with each node as the endpoint listed in `e`, the count clamped
    below at one. -/
def invSqrtDeg (e : IVec S800000 32) : FVec Ideal S50000 .f32 :=
  Host.rsqrt (maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 e)
      (broadcastInDim S800000 ![] bcast_S_S800000 (constant (F := Ideal) S_ .f32 0x3F800000#32)))
    (broadcastInDim S50000 ![] bcast_S_S50000 (constant (F := Ideal) S_ .f32 0x3F800000#32)))

/-- An edge list's source indices with a negative index wrapped once. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Neighbourhood sums of a 128-column feature matrix: rows scaled by `ro`, the source row of every edge gathered, and
    summed into the edge's destination row. -/
def aggK (x : FVec Ideal S50000x128 .f32) (ro : FVec Ideal S50000 .f32) (src dst : IVec S800000 32) :
    FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128
      (mulf x (broadcastInDim S50000x128 ![0, 1] bcast_S50000x1_S50000x128_0_1
        (broadcastInDim S50000x1 ![0] bcast_S50000_S50000x1_0 ro)))
      (wrapIdx src))

/-- The same for a 129-column matrix. -/
def agg129K (x : FVec Ideal S50000x129 .f32) (ro : FVec Ideal S50000 .f32) (src dst : IVec S800000 32) :
    FVec Ideal S50000x129 .f32 :=
  Host.scatterAdd scatter_S50000x129_S800000x1_S800000x129_1_0_0_1
    (broadcastInDim S50000x129 ![] bcast_S_S50000x129 (constant (F := Ideal) S_ .f32 0x00000000#32))
    (broadcastInDim S800000x1 ![0] bcast_S800000_S800000x1_0 dst)
    (Host.gather gather_S50000x129_S800000x1_S800000x129_1_0_n_n_0_1_1129
      (mulf x (broadcastInDim S50000x129 ![0, 1] bcast_S50000x1_S50000x129_0_1
        (broadcastInDim S50000x1 ![0] bcast_S50000_S50000x1_0 ro)))
      (wrapIdx src))

/-- A vector joined to a matrix as one more column. -/
def catK (h : FVec Ideal S50000x128 .f32) (nt : FVec Ideal S50000 .f32) : FVec Ideal S50000x129 .f32 :=
  concatenate S50000x129 1 [⟨S50000x128, h⟩, ⟨S50000x1, broadcastInDim S50000x1 ![0] bcast_S50000_S50000x1_0 nt⟩]
    concatenates_S50000x128_S50000x1_S50000x129_d1

/-- The mean of every graph's node rows, then the last small layer. -/
def tailK (hg : FVec Ideal S50000x128 .f32) (gid : IVec S50000 32) (w : FVec Ideal S128x4 .f32) (b : FVec Ideal S4 .f32) :
    FVec Ideal S64x4 .f32 :=
  addf
    (Host.dotGeneral dot_S64x128_S128x4_S64x4_1_0_0_1_n_n none
      (Host.divf
        (Host.scatterAdd scatter_S64x128_S50000x1_S50000x128_1_0_0_1
          (broadcastInDim S64x128 ![] bcast_S_S64x128 (constant (F := Ideal) S_ .f32 0x00000000#32))
          (broadcastInDim S50000x1 ![0] bcast_S50000_S50000x1_0 gid) hg)
        (broadcastInDim S64x128 ![0, 1] bcast_S64x1_S64x128_0_1 (broadcastInDim S64x1 ![0] bcast_S64_S64x1_0
          (maximumf
            (Host.scatterAdd scatter_S64_S50000x1_S50000_n_0_0_1
              (broadcastInDim S64 ![] bcast_S_S64 (constant (F := Ideal) S_ .f32 0x00000000#32))
              (broadcastInDim S50000x1 ![0] bcast_S50000_S50000x1_0 gid)
              (broadcastInDim S50000 ![] bcast_S_S50000 (constant (F := Ideal) S_ .f32 0x3F800000#32)))
            (broadcastInDim S64 ![] bcast_S_S64 (constant (F := Ideal) S_ .f32 0x3F800000#32))))))
      w)
    (broadcastInDim S64x4 ![0, 1] bcast_S1x4_S64x4_0_1 (broadcastInDim S1x4 ![1] bcast_S4_S1x4_1 b))

/-! ## Column statistics of a batch -/

/-- The mean of every column: the host's column sum from zero, divided by the number of rows. -/
def colMean (z : FVec Ideal S50000x128 .f32) : Fin 128 → EReal := fun q =>
  Ideal.div (Host.reduceAdd z (constant (F := Ideal) S_ .f32 0x00000000#32) reducesTo_S50000x128_S128_d0 h_S_ (ix1 q))
    (Ideal.ofBits .f32 0x47435000#32)

/-- The squared deviations from the column means. -/
def sqDev (z : FVec Ideal S50000x128 .f32) : FVec Ideal S50000x128 .f32 :=
  fun i => (z i - colMean z (i 1)) * (z i - colMean z (i 1))

/-- The variance of every column: the mean of the squared deviations. -/
def colVar (z : FVec Ideal S50000x128 .f32) : Fin 128 → EReal := colMean (sqDev z)

/-! ## The inputs and the network -/

/-- The network's inputs. -/
structure Args where
  x0 : FVec Ideal S50000x128 .f32
  nt : FVec Ideal S50000 .f32
  W1 : FVec Ideal S128x128 .f32
  b1 : FVec Ideal S128 .f32
  g1 : FVec Ideal S128 .f32
  be1 : FVec Ideal S128 .f32
  W2 : FVec Ideal S128x128 .f32
  b2 : FVec Ideal S128 .f32
  g2 : FVec Ideal S128 .f32
  be2 : FVec Ideal S128 .f32
  Wn1 : FVec Ideal S128x128 .f32
  bn1 : FVec Ideal S128 .f32
  Wn2 : FVec Ideal S128x128 .f32
  bn2 : FVec Ideal S128 .f32
  Wnc : FVec Ideal S128x8 .f32
  bnc : FVec Ideal S8 .f32
  Wg1 : FVec Ideal S129x128 .f32
  bg1 : FVec Ideal S128 .f32
  Wgc : FVec Ideal S128x4 .f32
  bgc : FVec Ideal S4 .f32
  src : IVec S800000 32
  dst : IVec S800000 32
  gid : IVec S50000 32

variable (a : Args)

/-- Source-side and destination-side degree scales. -/
def ro : FVec Ideal S50000 .f32 := invSqrtDeg a.src
def ri : FVec Ideal S50000 .f32 := invSqrtDeg a.dst

/-- Neighbourhood sums over the network's edges. -/
def agg (x : FVec Ideal S50000x128 .f32) : FVec Ideal S50000x128 .f32 := aggK x (ro a) a.src a.dst

/-- A graph-convolution layer before any activation. -/
def gconv (x : FVec Ideal S50000x128 .f32) (w : FVec Ideal S128x128 .f32) (b : FVec Ideal S128 .f32) :
    FVec Ideal S50000x128 .f32 :=
  linF (agg a x) (vecOf (ri a)) w (vecOf b)

/-- Batch normalisation with the batch's own statistics, then the leaky rectifier. -/
def bnAct (z : FVec Ideal S50000x128 .f32) (g be : FVec Ideal S128 .f32) : FVec Ideal S50000x128 .f32 :=
  bnF z (colMean z) (colVar z) (vecOf g) (vecOf be)

def z1 : FVec Ideal S50000x128 .f32 := gconv a a.x0 a.W1 a.b1
def h1 : FVec Ideal S50000x128 .f32 := bnAct (z1 a) a.g1 a.be1
def z2 : FVec Ideal S50000x128 .f32 := gconv a (h1 a) a.W2 a.b2
def h2 : FVec Ideal S50000x128 .f32 := bnAct (z2 a) a.g2 a.be2
def hn1 : FVec Ideal S50000x128 .f32 := leaky (gconv a (h2 a) a.Wn1 a.bn1)
def hn2 : FVec Ideal S50000x128 .f32 := leaky (gconv a (hn1 a) a.Wn2 a.bn2)

/-- The node classifier's scores. -/
def nodeOut : FVec Ideal S50000x8 .f32 := dense (hn2 a) a.Wnc (vecOf a.bnc)

/-- The graph branch: the node type joined as a column, one more layer, rectified. -/
def hg : FVec Ideal S50000x128 .f32 :=
  leaky (linF (agg129K (catK (h2 a) a.nt) (ro a) a.src a.dst) (vecOf (ri a)) a.Wg1 (vecOf a.bg1))

/-- The graph classifier's scores. -/
def graphOut : FVec Ideal S64x4 .f32 := tailK (hg a) a.gid a.Wgc a.bgc

end Cert.Model

end
-- ==== Proof.SpecBn.lean ====
/-
  Batch normalisation before the rectifier, in its two spellings, and a per-column vector spread over the rows.

  `bnPre` normalises every entry with its column's mean, variance, gain and shift. A vector unit is handed the four
  per-column quantities as `[1, N]` rows and broadcasts each over the `M` rows; a host program is handed vectors of
  length `N`, lifts each to a row along a new leading axis and broadcasts that. The inverse square root is taken of the
  `N` values before they are spread, in both.
-/
import proofs.«115186_j77309411328099_1_alg».proof.Proof.Spec

noncomputable section

open scoped BigOperators

namespace Cert.Spec

open Idealize.ShloMosaic Idealize.ShloMosaic.ValueIdx Cert.DenseLayer Cert.LayerForms Cert.ScaledLayer

/-- Every entry normalised with its column's statistics, gain and shift. -/
def bnPre {M N : ℕ} (z : (⟨2, ![M, N]⟩ : Shape).Idx → EReal) (mu var g be : Fin N → EReal) :
    (⟨2, ![M, N]⟩ : Shape).Idx → EReal :=
  fun i => bnAt (z i) (mu (i 1)) (var (i 1)) (g (i 1)) (be (i 1))

theorem bnF_eq_leaky {M N : ℕ} (z : (⟨2, ![M, N]⟩ : Shape).Idx → EReal) (mu var g be : Fin N → EReal) :
    bnF z mu var g be = leaky (bnPre z mu var g be) := rfl

/-- A vector of length `N` lifted to a row along a new leading axis and broadcast over `M` rows reads, at `(p, q)`, the
    vector's entry `q`. -/
theorem rowSpread_apply {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [e2, e1]

/-- Normalisation as a vector unit spells it: the four per-column quantities `[1, N]` rows. -/
theorem vec_bnPre {M N : ℕ} (z : FVec Ideal ⟨2, ![M, N]⟩ .f32) (mu var g be : FVec Ideal ⟨2, ![1, N]⟩ .f32)
    (hz : (⟨2, ![M, N]⟩ : Shape).ShapeCasts ⟨2, ![M, N]⟩) (hr : (⟨2, ![1, N]⟩ : Shape).ShapeCasts ⟨2, ![1, N]⟩)
    (hb : (⟨2, ![1, N]⟩ : Shape).Broadcasts ⟨2, ![M, N]⟩) :
    addf
        (mulf
          (mulf (subf (shapeCast ⟨2, ![M, N]⟩ z hz) (broadcastTo ⟨2, ![M, N]⟩ (shapeCast ⟨2, ![1, N]⟩ mu hr) hb))
            (broadcastTo ⟨2, ![M, N]⟩
              (rsqrt (addf (shapeCast ⟨2, ![1, N]⟩ var hr)
                (broadcast ⟨2, ![1, N]⟩ (Scalar.ofBits (F := Ideal) .f32 0x3727C5AC#32)))) hb))
          (broadcastTo ⟨2, ![M, N]⟩ (shapeCast ⟨2, ![1, N]⟩ g hr) hb))
        (broadcastTo ⟨2, ![M, N]⟩ (shapeCast ⟨2, ![1, N]⟩ be hr) hb)
      = bnPre z (rowOf mu) (rowOf var) (rowOf g) (rowOf be) := by
  simp only [shapeCast_self]
  funext i
  obtain ⟨p, q, rfl⟩ : ∃ (p : Fin M) (q : Fin N), i = ix2 p q := ⟨i 0, i 1, eq_ix2 i⟩
  have e : ∀ v : FVec Ideal ⟨2, ![1, N]⟩ .f32, broadcastTo ⟨2, ![M, N]⟩ v hb (ix2 p q) = v (ix2 (0 : Fin 1) q) :=
    fun v => broadcastTo_1b_ab_apply v hb p q
  show ((z (ix2 p q) - broadcastTo ⟨2, ![M, N]⟩ mu hb (ix2 p q))
        * broadcastTo ⟨2, ![M, N]⟩
            (rsqrt (addf var (broadcast ⟨2, ![1, N]⟩ (Scalar.ofBits (F := Ideal) .f32 0x3727C5AC#32)))) hb (ix2 p q))
        * broadcastTo ⟨2, ![M, N]⟩ g hb (ix2 p q)
      + broadcastTo ⟨2, ![M, N]⟩ be hb (ix2 p q)
    = bnAt (z (ix2 p q)) (mu (ix2 (0 : Fin 1) q)) (var (ix2 (0 : Fin 1) q)) (g (ix2 (0 : Fin 1) q)) (be (ix2 (0 : Fin 1) q))
  rw [e, e, e, e]
  rfl

/-- Normalisation as a host program spells it: the four per-column quantities vectors of length `N`. -/
theorem host_bnPre {M N : ℕ} (z : FVec Ideal ⟨2, ![M, N]⟩ .f32) (mu var g be : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨1, ![N]⟩ ![]) :
    addf
        (mulf
          (mulf (subf z (broadcastInDim ⟨2, ![M, N]⟩ ![0, 1] h2 (broadcastInDim ⟨2, ![1, N]⟩ ![1] h1 mu)))
            (broadcastInDim ⟨2, ![M, N]⟩ ![0, 1] h2 (broadcastInDim ⟨2, ![1, N]⟩ ![1] h1
              (Host.rsqrt (addf var
                (broadcastInDim ⟨1, ![N]⟩ ![] h0 (constant (F := Ideal) ⟨0, ![]⟩ .f32 0x3727C5AC#32)))))))
          (broadcastInDim ⟨2, ![M, N]⟩ ![0, 1] h2 (broadcastInDim ⟨2, ![1, N]⟩ ![1] h1 g)))
        (broadcastInDim ⟨2, ![M, N]⟩ ![0, 1] h2 (broadcastInDim ⟨2, ![1, N]⟩ ![1] h1 be))
      = bnPre z (vecOf mu) (vecOf var) (vecOf g) (vecOf be) := by
  funext i
  obtain ⟨p, q, rfl⟩ : ∃ (p : Fin M) (q : Fin N), i = ix2 p q := ⟨i 0, i 1, eq_ix2 i⟩
  have e : ∀ v : FVec Ideal ⟨1, ![N]⟩ .f32,
      broadcastInDim ⟨2, ![M, N]⟩ ![0, 1] h2 (broadcastInDim ⟨2, ![1, N]⟩ ![1] h1 v) (ix2 p q) = v (ix1 q) :=
    fun v => rowSpread_apply v h1 h2 p q
  show ((z (ix2 p q) - broadcastInDim ⟨2, ![M, N]⟩ ![0, 1] h2 (broadcastInDim ⟨2, ![1, N]⟩ ![1] h1 mu) (ix2 p q))
        * broadcastInDim ⟨2, ![M, N]⟩ ![0, 1] h2 (broadcastInDim ⟨2, ![1, N]⟩ ![1] h1
            (Host.rsqrt (addf var
              (broadcastInDim ⟨1, ![N]⟩ ![] h0 (constant (F := Ideal) ⟨0, ![]⟩ .f32 0x3727C5AC#32))))) (ix2 p q))
        * broadcastInDim ⟨2, ![M, N]⟩ ![0, 1] h2 (broadcastInDim ⟨2, ![1, N]⟩ ![1] h1 g) (ix2 p q)
      + broadcastInDim ⟨2, ![M, N]⟩ ![0, 1] h2 (broadcastInDim ⟨2, ![1, N]⟩ ![1] h1 be) (ix2 p q)
    = bnAt (z (ix2 p q)) (mu (ix1 q)) (var (ix1 q)) (g (ix1 q)) (be (ix1 q))
  rw [e, e, e, e]
  show ((z (ix2 p q) - mu (ix1 q))
        * Ideal.rsqrt (var (ix1 q)
            + broadcastInDim ⟨1, ![N]⟩ ![] h0 (constant (F := Ideal) ⟨0, ![]⟩ .f32 0x3727C5AC#32) (ix1 q)))
        * g (ix1 q) + be (ix1 q) = _
  rw [broadcastInDim_scalar_apply]
  rfl

end Cert.Spec

end
-- ==== Proof.Stretch0.lean ====
/-
  What the first stretch of host operations leaves behind.

  From any contents `W` of the buffers, the operations before the first region count the edges at every node, clamp
  the counts below at one and take one over the square root (once per endpoint list), scale the rows of the feature
  matrix, gather the source row of every edge and sum it into the destination row, and re-lay two vectors as a column
  and a row. The buffers read later hold the named functions of `Cert.Model` of the argument buffers; a buffer the
  stretch does not write holds what it held.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.ValueIdx
open Cert.KernelIdeal Cert.KernelIdeal.Facts₀ Cert.KernelIdeal.Facts
open Cert.Spec
open Cert.KernelIdeal.Gen (hostOps0 hostOps1 hostOps2 hostOps3 hostOps4 hostOps5 hostOps6 hostOps7 hostOps8)

/-! ## The buffers read later -/

/-- The neighbourhood sums of the input features. -/
theorem s0_v27 (W : Valuation τ sig (Elt Ideal)) :
    StableHlo.after hostOps0 W (Proc.devRef .tc main_v27)
      = Model.aggK (W (Proc.devRef .tc main_arg0)) (Model.invSqrtDeg (W (Proc.devRef .tc main_arg23)))
          (W (Proc.devRef .tc main_arg23)) (W (Proc.devRef .tc main_arg24)) := by
  show StableHlo.after hostOps0 W (Proc.devRef .tc main_v27) = _
  after_results_simp
  rfl

/-- The source-side degree scale. -/
theorem s0_v11 (W : Valuation τ sig (Elt Ideal)) :
    StableHlo.after hostOps0 W (Proc.devRef .tc main_v11) = Model.invSqrtDeg (W (Proc.devRef .tc main_arg23)) := by
  show StableHlo.after hostOps0 W (Proc.devRef .tc main_v11) = _
  after_results_simp
  rfl

/-- The destination-side degree scale, re-laid as a column. -/
theorem s0_v13_raw (W : Valuation τ sig (Elt Ideal)) :
    StableHlo.after hostOps0 W (Proc.devRef .tc main_v13)
      = fun i => shapeCast S50000x1 (Model.invSqrtDeg (W (Proc.devRef .tc main_arg24))) shapeCasts_S50000_S50000x1 i := by
  show StableHlo.after hostOps0 W (Proc.devRef .tc main_v13) = _
  after_results_simp
  rfl

/-- Row `p` of that column is entry `p` of the destination-side degree scale. -/
theorem s0_v13 (W : Valuation τ sig (Elt Ideal)) :
    colOf (StableHlo.after hostOps0 W (Proc.devRef .tc main_v13)) = vecOf (Model.invSqrtDeg (W (Proc.devRef .tc main_arg24))) := by
  funext p
  show StableHlo.after hostOps0 W (Proc.devRef .tc main_v13) (ix2 p (0 : Fin 1)) = _
  rw [s0_v13_raw]
  exact Cert.LibColumn.shapeCast_a_a1_apply _ _ p 0

/-- A column of the constant one. -/
theorem s0_v14_raw (W : Valuation τ sig (Elt Ideal)) :
    StableHlo.after hostOps0 W (Proc.devRef .tc main_v14)
      = broadcastInDim S50000x1 ![] bcast_S_S50000x1 (constant (F := Ideal) S_ .f32 0x3F800000#32) := by
  show StableHlo.after hostOps0 W (Proc.devRef .tc main_v14) = _
  after_results

/-- Every entry of that column is one. -/
theorem s0_v14 (W : Valuation τ sig (Elt Ideal)) (p : Fin 50000) :
    colOf (StableHlo.after hostOps0 W (Proc.devRef .tc main_v14)) p = 1 := by
  show StableHlo.after hostOps0 W (Proc.devRef .tc main_v14) (ix2 p (0 : Fin 1)) = _
  rw [s0_v14_raw, broadcastInDim_scalar_apply]
  exact Idealize.ShloMosaic.Ideal.ofBits_one_f32

/-- The first bias, re-laid as a row. -/
theorem s0_v28_raw (W : Valuation τ sig (Elt Ideal)) :
    StableHlo.after hostOps0 W (Proc.devRef .tc main_v28)
      = fun i => shapeCast S1x128 (W (Proc.devRef .tc main_arg4)) shapeCasts_S128_S1x128 i := by
  show StableHlo.after hostOps0 W (Proc.devRef .tc main_v28) = _
  after_results
  rfl

/-- Column `q` of that row is entry `q` of the bias. -/
theorem s0_v28 (W : Valuation τ sig (Elt Ideal)) :
    rowOf (StableHlo.after hostOps0 W (Proc.devRef .tc main_v28)) = vecOf (W (Proc.devRef .tc main_arg4)) := by
  funext q
  show StableHlo.after hostOps0 W (Proc.devRef .tc main_v28) (ix2 (0 : Fin 1) q) = _
  rw [s0_v28_raw]
  exact shapeCast_a_1a_apply _ _ 0 q

/-! ## The buffers left alone -/

/-- The buffers stretch 0 writes. -/
abbrev written0 : List (Ref sig .tc) := [main_cst, main_v0, main_cst_0, main_v1, main_v2, main_v3, main_cst_1, main_v4, main_v5, main_cst_2, main_v6, main_v7, main_v8, main_cst_3, main_v9, main_v10, main_v11, main_v12, main_v13, main_cst_4, main_v14, main_v15, main_v16, main_v17, main_c, main_v18, main_v19, main_c_5, main_v20, main_v21, main_v22, main_v23, main_v24, main_cst_6, main_v25, main_v26, main_v27, main_v28]

/-- Every operation of stretch 0 writes one of them. -/
theorem hostOps0_writes : (hostOps0 : List (HloOp τ sig (Elt Ideal))).Forall fun op => op.writes ⊆ (written0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer stretch 0 does not write keeps its contents. -/
theorem s0_keep (W : Valuation τ sig (Elt Ideal)) (r : Ref sig .tc) (hr : r ∉ written0) :
    StableHlo.after hostOps0 W (Proc.devRef .tc r) = W (Proc.devRef .tc r) :=
  StableHlo.after_of_writes_sub hostOps0 W hostOps0_writes hr

example (W : Valuation τ sig (Elt Ideal)) :
    StableHlo.after hostOps0 W (Proc.devRef .tc main_arg23) = W (Proc.devRef .tc main_arg23) := s0_keep W main_arg23 (by decide)

end Cert.Stretch

end
-- ==== Proof.Stretch1Keep.lean ====
/-
  The buffers the second stretch of host operations leaves alone.

  The stretch forms the column means and variances of a batch and re-lays a gain and a shift as rows; the list of the buffers its operations write is spelt out, and a buffer not in the list holds after
  the stretch what it held before.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.ValueIdx
open Cert.KernelIdeal Cert.KernelIdeal.Facts₀ Cert.KernelIdeal.Facts
open Cert.Spec
open Cert.KernelIdeal.Gen (hostOps0 hostOps1 hostOps2 hostOps3 hostOps4 hostOps5 hostOps6 hostOps7 hostOps8)

/-- The buffers stretch 1 writes. -/
abbrev written1 : List (Ref sig .tc) := [main_cst_7, main_v30, main_v31, main_cst_8, main_v32, main_v33, main_v34, main_v35, main_v36, main_cst_9, main_v37, main_v38, main_cst_10, main_v39, main_v40, main_v41, main_v42]

/-- Every operation of stretch 1 writes one of them. -/
theorem hostOps1_writes : (hostOps1 : List (HloOp τ sig (Elt Ideal))).Forall fun op => op.writes ⊆ (written1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer stretch 1 does not write keeps its contents. -/
theorem s1_keep (W : Valuation τ sig (Elt Ideal)) (r : Ref sig .tc) (hr : r ∉ written1) :
    StableHlo.after hostOps1 W (Proc.devRef .tc r) = W (Proc.devRef .tc r) :=
  StableHlo.after_of_writes_sub hostOps1 W hostOps1_writes hr

example (W : Valuation τ sig (Elt Ideal)) :
    StableHlo.after hostOps1 W (Proc.devRef .tc main_arg23) = W (Proc.devRef .tc main_arg23) := s1_keep W main_arg23 (by decide)
example (W : Valuation τ sig (Elt Ideal)) :
    StableHlo.after hostOps1 W (Proc.devRef .tc main_v11) = W (Proc.devRef .tc main_v11) := s1_keep W main_v11 (by decide)

end Cert.Stretch

end
-- ==== Proof.Stretch2.lean ====
/-
  What the third stretch of host operations leaves behind.

  From any contents `W` of the buffers, the operations scale the rows of a feature matrix by the degree scale already
  held, gather the source row of every edge, sum it into the destination row, and re-lay a bias vector as a row. The
  buffers read later hold `Cert.Model.aggK` of the matrix, and the bias as a row whose column `q` is the bias's entry `q`; a buffer the stretch does not
  write holds what it held.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.ValueIdx
open Cert.KernelIdeal Cert.KernelIdeal.Facts₀ Cert.KernelIdeal.Facts
open Cert.Spec
open Cert.KernelIdeal.Gen (hostOps0 hostOps1 hostOps2 hostOps3 hostOps4 hostOps5 hostOps6 hostOps7 hostOps8)

/-! ## The buffers read later -/

/-- The neighbourhood sums of the first hidden layer. -/
theorem s2_v56 (W : Valuation τ sig (Elt Ideal)) :
    StableHlo.after hostOps2 W (Proc.devRef .tc main_v56)
      = Model.aggK (W (Proc.devRef .tc main_v43)) (W (Proc.devRef .tc main_v11))
          (W (Proc.devRef .tc main_arg23)) (W (Proc.devRef .tc main_arg24)) := by
  show StableHlo.after hostOps2 W (Proc.devRef .tc main_v56) = _
  after_results_simp
  rfl

/-- The second bias, re-laid as a row. -/
theorem s2_v57_raw (W : Valuation τ sig (Elt Ideal)) :
    StableHlo.after hostOps2 W (Proc.devRef .tc main_v57)
      = fun i => shapeCast S1x128 (W (Proc.devRef .tc main_arg8)) shapeCasts_S128_S1x128 i := by
  show StableHlo.after hostOps2 W (Proc.devRef .tc main_v57) = _
  after_results
  rfl

/-- Column `q` of that row is entry `q` of the bias. -/
theorem s2_v57 (W : Valuation τ sig (Elt Ideal)) :
    rowOf (StableHlo.after hostOps2 W (Proc.devRef .tc main_v57)) = vecOf (W (Proc.devRef .tc main_arg8)) := by
  funext q
  show StableHlo.after hostOps2 W (Proc.devRef .tc main_v57) (ix2 (0 : Fin 1) q) = _
  rw [s2_v57_raw]
  exact shapeCast_a_1a_apply _ _ 0 q

/-! ## The buffers left alone -/

/-- The buffers stretch 2 writes. -/
abbrev written2 : List (Ref sig .tc) := [main_v44, main_v45, main_v46, main_c_11, main_v47, main_v48, main_c_12, main_v49, main_v50, main_v51, main_v52, main_v53, main_cst_13, main_v54, main_v55, main_v56, main_v57]

/-- Every operation of stretch 2 writes one of them. -/
theorem hostOps2_writes : (hostOps2 : List (HloOp τ sig (Elt Ideal))).Forall fun op => op.writes ⊆ (written2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer stretch 2 does not write keeps its contents. -/
theorem s2_keep (W : Valuation τ sig (Elt Ideal)) (r : Ref sig .tc) (hr : r ∉ written2) :
    StableHlo.after hostOps2 W (Proc.devRef .tc r) = W (Proc.devRef .tc r) :=
  StableHlo.after_of_writes_sub hostOps2 W hostOps2_writes hr

example (W : Valuation τ sig (Elt Ideal)) :
    StableHlo.after hostOps2 W (Proc.devRef .tc main_arg23) = W (Proc.devRef .tc main_arg23) := s2_keep W main_arg23 (by decide)
example (W : Valuation τ sig (Elt Ideal)) :
    StableHlo.after hostOps2 W (Proc.devRef .tc main_v11) = W (Proc.devRef .tc main_v11) := s2_keep W main_v11 (by decide)

end Cert.Stretch

end
-- ==== Proof.Stretch3Keep.lean ====
/-
  The buffers the fourth stretch of host operations leaves alone.

  The stretch forms the column means and variances of a batch and re-lays a gain and a shift as rows; the list of the buffers its operations write is spelt out, and a buffer not in the list holds after
  the stretch what it held before.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.ValueIdx
open Cert.KernelIdeal Cert.KernelIdeal.Facts₀ Cert.KernelIdeal.Facts
open Cert.Spec
open Cert.KernelIdeal.Gen (hostOps0 hostOps1 hostOps2 hostOps3 hostOps4 hostOps5 hostOps6 hostOps7 hostOps8)

/-- The buffers stretch 3 writes. -/
abbrev written3 : List (Ref sig .tc) := [main_cst_14, main_v59, main_v60, main_cst_15, main_v61, main_v62, main_v63, main_v64, main_v65, main_cst_16, main_v66, main_v67, main_cst_17, main_v68, main_v69, main_v70, main_v71]

/-- Every operation of stretch 3 writes one of them. -/
theorem hostOps3_writes : (hostOps3 : List (HloOp τ sig (Elt Ideal))).Forall fun op => op.writes ⊆ (written3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer stretch 3 does not write keeps its contents. -/
theorem s3_keep (W : Valuation τ sig (Elt Ideal)) (r : Ref sig .tc) (hr : r ∉ written3) :
    StableHlo.after hostOps3 W (Proc.devRef .tc r) = W (Proc.devRef .tc r) :=
  StableHlo.after_of_writes_sub hostOps3 W hostOps3_writes hr

example (W : Valuation τ sig (Elt Ideal)) :
    StableHlo.after hostOps3 W (Proc.devRef .tc main_arg23) = W (Proc.devRef .tc main_arg23) := s3_keep W main_arg23 (by decide)
example (W : Valuation τ sig (Elt Ideal)) :
    StableHlo.after hostOps3 W (Proc.devRef .tc main_v11) = W (Proc.devRef .tc main_v11) := s3_keep W main_v11 (by decide)

end Cert.Stretch

end
-- ==== Proof.Stretch4.lean ====
/-
  What the fifth stretch of host operations leaves behind.

  From any contents `W` of the buffers, the operations scale the rows of a feature matrix by the degree scale already
  held, gather the source row of every edge, sum it into the destination row, and re-lay a bias vector as a row. The
  buffers read later hold `Cert.Model.aggK` of the matrix, and the bias as a row whose column `q` is the bias's entry `q`; a buffer the stretch does not
  write holds what it held.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.ValueIdx
open Cert.KernelIdeal Cert.KernelIdeal.Facts₀ Cert.KernelIdeal.Facts
open Cert.Spec
open Cert.KernelIdeal.Gen (hostOps0 hostOps1 hostOps2 hostOps3 hostOps4 hostOps5 hostOps6 hostOps7 hostOps8)

/-! ## The buffers read later -/

/-- The neighbourhood sums of the second hidden layer. -/
theorem s4_v85 (W : Valuation τ sig (Elt Ideal)) :
    StableHlo.after hostOps4 W (Proc.devRef .tc main_v85)
      = Model.aggK (W (Proc.devRef .tc main_v72)) (W (Proc.devRef .tc main_v11))
          (W (Proc.devRef .tc main_arg23)) (W (Proc.devRef .tc main_arg24)) := by
  show StableHlo.after hostOps4 W (Proc.devRef .tc main_v85) = _
  after_results_simp
  rfl

/-- The first node-branch bias, re-laid as a row. -/
theorem s4_v86_raw (W : Valuation τ sig (Elt Ideal)) :
    StableHlo.after hostOps4 W (Proc.devRef .tc main_v86)
      = fun i => shapeCast S1x128 (W (Proc.devRef .tc main_arg14)) shapeCasts_S128_S1x128 i := by
  show StableHlo.after hostOps4 W (Proc.devRef .tc main_v86) = _
  after_results
  rfl

/-- Column `q` of that row is entry `q` of the bias. -/
theorem s4_v86 (W : Valuation τ sig (Elt Ideal)) :
    rowOf (StableHlo.after hostOps4 W (Proc.devRef .tc main_v86)) = vecOf (W (Proc.devRef .tc main_arg14)) := by
  funext q
  show StableHlo.after hostOps4 W (Proc.devRef .tc main_v86) (ix2 (0 : Fin 1) q) = _
  rw [s4_v86_raw]
  exact shapeCast_a_1a_apply _ _ 0 q

/-! ## The buffers left alone -/

/-- The buffers stretch 4 writes. -/
abbrev written4 : List (Ref sig .tc) := [main_v73, main_v74, main_v75, main_c_18, main_v76, main_v77, main_c_19, main_v78, main_v79, main_v80, main_v81, main_v82, main_cst_20, main_v83, main_v84, main_v85, main_v86]

/-- Every operation of stretch 4 writes one of them. -/
theorem hostOps4_writes : (hostOps4 : List (HloOp τ sig (Elt Ideal))).Forall fun op => op.writes ⊆ (written4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer stretch 4 does not write keeps its contents. -/
theorem s4_keep (W : Valuation τ sig (Elt Ideal)) (r : Ref sig .tc) (hr : r ∉ written4) :
    StableHlo.after hostOps4 W (Proc.devRef .tc r) = W (Proc.devRef .tc r) :=
  StableHlo.after_of_writes_sub hostOps4 W hostOps4_writes hr

example (W : Valuation τ sig (Elt Ideal)) :
    StableHlo.after hostOps4 W (Proc.devRef .tc main_arg23) = W (Proc.devRef .tc main_arg23) := s4_keep W main_arg23 (by decide)
example (W : Valuation τ sig (Elt Ideal)) :
    StableHlo.after hostOps4 W (Proc.devRef .tc main_v11) = W (Proc.devRef .tc main_v11) := s4_keep W main_v11 (by decide)

end Cert.Stretch

end
-- ==== Proof.Stretch5.lean ====
/-
  What the sixth stretch of host operations leaves behind.

  From any contents `W` of the buffers, the operations scale the rows of a feature matrix by the degree scale already
  held, gather the source row of every edge, sum it into the destination row, and re-lay a bias vector as a row. The
  buffers read later hold `Cert.Model.aggK` of the matrix, and the bias as a row whose column `q` is the bias's entry `q`; a buffer the stretch does not
  write holds what it held.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.ValueIdx
open Cert.KernelIdeal Cert.KernelIdeal.Facts₀ Cert.KernelIdeal.Facts
open Cert.Spec
open Cert.KernelIdeal.Gen (hostOps0 hostOps1 hostOps2 hostOps3 hostOps4 hostOps5 hostOps6 hostOps7 hostOps8)

/-! ## The buffers read later -/

/-- The neighbourhood sums of the first node-branch layer. -/
theorem s5_v100 (W : Valuation τ sig (Elt Ideal)) :
    StableHlo.after hostOps5 W (Proc.devRef .tc main_v100)
      = Model.aggK (W (Proc.devRef .tc main_v87)) (W (Proc.devRef .tc main_v11))
          (W (Proc.devRef .tc main_arg23)) (W (Proc.devRef .tc main_arg24)) := by
  show StableHlo.after hostOps5 W (Proc.devRef .tc main_v100) = _
  after_results_simp
  rfl

/-- The second node-branch bias, re-laid as a row. -/
theorem s5_v101_raw (W : Valuation τ sig (Elt Ideal)) :
    StableHlo.after hostOps5 W (Proc.devRef .tc main_v101)
      = fun i => shapeCast S1x128 (W (Proc.devRef .tc main_arg16)) shapeCasts_S128_S1x128 i := by
  show StableHlo.after hostOps5 W (Proc.devRef .tc main_v101) = _
  after_results
  rfl

/-- Column `q` of that row is entry `q` of the bias. -/
theorem s5_v101 (W : Valuation τ sig (Elt Ideal)) :
    rowOf (StableHlo.after hostOps5 W (Proc.devRef .tc main_v101)) = vecOf (W (Proc.devRef .tc main_arg16)) := by
  funext q
  show StableHlo.after hostOps5 W (Proc.devRef .tc main_v101) (ix2 (0 : Fin 1) q) = _
  rw [s5_v101_raw]
  exact shapeCast_a_1a_apply _ _ 0 q

/-! ## The buffers left alone -/

/-- The buffers stretch 5 writes. -/
abbrev written5 : List (Ref sig .tc) := [main_v88, main_v89, main_v90, main_c_21, main_v91, main_v92, main_c_22, main_v93, main_v94, main_v95, main_v96, main_v97, main_cst_23, main_v98, main_v99, main_v100, main_v101]

/-- Every operation of stretch 5 writes one of them. -/
theorem hostOps5_writes : (hostOps5 : List (HloOp τ sig (Elt Ideal))).Forall fun op => op.writes ⊆ (written5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer stretch 5 does not write keeps its contents. -/
theorem s5_keep (W : Valuation τ sig (Elt Ideal)) (r : Ref sig .tc) (hr : r ∉ written5) :
    StableHlo.after hostOps5 W (Proc.devRef .tc r) = W (Proc.devRef .tc r) :=
  StableHlo.after_of_writes_sub hostOps5 W hostOps5_writes hr

example (W : Valuation τ sig (Elt Ideal)) :
    StableHlo.after hostOps5 W (Proc.devRef .tc main_arg23) = W (Proc.devRef .tc main_arg23) := s5_keep W main_arg23 (by decide)
example (W : Valuation τ sig (Elt Ideal)) :
    StableHlo.after hostOps5 W (Proc.devRef .tc main_v11) = W (Proc.devRef .tc main_v11) := s5_keep W main_v11 (by decide)

end Cert.Stretch

end
-- ==== Proof.Stretch6.lean ====
/-
  What the seventh stretch of host operations leaves behind.

  Its one operation re-lays the node classifier's bias vector as a row: column `q` of the row is entry `q` of the
  vector. Every other buffer holds what it held.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.ValueIdx
open Cert.KernelIdeal Cert.KernelIdeal.Facts₀ Cert.KernelIdeal.Facts
open Cert.Spec
open Cert.KernelIdeal.Gen (hostOps0 hostOps1 hostOps2 hostOps3 hostOps4 hostOps5 hostOps6 hostOps7 hostOps8)

/-! ## The buffer read later -/

/-- The node classifier's bias, re-laid as a row. -/
theorem s6_v103_raw (W : Valuation τ sig (Elt Ideal)) :
    StableHlo.after hostOps6 W (Proc.devRef .tc main_v103)
      = fun i => shapeCast S1x8 (W (Proc.devRef .tc main_arg18)) shapeCasts_S8_S1x8 i := by
  show StableHlo.after hostOps6 W (Proc.devRef .tc main_v103) = _
  after_results
  rfl

/-- Column `q` of that row is entry `q` of the bias. -/
theorem s6_v103 (W : Valuation τ sig (Elt Ideal)) :
    rowOf (StableHlo.after hostOps6 W (Proc.devRef .tc main_v103)) = vecOf (W (Proc.devRef .tc main_arg18)) := by
  funext q
  show StableHlo.after hostOps6 W (Proc.devRef .tc main_v103) (ix2 (0 : Fin 1) q) = _
  rw [s6_v103_raw]
  exact shapeCast_a_1a_apply _ _ 0 q

/-! ## The buffers left alone -/

/-- The buffers stretch 6 writes. -/
abbrev written6 : List (Ref sig .tc) := [main_v103]

/-- Every operation of stretch 6 writes one of them. -/
theorem hostOps6_writes : (hostOps6 : List (HloOp τ sig (Elt Ideal))).Forall fun op => op.writes ⊆ (written6.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer stretch 6 does not write keeps its contents. -/
theorem s6_keep (W : Valuation τ sig (Elt Ideal)) (r : Ref sig .tc) (hr : r ∉ written6) :
    StableHlo.after hostOps6 W (Proc.devRef .tc r) = W (Proc.devRef .tc r) :=
  StableHlo.after_of_writes_sub hostOps6 W hostOps6_writes hr

example (W : Valuation τ sig (Elt Ideal)) :
    StableHlo.after hostOps6 W (Proc.devRef .tc main_arg23) = W (Proc.devRef .tc main_arg23) := s6_keep W main_arg23 (by decide)
example (W : Valuation τ sig (Elt Ideal)) :
    StableHlo.after hostOps6 W (Proc.devRef .tc main_v11) = W (Proc.devRef .tc main_v11) := s6_keep W main_v11 (by decide)

end Cert.Stretch

end
-- ==== Proof.Stretch7.lean ====
/-
  What the eighth stretch of host operations leaves behind.

  From any contents `W` of the buffers, the operations join the node-type vector to the second hidden layer as one more
  column, scale the rows of the joined matrix by the degree scale already held, gather the source row of every edge, sum
  it into the destination row, and re-lay a bias vector as a row. The buffers read later hold `Cert.Model.agg129K` of
  `Cert.Model.catK` of the two, and the bias as a row whose column `q` is the bias's entry `q`; a buffer the stretch
  does not write holds what it held.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.ValueIdx
open Cert.KernelIdeal Cert.KernelIdeal.Facts₀ Cert.KernelIdeal.Facts
open Cert.Spec
open Cert.KernelIdeal.Gen (hostOps0 hostOps1 hostOps2 hostOps3 hostOps4 hostOps5 hostOps6 hostOps7 hostOps8)

/-! ## The buffers read later -/

/-- The neighbourhood sums of the second hidden layer with the node type joined as a column. -/
theorem s7_v119 (W : Valuation τ sig (Elt Ideal)) :
    StableHlo.after hostOps7 W (Proc.devRef .tc main_v119)
      = Model.agg129K (Model.catK (W (Proc.devRef .tc main_v72)) (W (Proc.devRef .tc main_arg1)))
          (W (Proc.devRef .tc main_v11)) (W (Proc.devRef .tc main_arg23)) (W (Proc.devRef .tc main_arg24)) := by
  show StableHlo.after hostOps7 W (Proc.devRef .tc main_v119) = _
  after_results_simp
  rfl

/-- The graph-branch bias, re-laid as a row. -/
theorem s7_v120_raw (W : Valuation τ sig (Elt Ideal)) :
    StableHlo.after hostOps7 W (Proc.devRef .tc main_v120)
      = fun i => shapeCast S1x128 (W (Proc.devRef .tc main_arg20)) shapeCasts_S128_S1x128 i := by
  show StableHlo.after hostOps7 W (Proc.devRef .tc main_v120) = _
  after_results
  rfl

/-- Column `q` of that row is entry `q` of the bias. -/
theorem s7_v120 (W : Valuation τ sig (Elt Ideal)) :
    rowOf (StableHlo.after hostOps7 W (Proc.devRef .tc main_v120)) = vecOf (W (Proc.devRef .tc main_arg20)) := by
  funext q
  show StableHlo.after hostOps7 W (Proc.devRef .tc main_v120) (ix2 (0 : Fin 1) q) = _
  rw [s7_v120_raw]
  exact shapeCast_a_1a_apply _ _ 0 q

/-! ## The buffers left alone -/

/-- The buffers stretch 7 writes. -/
abbrev written7 : List (Ref sig .tc) := [main_v105, main_v106, main_v107, main_v108, main_v109, main_c_24, main_v110, main_v111, main_c_25, main_v112, main_v113, main_v114, main_v115, main_v116, main_cst_26, main_v117, main_v118, main_v119, main_v120]

/-- Every operation of stretch 7 writes one of them. -/
theorem hostOps7_writes : (hostOps7 : List (HloOp τ sig (Elt Ideal))).Forall fun op => op.writes ⊆ (written7.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer stretch 7 does not write keeps its contents. -/
theorem s7_keep (W : Valuation τ sig (Elt Ideal)) (r : Ref sig .tc) (hr : r ∉ written7) :
    StableHlo.after hostOps7 W (Proc.devRef .tc r) = W (Proc.devRef .tc r) :=
  StableHlo.after_of_writes_sub hostOps7 W hostOps7_writes hr

example (W : Valuation τ sig (Elt Ideal)) :
    StableHlo.after hostOps7 W (Proc.devRef .tc main_arg23) = W (Proc.devRef .tc main_arg23) := s7_keep W main_arg23 (by decide)
example (W : Valuation τ sig (Elt Ideal)) :
    StableHlo.after hostOps7 W (Proc.devRef .tc main_v11) = W (Proc.devRef .tc main_v11) := s7_keep W main_v11 (by decide)

end Cert.Stretch

end
-- ==== Proof.Stretch8.lean ====
/-
  What the last stretch of host operations leaves behind.

  From any contents `W` of the buffers, the operations count the nodes of every graph, clamp the counts below at one,
  sum every graph's node rows, divide by the counts, multiply by the last weight matrix and add its bias. The result
  buffer holds `Cert.Model.tailK` of the node rows, the graph indices, the weight and the bias; a buffer the stretch does
  not write holds what it held.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.ValueIdx
open Cert.KernelIdeal Cert.KernelIdeal.Facts₀ Cert.KernelIdeal.Facts
open Cert.Spec
open Cert.KernelIdeal.Gen (hostOps0 hostOps1 hostOps2 hostOps3 hostOps4 hostOps5 hostOps6 hostOps7 hostOps8)

/-! ## The buffer read later -/

/-- The graph classifier's scores. -/
theorem s8_v137 (W : Valuation τ sig (Elt Ideal)) :
    StableHlo.after hostOps8 W (Proc.devRef .tc main_v137)
      = Model.tailK (W (Proc.devRef .tc main_v121)) (W (Proc.devRef .tc main_arg25))
          (W (Proc.devRef .tc main_arg21)) (W (Proc.devRef .tc main_arg22)) := by
  show StableHlo.after hostOps8 W (Proc.devRef .tc main_v137) = _
  after_results_simp
  rfl

/-! ## The buffers left alone -/

/-- The buffers stretch 8 writes. -/
abbrev written8 : List (Ref sig .tc) := [main_cst_27, main_v122, main_cst_28, main_v123, main_v124, main_v125, main_cst_29, main_v126, main_v127, main_cst_30, main_v128, main_v129, main_v130, main_v131, main_v132, main_v133, main_v134, main_v135, main_v136, main_v137]

/-- Every operation of stretch 8 writes one of them. -/
theorem hostOps8_writes : (hostOps8 : List (HloOp τ sig (Elt Ideal))).Forall fun op => op.writes ⊆ (written8.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer stretch 8 does not write keeps its contents. -/
theorem s8_keep (W : Valuation τ sig (Elt Ideal)) (r : Ref sig .tc) (hr : r ∉ written8) :
    StableHlo.after hostOps8 W (Proc.devRef .tc r) = W (Proc.devRef .tc r) :=
  StableHlo.after_of_writes_sub hostOps8 W hostOps8_writes hr

example (W : Valuation τ sig (Elt Ideal)) :
    StableHlo.after hostOps8 W (Proc.devRef .tc main_arg23) = W (Proc.devRef .tc main_arg23) := s8_keep W main_arg23 (by decide)
example (W : Valuation τ sig (Elt Ideal)) :
    StableHlo.after hostOps8 W (Proc.devRef .tc main_v11) = W (Proc.devRef .tc main_v11) := s8_keep W main_v11 (by decide)

end Cert.Stretch

end
-- ==== Proof.StretchStats.lean ====
/-
  The column statistics a host computes between the regions.

  Before each normalisation region the host sums every column of the region's input `z` from zero, lifts the `128` sums to
  a `[1, 128]` row and divides by the number of rows: the row of column means. It spreads that row over the rows of `z`,
  subtracts, squares, and takes the same mean of the squares: the row of column variances. The gain and the shift are
  vectors of length `128` recast as `[1, 128]` rows. Each of the four rows is read here, column by column, as the model's
  `colMean`, `colVar` or the vector itself; no sum is ever opened.
-/
import proofs.«115186_j77309411328099_1_alg».proof.Proof.Model
import proofs.«115186_j77309411328099_1_alg».proof.Proof.SpecBn
import proofs.«115186_j77309411328099_1_alg».proof.Proof.Gen.KernelIdeal.Launch
import Idealize.ShloMosaic.Lib.StableHlo.Run
import Idealize.ShloMosaic.Lib.Pipeline.Value
import Idealize.ShloMosaic.Lib.ValueLayout
import Idealize.ShloMosaic.Lib.IdealHost

noncomputable section

namespace Cert.Stretch

open Idealize.ShloMosaic Idealize.ShloMosaic.ValueIdx
open Cert.KernelIdeal Cert.KernelIdeal.Facts₀ Cert.KernelIdeal.Facts Cert.Spec

/-! ## Two broadcasts at an entry -/

/-- A vector of length `N` lifted to a `[1, N]` row reads, in column `q`, its entry `q`. -/
theorem vecRow_apply {N : ℕ} (b : (⟨1, ![N]⟩ : Shape).Idx → EReal)
    (h : (⟨1, ![N]⟩ : Shape).BroadcastsInDim ⟨2, ![1, N]⟩ ![1]) (q : Fin N) :
    broadcastInDim ⟨2, ![1, N]⟩ ![1] h b (ix2 (0 : Fin 1) q) = b (ix1 q) := by
  refine broadcastInDim_apply ![1] h b (ix2 (0 : Fin 1) q) (ix1 q) fun a => ?_
  match a with
  | ⟨0, _⟩ =>
    show q.val = if N = 1 then 0 else q.val
    split
    · have := q.isLt; omega
    · rfl

/-- A `[1, N]` row spread over `M` rows reads, at `(p, q)`, the row's column `q`. -/
theorem rowRows_apply {M N : ℕ} (r : (⟨2, ![1, N]⟩ : Shape).Idx → EReal)
    (h : (⟨2, ![1, N]⟩ : Shape).BroadcastsInDim ⟨2, ![M, N]⟩ ![0, 1]) (p : Fin M) (q : Fin N) :
    broadcastInDim ⟨2, ![M, N]⟩ ![0, 1] h r (ix2 p q) = r (ix2 (0 : Fin 1) q) := by
  refine broadcastInDim_apply ![0, 1] h r (ix2 p q) (ix2 (0 : Fin 1) q) fun a => ?_
  match a with
  | ⟨0, _⟩ => rfl
  | ⟨1, _⟩ =>
    show q.val = if N = 1 then 0 else q.val
    split
    · have := q.isLt; omega
    · rfl

/-! ## The row of column means, and the squared deviations -/

/-- The host's row of column means of `z`: the column sums from zero as a `[1, 128]` row, over the number of rows. -/
def meanRow (z : FVec Ideal S50000x128 .f32) : FVec Ideal S1x128 .f32 :=
  Host.divf
    (broadcastInDim S1x128 ![1] bcast_S128_S1x128_1
      (Host.reduceAdd z (constant (F := Ideal) S_ .f32 0x00000000#32) reducesTo_S50000x128_S128_d0 h_S_))
    (broadcastInDim S1x128 ![] bcast_S_S1x128 (constant (F := Ideal) S_ .f32 0x47435000#32))

/-- Column `q` of that row is the model's mean of column `q`. -/
theorem rowOf_meanRow (z : FVec Ideal S50000x128 .f32) : rowOf (meanRow z) = Model.colMean z := by
  funext q
  show Ideal.div
      (broadcastInDim S1x128 ![1] bcast_S128_S1x128_1
        (Host.reduceAdd z (constant (F := Ideal) S_ .f32 0x00000000#32) reducesTo_S50000x128_S128_d0 h_S_) (ix2 (0 : Fin 1) q))
      (broadcastInDim S1x128 ![] bcast_S_S1x128 (constant (F := Ideal) S_ .f32 0x47435000#32) (ix2 (0 : Fin 1) q))
    = Ideal.div (Host.reduceAdd z (constant (F := Ideal) S_ .f32 0x00000000#32) reducesTo_S50000x128_S128_d0 h_S_ (ix1 q))
        (Ideal.ofBits .f32 0x47435000#32)
  rw [vecRow_apply, broadcastInDim_scalar_apply]
  rfl

/-- The host's squares of `z` minus its row of means spread over the rows are the model's squared deviations. -/
theorem sq_meanRow (z : FVec Ideal S50000x128 .f32) :
    mulf (subf z (broadcastInDim S50000x128 ![0, 1] bcast_S1x128_S50000x128_0_1 (meanRow z)))
        (subf z (broadcastInDim S50000x128 ![0, 1] bcast_S1x128_S50000x128_0_1 (meanRow z)))
      = Model.sqDev z := by
  funext i
  obtain ⟨p, q, rfl⟩ : ∃ (p : Fin 50000) (q : Fin 128), i = ix2 p q := ⟨i 0, i 1, eq_ix2 i⟩
  have e : broadcastInDim S50000x128 ![0, 1] bcast_S1x128_S50000x128_0_1 (meanRow z) (ix2 p q) = Model.colMean z q :=
    (rowRows_apply (meanRow z) bcast_S1x128_S50000x128_0_1 p q).trans (congrFun (rowOf_meanRow z) q)
  show (z (ix2 p q) - broadcastInDim S50000x128 ![0, 1] bcast_S1x128_S50000x128_0_1 (meanRow z) (ix2 p q))
      * (z (ix2 p q) - broadcastInDim S50000x128 ![0, 1] bcast_S1x128_S50000x128_0_1 (meanRow z) (ix2 p q))
    = (z (ix2 p q) - Model.colMean z q) * (z (ix2 p q) - Model.colMean z q)
  rw [e]

/-- The host's row of column variances of `z`. -/
def varRow (z : FVec Ideal S50000x128 .f32) : FVec Ideal S1x128 .f32 :=
  meanRow (mulf (subf z (broadcastInDim S50000x128 ![0, 1] bcast_S1x128_S50000x128_0_1 (meanRow z)))
    (subf z (broadcastInDim S50000x128 ![0, 1] bcast_S1x128_S50000x128_0_1 (meanRow z))))

theorem rowOf_varRow (z : FVec Ideal S50000x128 .f32) : rowOf (varRow z) = Model.colVar z := by
  unfold varRow
  rw [sq_meanRow]
  exact rowOf_meanRow (Model.sqDev z)

/-- A vector of length `128` recast as a `[1, 128]` row reads, in column `q`, its entry `q`. -/
theorem rowOf_recast (b : FVec Ideal S128 .f32) :
    rowOf (fun i => shapeCast S1x128 b shapeCasts_S128_S1x128 i) = vecOf b := by
  funext q
  exact shapeCast_a_1a_apply b shapeCasts_S128_S1x128 (0 : Fin 1) q

/-! ## The four rows before each region -/

variable (W : Valuation τ sig (Elt Ideal))

theorem hostOps1_main_v33 :
    StableHlo.after (Gen.hostOps1 (F := Ideal)) W (Proc.devRef .tc main_v33) = meanRow (W (Proc.devRef .tc main_v29)) := by
  after_results; rfl

theorem hostOps1_main_v40 :
    StableHlo.after (Gen.hostOps1 (F := Ideal)) W (Proc.devRef .tc main_v40) = varRow (W (Proc.devRef .tc main_v29)) := by
  after_results; rfl

theorem hostOps1_main_v41 :
    StableHlo.after (Gen.hostOps1 (F := Ideal)) W (Proc.devRef .tc main_v41)
      = fun i => shapeCast S1x128 (W (Proc.devRef .tc main_arg5)) shapeCasts_S128_S1x128 i := by
  after_results; rfl

theorem hostOps1_main_v42 :
    StableHlo.after (Gen.hostOps1 (F := Ideal)) W (Proc.devRef .tc main_v42)
      = fun i => shapeCast S1x128 (W (Proc.devRef .tc main_arg6)) shapeCasts_S128_S1x128 i := by
  after_results; rfl

/-- Before region 1 the mean row holds the column means of the region's input, -/
theorem s1_v33 :
    rowOf (StableHlo.after (Gen.hostOps1 (F := Ideal)) W (Proc.devRef .tc main_v33)) = Model.colMean (W (Proc.devRef .tc main_v29)) := by
  rw [hostOps1_main_v33]; exact rowOf_meanRow _

/-- the variance row its column variances, -/
theorem s1_v40 :
    rowOf (StableHlo.after (Gen.hostOps1 (F := Ideal)) W (Proc.devRef .tc main_v40)) = Model.colVar (W (Proc.devRef .tc main_v29)) := by
  rw [hostOps1_main_v40]; exact rowOf_varRow _

/-- the gain row the gain vector, -/
theorem s1_v41 :
    rowOf (StableHlo.after (Gen.hostOps1 (F := Ideal)) W (Proc.devRef .tc main_v41)) = vecOf (W (Proc.devRef .tc main_arg5)) := by
  rw [hostOps1_main_v41]; exact rowOf_recast _

/-- and the shift row the shift vector. -/
theorem s1_v42 :
    rowOf (StableHlo.after (Gen.hostOps1 (F := Ideal)) W (Proc.devRef .tc main_v42)) = vecOf (W (Proc.devRef .tc main_arg6)) := by
  rw [hostOps1_main_v42]; exact rowOf_recast _

theorem hostOps3_main_v62 :
    StableHlo.after (Gen.hostOps3 (F := Ideal)) W (Proc.devRef .tc main_v62) = meanRow (W (Proc.devRef .tc main_v58)) := by
  after_results; rfl

theorem hostOps3_main_v69 :
    StableHlo.after (Gen.hostOps3 (F := Ideal)) W (Proc.devRef .tc main_v69) = varRow (W (Proc.devRef .tc main_v58)) := by
  after_results; rfl

theorem hostOps3_main_v70 :
    StableHlo.after (Gen.hostOps3 (F := Ideal)) W (Proc.devRef .tc main_v70)
      = fun i => shapeCast S1x128 (W (Proc.devRef .tc main_arg9)) shapeCasts_S128_S1x128 i := by
  after_results; rfl

theorem hostOps3_main_v71 :
    StableHlo.after (Gen.hostOps3 (F := Ideal)) W (Proc.devRef .tc main_v71)
      = fun i => shapeCast S1x128 (W (Proc.devRef .tc main_arg10)) shapeCasts_S128_S1x128 i := by
  after_results; rfl

/-- Before region 3 the mean row holds the column means of the region's input, -/
theorem s3_v62 :
    rowOf (StableHlo.after (Gen.hostOps3 (F := Ideal)) W (Proc.devRef .tc main_v62)) = Model.colMean (W (Proc.devRef .tc main_v58)) := by
  rw [hostOps3_main_v62]; exact rowOf_meanRow _

/-- the variance row its column variances, -/
theorem s3_v69 :
    rowOf (StableHlo.after (Gen.hostOps3 (F := Ideal)) W (Proc.devRef .tc main_v69)) = Model.colVar (W (Proc.devRef .tc main_v58)) := by
  rw [hostOps3_main_v69]; exact rowOf_varRow _

/-- the gain row the gain vector, -/
theorem s3_v70 :
    rowOf (StableHlo.after (Gen.hostOps3 (F := Ideal)) W (Proc.devRef .tc main_v70)) = vecOf (W (Proc.devRef .tc main_arg9)) := by
  rw [hostOps3_main_v70]; exact rowOf_recast _

/-- and the shift row the shift vector. -/
theorem s3_v71 :
    rowOf (StableHlo.after (Gen.hostOps3 (F := Ideal)) W (Proc.devRef .tc main_v71)) = vecOf (W (Proc.devRef .tc main_arg10)) := by
  rw [hostOps3_main_v71]; exact rowOf_recast _

end Cert.Stretch

end
-- ==== Proof.RegionLib.lean ====
/-
  What the six scaled dense layers of the network share once each is read block by block.

  A layer's result on a block of rows is computed from that block of rows of the matrix operand and of the scale column,
  and from the whole weight matrix and the whole bias row. An entry `(p, q)` of the block's result is therefore the
  entry `(P, q)` of the layer on the whole arrays, where `P` is the array row that block row `p` is (`lin_block`); the
  leaky rectifier acts entry by entry, so the same holds after it (`leaky_lin_block`). Blocks of `B` rows tile an array of
  `T · B` rows: row `r` lies in block `r / B` (`row_in_block`).
-/
import proofs.«115186_j77309411328099_1_alg».proof.Proof.Spec

noncomputable section

namespace Cert.RegionLib

open Idealize.ShloMosaic Idealize.ShloMosaic.ValueIdx Cert.Spec

/-- The zero offsets of a rank-2 access, as the constant function. -/
theorem zeros2 : (![0, 0] : Fin 2 → Nat) = fun _ => 0 := funext fun a => by fin_cases a <;> rfl

/-- Entry `j` of the layer on a block is entry `i` of the layer on the arrays, when the two entries are in the same
    column, row `j 0` of the block is row `i 0` of the array with the same scale, and the block's weights and bias are the
    arrays'. -/
theorem lin_block {m M K N : ℕ} (xb : (⟨2, ![m, K]⟩ : Shape).Idx → EReal) (x : (⟨2, ![M, K]⟩ : Shape).Idx → EReal)
    (sb : (⟨2, ![m, 1]⟩ : Shape).Idx → EReal) (s : (⟨2, ![M, 1]⟩ : Shape).Idx → EReal)
    (wb w : (⟨2, ![K, N]⟩ : Shape).Idx → EReal) (bb b : (⟨2, ![1, N]⟩ : Shape).Idx → EReal)
    (j : (⟨2, ![m, N]⟩ : Shape).Idx) (i : (⟨2, ![M, N]⟩ : Shape).Idx) (hq : j 1 = i 1)
    (hx : ∀ k : Fin K, xb (ix2 (j 0) k) = x (ix2 (i 0) k))
    (hs : sb (ix2 (j 0) (0 : Fin 1)) = s (ix2 (i 0) (0 : Fin 1))) (hw : wb = w) (hb : bb = b) :
    linF xb (colOf sb) wb (rowOf bb) j = linF x (colOf s) w (rowOf b) i := by
  subst hw hb
  refine (congrArg (linF xb (colOf sb) wb (rowOf bb)) (eq_ix2 j)).trans ?_
  refine Eq.trans ?_ (congrArg (linF x (colOf s) wb (rowOf bb)) (eq_ix2 i)).symm
  rw [hq]
  exact linF_rows xb x (colOf sb) (colOf s) wb (rowOf bb) (j 0) (i 0) (i 1) hx hs

/-- The same after the leaky rectifier, which acts on each entry by itself. -/
theorem leaky_lin_block {m M K N : ℕ} (xb : (⟨2, ![m, K]⟩ : Shape).Idx → EReal) (x : (⟨2, ![M, K]⟩ : Shape).Idx → EReal)
    (sb : (⟨2, ![m, 1]⟩ : Shape).Idx → EReal) (s : (⟨2, ![M, 1]⟩ : Shape).Idx → EReal)
    (wb w : (⟨2, ![K, N]⟩ : Shape).Idx → EReal) (bb b : (⟨2, ![1, N]⟩ : Shape).Idx → EReal)
    (j : (⟨2, ![m, N]⟩ : Shape).Idx) (i : (⟨2, ![M, N]⟩ : Shape).Idx) (hq : j 1 = i 1)
    (hx : ∀ k : Fin K, xb (ix2 (j 0) k) = x (ix2 (i 0) k))
    (hs : sb (ix2 (j 0) (0 : Fin 1)) = s (ix2 (i 0) (0 : Fin 1))) (hw : wb = w) (hb : bb = b) :
    leaky (linF xb (colOf sb) wb (rowOf bb)) j = leaky (linF x (colOf s) w (rowOf b)) i :=
  congrArg leaky1 (lin_block xb x sb s wb w bb b j i hq hx hs hw hb)

/-- Row `r` of `T` blocks of `B` rows lies in block `r / B`. -/
theorem row_in_block (B T r : ℕ) (hB : 0 < B) (hr : r < T * B) : r / B < T ∧ r / B * B ≤ r ∧ r < r / B * B + B := by
  refine ⟨Nat.div_lt_of_lt_mul (by rwa [Nat.mul_comm] at hr), Nat.div_mul_le_self r B, ?_⟩
  have := Nat.lt_div_mul_add hB (a := r)
  omega

end Cert.RegionLib

end
-- ==== Proof.Region0.lean ====
/-
  Region 0 of the idealized kernel: the first graph convolution's scaled dense layer, `[50000, 128]` by `[128, 128]`.

  The region runs over five grid points; at point `t` it reads rows `10000·t … 10000·t + 9999` of the matrix operand and
  of the scale column, the whole weight matrix and the whole bias row, and writes the same rows of its result. What a
  point computes from its blocks is the layer on those blocks (`payload`); read entry by entry this is the layer on the
  whole arrays at the array row the block row is (`flushed_eq`); the five row blocks tile the `50000` rows (`cover`); so
  the result array ends holding the layer of the arrays the region found (`final`).
-/
import proofs.«115186_j77309411328099_1_alg».proof.Proof.RegionLib
import proofs.«115186_j77309411328099_1_alg».proof.Proof.Gen.KernelIdeal.Frame
import Idealize.ShloMosaic.Lib.Pipeline.Value

noncomputable section

namespace Cert.Region0

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.RegionLib

/-- What a point computes from its four blocks is the layer on them. -/
theorem payload (x0 : Vec Ideal S10000x128 .f32) (x1 : Vec Ideal S10000x1 .f32) (x2 : Vec Ideal S128x128 .f32)
    (x3 : Vec Ideal S1x128 .f32) : k0_pay1 x0 x1 x2 x3 = linF x0 (colOf x1) x2 (rowOf x3) :=
  vec_lin dot_S10000x128_S128x128_S10000x128_1_0_0_1_n_n rfl none x0 x1 x2 x3 _ _ _ _ _ _

/-- The index maps, decided over the grid: the matrix operand, the scale column and the result move one row block per
    point; the weights and the bias stay at their one block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section
variable (V : (c : Dev nD) → (b : Ref sig .tc) → Buf (Elt Ideal) ((c : Thread nD τ).loc b))

/-- The layer of the arrays the region finds. -/
abbrev G (c : Dev nD) : S50000x128.Idx → EReal :=
  linF (V c main_v27 : S50000x128.Idx → EReal) (colOf (V c main_v13 : S50000x1.Idx → EReal)) (V c main_arg3 : S128x128.Idx → EReal) (rowOf (V c main_v28 : S1x128.Idx → EReal))

/-- What point `t` writes back is block `t` of the layer of the arrays. -/
theorem flushed_eq (c : Dev nD) (t : Fin cfg0.N) :
    (dat0 (F := Ideal) V c).flushed 4 t = ((cfg0.win 4).blk t).view.read (Elt Ideal) (G V c) := by
  show (cfg0.win 4).cut (grid0.coords t) ((dat0 (F := Ideal) V c).after 4 t) = _
  rw [after0_4]
  unfold out0_4
  rw [View.canon_unit_zero zeros2]
  simp only [View.ld_unit_zero (S := S10000x128) zeros2, View.ld_unit_zero (S := S10000x1) zeros2,
    View.ld_unit_zero (S := S128x128) zeros2, View.ld_unit_zero (S := S1x128) zeros2]
  rw [payload]
  obtain ⟨e00, e01, e10, e11, e20, e21, e30, e31, e40, e41⟩ := index_maps t
  funext j
  refine lin_block (m := 10000) (M := 50000) (K := 128) (N := 128) (iblk0 V c 0 t) (V c main_v27) (iblk0 V c 1 t) (V c main_v13)
    (iblk0 V c 2 t) (V c main_arg3) (iblk0 V c 3 t) (V c main_v28) j (((cfg0.win 4).blk t).view.emb j) ?_ ?_ ?_ ?_ ?_
  · apply Fin.ext
    show (j 1).val = win0_4.index t (1 : Fin 2) * 128 + 1 * (j 1).val
    omega
  · intro k
    show V c main_v27 (((cfg0.win 0).blk t).view.emb (ix2 (j 0) k)) = V c main_v27 (ix2 ((((cfg0.win 4).blk t).view.emb j) 0) k)
    refine congrArg (V c main_v27) (funext fun a => Fin.ext ?_)
    match a with
    | ⟨0, _⟩ => show win0_0.index t (0 : Fin 2) * 10000 + 1 * (j 0).val = win0_4.index t (0 : Fin 2) * 10000 + 1 * (j 0).val; omega
    | ⟨1, _⟩ => show win0_0.index t (1 : Fin 2) * 128 + 1 * k.val = k.val; omega
  · show V c main_v13 (((cfg0.win 1).blk t).view.emb (ix2 (j 0) (0 : Fin 1))) = V c main_v13 (ix2 ((((cfg0.win 4).blk t).view.emb j) 0) (0 : Fin 1))
    refine congrArg (V c main_v13) (funext fun a => Fin.ext ?_)
    match a with
    | ⟨0, _⟩ => show win0_1.index t (0 : Fin 2) * 10000 + 1 * (j 0).val = win0_4.index t (0 : Fin 2) * 10000 + 1 * (j 0).val; omega
    | ⟨1, _⟩ => show win0_1.index t (1 : Fin 2) * 1 + 1 * 0 = 0; omega
  · funext y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v28 (((cfg0.win 3).blk t).view.emb y) = V c main_v28 y
    refine congrArg (V c main_v28) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega

/-- Every entry of the result array lies in the block of the point its row names: row `r` in block `r / 10000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨h1, h2, h3⟩ := row_in_block 10000 5 (i 0).val (by omega) (by omega)
  obtain ⟨t, ht⟩ : ∃ t : Fin cfg0.N, t.val = (i 0).val / 10000 :=
    ⟨⟨(i 0).val / 10000, by rw [show cfg0.N = 5 from N_0]; exact h1⟩, rfl⟩
  obtain ⟨-, -, -, -, -, -, -, -, e40, e41⟩ := index_maps t
  refine ⟨t, flush0_4 t, ?_⟩
  show i ∈ ((View.whole main_v29).slice (win0_4.rect t)).set
  rw [View.set_slice_whole, Rect.mem_set_unit]
  intro a
  match a with
  | ⟨0, _⟩ =>
    show win0_4.index t (0 : Fin 2) * 10000 ≤ (i 0).val ∧ (i 0).val < win0_4.index t (0 : Fin 2) * 10000 + 10000
    rw [e40, ht]; exact ⟨h2, h3⟩
  | ⟨1, _⟩ =>
    show win0_4.index t (1 : Fin 2) * 128 ≤ (i 1).val ∧ (i 1).val < win0_4.index t (1 : Fin 2) * 128 + 128
    omega

/-- The result array after the region: the layer of the arrays the region found. -/
theorem final (c : Dev nD) :
    (dat0 (F := Ideal) V c).arrAt 4 cfg0.N
      = linF (V c main_v27 : S50000x128.Idx → EReal) (colOf (V c main_v13 : S50000x1.Idx → EReal)) (V c main_arg3 : S128x128.Idx → EReal)
          (rowOf (V c main_v28 : S1x128.Idx → EReal)) :=
  (dat0 (F := Ideal) V c).arrAt_eq_of_cover 4 (G V c) (fun t _ => flushed_eq V c t) cover

end

end Cert.Region0

end
-- ==== Proof.Region1.lean ====
/-
  The first normalisation region read as one function of the arrays it finds.

  The region's kernel takes a block of 10000 rows of a `[50000, 128]` array `z` and four `[1, 128]` rows — the column
  means, the column variances, a gain and a shift — and leaves, in the same rows of its output array, every entry
  normalised with its column's four quantities and then passed through the leaky rectifier. Five blocks of rows tile
  the array, so after the region the output array is `bnF z μ v g β` whole: an entry of `bnF` depends on its own entry of
  `z` and on its column alone, hence a block of rows of the result is the same function of that block of rows.
-/
import proofs.«115186_j77309411328099_1_alg».proof.Proof.SpecBn
import proofs.«115186_j77309411328099_1_alg».proof.Proof.Gen.KernelIdeal.Frame
import Idealize.ShloMosaic.Lib.Pipeline.Value

set_option maxRecDepth 16384

noncomputable section

namespace Cert.Region1

open Idealize.ShloMosaic Idealize.ShloMosaic.TcCoe Idealize.ShloMosaic.ValueIdx Idealize.SL.Sem
open Idealize.ShloMosaic.Pipeline (Dat)
open Cert.KernelIdeal Cert.KernelIdeal.Gen Cert.Spec

theorem zero_offsets : (![0, 0] : Fin 2 → Nat) = fun _ => 0 := funext fun a => by fin_cases a <;> rfl

/-- The kernel's arithmetic on its loaded block and rows is the normalisation followed by the rectifier. -/
theorem payload_eq (x0 : Vec Ideal S10000x128 .f32) (x1 x2 x3 x4 : Vec Ideal S1x128 .f32) :
    k1_pay1 x0 x1 x2 x3 x4 = bnF x0 (rowOf x1) (rowOf x2) (rowOf x3) (rowOf x4) := by
  rw [bnF_eq_leaky, ← vec_bnPre x0 x1 x2 x3 x4 shapeCasts_S10000x128_S10000x128 shapeCasts_S1x128_S1x128
    broadcasts_S1x128_S10000x128, ← vec_leaky]
  rfl

/-- An entry of the normalised block is the entry of the normalised array in the same column whose `z` it reads. -/
theorem bnF_rows {m M N : ℕ} (zb : (⟨2, ![m, N]⟩ : Shape).Idx → EReal) (z : (⟨2, ![M, N]⟩ : Shape).Idx → EReal)
    (mub varb gb beb mu var g be : Fin N → EReal) (j : (⟨2, ![m, N]⟩ : Shape).Idx) (i : (⟨2, ![M, N]⟩ : Shape).Idx)
    (hz : zb j = z i) (hc : j 1 = i 1) (hmu : mub = mu) (hvar : varb = var) (hg : gb = g) (hbe : beb = be) :
    bnF zb mub varb gb beb j = bnF z mu var g be i := by
  subst hmu hvar hg hbe
  show leaky1 (bnAt (zb j) (mub (j 1)) (varb (j 1)) (gb (j 1)) (beb (j 1)))
    = leaky1 (bnAt (z i) (mub (i 1)) (varb (i 1)) (gb (i 1)) (beb (i 1)))
  rw [hz, hc]

variable (V : (c : Dev nD) → (b : Ref sig .tc) → Buf (Elt Ideal) ((c : Thread nD τ).loc b))

/-- The printed index maps over the grid: the `z` block and the output block are block `t` of rows, each of the four rows
    is the one whole block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The `z` block at point `t`, read at an entry, is the array's entry `10000 t + p` of the same column. -/
theorem z_block (c : Dev nD) (t : Fin cfg1.N) (j : S10000x128.Idx) (i : S50000x128.Idx)
    (h0 : (i 0).val = t.val * 10000 + (j 0).val) (h1 : (i 1).val = (j 1).val) :
    (iblk1 V c 0 t : S10000x128.Idx → EReal) j = (V c main_v29 : S50000x128.Idx → EReal) i := by
  obtain ⟨e0, e1, -⟩ := index_facts t
  unfold iblk1
  rw [View.read_apply]
  show V c main_v29 _ = V c main_v29 _
  congr 1
  funext a
  apply Fin.ext
  match a with
  | ⟨0, _⟩ => show win1_0.index t 0 * 10000 + 1 * (j 0).val = (i 0).val; rw [e0, h0]; omega
  | ⟨1, _⟩ => show win1_0.index t 1 * 128 + 1 * (j 1).val = (i 1).val; rw [e1, h1]; omega

/-- Window 1's one block is its whole array: row `0` of the block is row `0` of the array. -/
theorem row1_block (c : Dev nD) (t : Fin cfg1.N) :
    rowOf (iblk1 V c 1 t : S1x128.Idx → EReal) = rowOf (V c main_v33 : S1x128.Idx → EReal) := by
  obtain ⟨-, -, e0, e1, -, -, -, -, -, -, -⟩ := index_facts t
  funext q
  show (iblk1 V c 1 t : S1x128.Idx → EReal) (ix2 (0 : Fin 1) q) = (V c main_v33 : S1x128.Idx → EReal) (ix2 (0 : Fin 1) q)
  unfold iblk1
  rw [View.read_apply]
  show V c main_v33 _ = V c main_v33 _
  congr 1
  funext a
  apply Fin.ext
  match a with
  | ⟨0, _⟩ => show win1_1.index t 0 * 1 + 1 * (0 : Fin 1).val = (0 : Fin 1).val; rw [e0]; rfl
  | ⟨1, _⟩ => show win1_1.index t 1 * 128 + 1 * q.val = q.val; rw [e1]; omega

/-- Window 2's one block is its whole array: row `0` of the block is row `0` of the array. -/
theorem row2_block (c : Dev nD) (t : Fin cfg1.N) :
    rowOf (iblk1 V c 2 t : S1x128.Idx → EReal) = rowOf (V c main_v40 : S1x128.Idx → EReal) := by
  obtain ⟨-, -, -, -, e0, e1, -, -, -, -, -⟩ := index_facts t
  funext q
  show (iblk1 V c 2 t : S1x128.Idx → EReal) (ix2 (0 : Fin 1) q) = (V c main_v40 : S1x128.Idx → EReal) (ix2 (0 : Fin 1) q)
  unfold iblk1
  rw [View.read_apply]
  show V c main_v40 _ = V c main_v40 _
  congr 1
  funext a
  apply Fin.ext
  match a with
  | ⟨0, _⟩ => show win1_2.index t 0 * 1 + 1 * (0 : Fin 1).val = (0 : Fin 1).val; rw [e0]; rfl
  | ⟨1, _⟩ => show win1_2.index t 1 * 128 + 1 * q.val = q.val; rw [e1]; omega

/-- Window 3's one block is its whole array: row `0` of the block is row `0` of the array. -/
theorem row3_block (c : Dev nD) (t : Fin cfg1.N) :
    rowOf (iblk1 V c 3 t : S1x128.Idx → EReal) = rowOf (V c main_v41 : S1x128.Idx → EReal) := by
  obtain ⟨-, -, -, -, -, -, e0, e1, -, -, -⟩ := index_facts t
  funext q
  show (iblk1 V c 3 t : S1x128.Idx → EReal) (ix2 (0 : Fin 1) q) = (V c main_v41 : S1x128.Idx → EReal) (ix2 (0 : Fin 1) q)
  unfold iblk1
  rw [View.read_apply]
  show V c main_v41 _ = V c main_v41 _
  congr 1
  funext a
  apply Fin.ext
  match a with
  | ⟨0, _⟩ => show win1_3.index t 0 * 1 + 1 * (0 : Fin 1).val = (0 : Fin 1).val; rw [e0]; rfl
  | ⟨1, _⟩ => show win1_3.index t 1 * 128 + 1 * q.val = q.val; rw [e1]; omega

/-- Window 4's one block is its whole array: row `0` of the block is row `0` of the array. -/
theorem row4_block (c : Dev nD) (t : Fin cfg1.N) :
    rowOf (iblk1 V c 4 t : S1x128.Idx → EReal) = rowOf (V c main_v42 : S1x128.Idx → EReal) := by
  obtain ⟨-, -, -, -, -, -, -, -, e0, e1, -⟩ := index_facts t
  funext q
  show (iblk1 V c 4 t : S1x128.Idx → EReal) (ix2 (0 : Fin 1) q) = (V c main_v42 : S1x128.Idx → EReal) (ix2 (0 : Fin 1) q)
  unfold iblk1
  rw [View.read_apply]
  show V c main_v42 _ = V c main_v42 _
  congr 1
  funext a
  apply Fin.ext
  match a with
  | ⟨0, _⟩ => show win1_4.index t 0 * 1 + 1 * (0 : Fin 1).val = (0 : Fin 1).val; rw [e0]; rfl
  | ⟨1, _⟩ => show win1_4.index t 1 * 128 + 1 * q.val = q.val; rw [e1]; omega

/-- What point `t` writes back is its block of rows of the normalised, rectified array. -/
theorem flushed_eq (c : Dev nD) (t : Fin cfg1.N) :
    (dat1 (F := Ideal) V c).flushed 5 t
      = ((cfg1.win 5).blk t).view.read (Elt Ideal)
          (bnF (V c main_v29) (rowOf (V c main_v33)) (rowOf (V c main_v40)) (rowOf (V c main_v41)) (rowOf (V c main_v42))) := by
  show (cfg1.win 5).cut (grid1.coords t) ((dat1 V c).after 5 t) = _
  rw [after1_5]
  unfold out1_5
  rw [View.canon_unit_zero zero_offsets]
  simp only [View.ld_unit_zero (S := S10000x128) zero_offsets, View.ld_unit_zero (S := S1x128) zero_offsets]
  rw [payload_eq]
  obtain ⟨-, -, -, -, -, -, -, -, -, -, e0, e1⟩ := index_facts t
  funext j
  refine bnF_rows (m := 10000) (M := 50000) (N := 128) (iblk1 V c 0 t) (V c main_v29) (rowOf (iblk1 V c 1 t))
    (rowOf (iblk1 V c 2 t)) (rowOf (iblk1 V c 3 t)) (rowOf (iblk1 V c 4 t)) (rowOf (V c main_v33)) (rowOf (V c main_v40))
    (rowOf (V c main_v41)) (rowOf (V c main_v42)) j (((cfg1.win 5).blk t).view.emb j) ?_ ?_
    (row1_block V c t) (row2_block V c t) (row3_block V c t) (row4_block V c t)
  · refine z_block V c t j (((cfg1.win 5).blk t).view.emb j) ?_ ?_
    · show win1_5.index t 0 * 10000 + 1 * (j 0).val = t.val * 10000 + (j 0).val
      rw [e0]; omega
    · show win1_5.index t 1 * 128 + 1 * (j 1).val = (j 1).val
      rw [e1]; omega
  · apply Fin.ext
    show (j 1).val = win1_5.index t 1 * 128 + 1 * (j 1).val
    rw [e1]; omega

/-- An entry of the output array is in point `t`'s block iff each coordinate is in the block's range on its axis. -/
theorem mem_blk (t : Fin cfg1.N) (i : S50000x128.Idx) :
    i ∈ ((cfg1.win 5).blk t).view.set
      ↔ ∀ a : Fin 2, win1_5.index t a * S10000x128.size a ≤ (i a).val
          ∧ (i a).val < win1_5.index t a * S10000x128.size a + S10000x128.size a := by
  show i ∈ ((View.whole main_v43).slice (win1_5.rect t)).set ↔ _
  rw [View.set_slice_whole, Rect.mem_set_unit]
  exact Iff.rfl

/-- Row `r` of the output array is in the block of point `r / 10000`: the five blocks of rows tile the array. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 10000 < cfg1.N := lt_of_lt_of_eq (by omega : (i 0).val / 10000 < 5) N_1.symm
  obtain ⟨-, -, -, -, -, -, -, -, -, -, e0, e1⟩ := index_facts ⟨(i 0).val / 10000, ht⟩
  refine ⟨⟨(i 0).val / 10000, ht⟩, flush1_5 _, ?_⟩
  rw [mem_blk]
  intro a
  match a with
  | ⟨0, _⟩ =>
    show win1_5.index ⟨(i 0).val / 10000, ht⟩ 0 * 10000 ≤ (i 0).val
      ∧ (i 0).val < win1_5.index ⟨(i 0).val / 10000, ht⟩ 0 * 10000 + 10000
    rw [e0]
    show (i 0).val / 10000 * 10000 ≤ (i 0).val ∧ (i 0).val < (i 0).val / 10000 * 10000 + 10000
    omega
  | ⟨1, _⟩ =>
    show win1_5.index ⟨(i 0).val / 10000, ht⟩ 1 * 128 ≤ (i 1).val
      ∧ (i 1).val < win1_5.index ⟨(i 0).val / 10000, ht⟩ 1 * 128 + 128
    rw [e1]; omega

/-- After the region the output array is the normalised, rectified `z`, whole. -/
theorem final (c : Dev nD) :
    (Cert.KernelIdeal.Gen.dat1 (F := Ideal) V c).arrAt 5 cfg1.N
      = bnF (V c main_v29) (rowOf (V c main_v33)) (rowOf (V c main_v40)) (rowOf (V c main_v41)) (rowOf (V c main_v42)) :=
  (dat1 V c).arrAt_eq_of_cover 5 _ (fun t _ => flushed_eq V c t) cover

end Cert.Region1

end
-- ==== Proof.Region2.lean ====
/-
  Region 2 of the idealized kernel: the second graph convolution's scaled dense layer, `[50000, 128]` by `[128, 128]`.

  The region runs over five grid points; at point `t` it reads rows `10000·t … 10000·t + 9999` of the matrix operand and
  of the scale column, the whole weight matrix and the whole bias row, and writes the same rows of its result. What a
  point computes from its blocks is the layer on those blocks (`payload`); read entry by entry this is the layer on the
  whole arrays at the array row the block row is (`flushed_eq`); the five row blocks tile the `50000` rows (`cover`); so
  the result array ends holding the layer of the arrays the region found (`final`).
-/
import proofs.«115186_j77309411328099_1_alg».proof.Proof.RegionLib
import proofs.«115186_j77309411328099_1_alg».proof.Proof.Gen.KernelIdeal.Frame
import Idealize.ShloMosaic.Lib.Pipeline.Value

noncomputable section

namespace Cert.Region2

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.RegionLib

/-- What a point computes from its four blocks is the layer on them. -/
theorem payload (x0 : Vec Ideal S10000x128 .f32) (x1 : Vec Ideal S10000x1 .f32) (x2 : Vec Ideal S128x128 .f32)
    (x3 : Vec Ideal S1x128 .f32) : k2_pay1 x0 x1 x2 x3 = linF x0 (colOf x1) x2 (rowOf x3) :=
  vec_lin dot_S10000x128_S128x128_S10000x128_1_0_0_1_n_n rfl none x0 x1 x2 x3 _ _ _ _ _ _

/-- The index maps, decided over the grid: the matrix operand, the scale column and the result move one row block per
    point; the weights and the bias stay at their one block. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section
variable (V : (c : Dev nD) → (b : Ref sig .tc) → Buf (Elt Ideal) ((c : Thread nD τ).loc b))

/-- The layer of the arrays the region finds. -/
abbrev G (c : Dev nD) : S50000x128.Idx → EReal :=
  linF (V c main_v56 : S50000x128.Idx → EReal) (colOf (V c main_v13 : S50000x1.Idx → EReal)) (V c main_arg7 : S128x128.Idx → EReal) (rowOf (V c main_v57 : S1x128.Idx → EReal))

/-- What point `t` writes back is block `t` of the layer of the arrays. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 (F := Ideal) V c).after 4 t) = _
  rw [after2_4]
  unfold out2_4
  rw [View.canon_unit_zero zeros2]
  simp only [View.ld_unit_zero (S := S10000x128) zeros2, View.ld_unit_zero (S := S10000x1) zeros2,
    View.ld_unit_zero (S := S128x128) zeros2, View.ld_unit_zero (S := S1x128) zeros2]
  rw [payload]
  obtain ⟨e00, e01, e10, e11, e20, e21, e30, e31, e40, e41⟩ := index_maps t
  funext j
  refine lin_block (m := 10000) (M := 50000) (K := 128) (N := 128) (iblk2 V c 0 t) (V c main_v56) (iblk2 V c 1 t) (V c main_v13)
    (iblk2 V c 2 t) (V c main_arg7) (iblk2 V c 3 t) (V c main_v57) j (((cfg2.win 4).blk t).view.emb j) ?_ ?_ ?_ ?_ ?_
  · apply Fin.ext
    show (j 1).val = win2_4.index t (1 : Fin 2) * 128 + 1 * (j 1).val
    omega
  · intro k
    show V c main_v56 (((cfg2.win 0).blk t).view.emb (ix2 (j 0) k)) = V c main_v56 (ix2 ((((cfg2.win 4).blk t).view.emb j) 0) k)
    refine congrArg (V c main_v56) (funext fun a => Fin.ext ?_)
    match a with
    | ⟨0, _⟩ => show win2_0.index t (0 : Fin 2) * 10000 + 1 * (j 0).val = win2_4.index t (0 : Fin 2) * 10000 + 1 * (j 0).val; omega
    | ⟨1, _⟩ => show win2_0.index t (1 : Fin 2) * 128 + 1 * k.val = k.val; omega
  · show V c main_v13 (((cfg2.win 1).blk t).view.emb (ix2 (j 0) (0 : Fin 1))) = V c main_v13 (ix2 ((((cfg2.win 4).blk t).view.emb j) 0) (0 : Fin 1))
    refine congrArg (V c main_v13) (funext fun a => Fin.ext ?_)
    match a with
    | ⟨0, _⟩ => show win2_1.index t (0 : Fin 2) * 10000 + 1 * (j 0).val = win2_4.index t (0 : Fin 2) * 10000 + 1 * (j 0).val; omega
    | ⟨1, _⟩ => show win2_1.index t (1 : Fin 2) * 1 + 1 * 0 = 0; omega
  · funext y
    show V c main_arg7 (((cfg2.win 2).blk t).view.emb y) = V c main_arg7 y
    refine congrArg (V c main_arg7) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v57 (((cfg2.win 3).blk t).view.emb y) = V c main_v57 y
    refine congrArg (V c main_v57) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega

/-- Every entry of the result array lies in the block of the point its row names: row `r` in block `r / 10000`. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨h1, h2, h3⟩ := row_in_block 10000 5 (i 0).val (by omega) (by omega)
  obtain ⟨t, ht⟩ : ∃ t : Fin cfg2.N, t.val = (i 0).val / 10000 :=
    ⟨⟨(i 0).val / 10000, by rw [show cfg2.N = 5 from N_2]; exact h1⟩, rfl⟩
  obtain ⟨-, -, -, -, -, -, -, -, e40, e41⟩ := index_maps t
  refine ⟨t, flush2_4 t, ?_⟩
  show i ∈ ((View.whole main_v58).slice (win2_4.rect t)).set
  rw [View.set_slice_whole, Rect.mem_set_unit]
  intro a
  match a with
  | ⟨0, _⟩ =>
    show win2_4.index t (0 : Fin 2) * 10000 ≤ (i 0).val ∧ (i 0).val < win2_4.index t (0 : Fin 2) * 10000 + 10000
    rw [e40, ht]; exact ⟨h2, h3⟩
  | ⟨1, _⟩ =>
    show win2_4.index t (1 : Fin 2) * 128 ≤ (i 1).val ∧ (i 1).val < win2_4.index t (1 : Fin 2) * 128 + 128
    omega

/-- The result array after the region: the layer of the arrays the region found. -/
theorem final (c : Dev nD) :
    (dat2 (F := Ideal) V c).arrAt 4 cfg2.N
      = linF (V c main_v56 : S50000x128.Idx → EReal) (colOf (V c main_v13 : S50000x1.Idx → EReal)) (V c main_arg7 : S128x128.Idx → EReal)
          (rowOf (V c main_v57 : S1x128.Idx → EReal)) :=
  (dat2 (F := Ideal) V c).arrAt_eq_of_cover 4 (G V c) (fun t _ => flushed_eq V c t) cover

end

end Cert.Region2

end
-- ==== Proof.Region3.lean ====
/-
  The second normalisation region read as one function of the arrays it finds.

  The region's kernel takes a block of 10000 rows of a `[50000, 128]` array `z` and four `[1, 128]` rows — the column
  means, the column variances, a gain and a shift — and leaves, in the same rows of its output array, every entry
  normalised with its column's four quantities and then passed through the leaky rectifier. Five blocks of rows tile
  the array, so after the region the output array is `bnF z μ v g β` whole: an entry of `bnF` depends on its own entry of
  `z` and on its column alone, hence a block of rows of the result is the same function of that block of rows.
-/
import proofs.«115186_j77309411328099_1_alg».proof.Proof.SpecBn
import proofs.«115186_j77309411328099_1_alg».proof.Proof.Gen.KernelIdeal.Frame
import Idealize.ShloMosaic.Lib.Pipeline.Value

set_option maxRecDepth 16384

noncomputable section

namespace Cert.Region3

open Idealize.ShloMosaic Idealize.ShloMosaic.TcCoe Idealize.ShloMosaic.ValueIdx Idealize.SL.Sem
open Idealize.ShloMosaic.Pipeline (Dat)
open Cert.KernelIdeal Cert.KernelIdeal.Gen Cert.Spec

theorem zero_offsets : (![0, 0] : Fin 2 → Nat) = fun _ => 0 := funext fun a => by fin_cases a <;> rfl

/-- The kernel's arithmetic on its loaded block and rows is the normalisation followed by the rectifier. -/
theorem payload_eq (x0 : Vec Ideal S10000x128 .f32) (x1 x2 x3 x4 : Vec Ideal S1x128 .f32) :
    k3_pay1 x0 x1 x2 x3 x4 = bnF x0 (rowOf x1) (rowOf x2) (rowOf x3) (rowOf x4) := by
  rw [bnF_eq_leaky, ← vec_bnPre x0 x1 x2 x3 x4 shapeCasts_S10000x128_S10000x128 shapeCasts_S1x128_S1x128
    broadcasts_S1x128_S10000x128, ← vec_leaky]
  rfl

/-- An entry of the normalised block is the entry of the normalised array in the same column whose `z` it reads. -/
theorem bnF_rows {m M N : ℕ} (zb : (⟨2, ![m, N]⟩ : Shape).Idx → EReal) (z : (⟨2, ![M, N]⟩ : Shape).Idx → EReal)
    (mub varb gb beb mu var g be : Fin N → EReal) (j : (⟨2, ![m, N]⟩ : Shape).Idx) (i : (⟨2, ![M, N]⟩ : Shape).Idx)
    (hz : zb j = z i) (hc : j 1 = i 1) (hmu : mub = mu) (hvar : varb = var) (hg : gb = g) (hbe : beb = be) :
    bnF zb mub varb gb beb j = bnF z mu var g be i := by
  subst hmu hvar hg hbe
  show leaky1 (bnAt (zb j) (mub (j 1)) (varb (j 1)) (gb (j 1)) (beb (j 1)))
    = leaky1 (bnAt (z i) (mub (i 1)) (varb (i 1)) (gb (i 1)) (beb (i 1)))
  rw [hz, hc]

variable (V : (c : Dev nD) → (b : Ref sig .tc) → Buf (Elt Ideal) ((c : Thread nD τ).loc b))

/-- The printed index maps over the grid: the `z` block and the output block are block `t` of rows, each of the four rows
    is the one whole block. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The `z` block at point `t`, read at an entry, is the array's entry `10000 t + p` of the same column. -/
theorem z_block (c : Dev nD) (t : Fin cfg3.N) (j : S10000x128.Idx) (i : S50000x128.Idx)
    (h0 : (i 0).val = t.val * 10000 + (j 0).val) (h1 : (i 1).val = (j 1).val) :
    (iblk3 V c 0 t : S10000x128.Idx → EReal) j = (V c main_v58 : S50000x128.Idx → EReal) i := by
  obtain ⟨e0, e1, -⟩ := index_facts t
  unfold iblk3
  rw [View.read_apply]
  show V c main_v58 _ = V c main_v58 _
  congr 1
  funext a
  apply Fin.ext
  match a with
  | ⟨0, _⟩ => show win3_0.index t 0 * 10000 + 1 * (j 0).val = (i 0).val; rw [e0, h0]; omega
  | ⟨1, _⟩ => show win3_0.index t 1 * 128 + 1 * (j 1).val = (i 1).val; rw [e1, h1]; omega

/-- Window 1's one block is its whole array: row `0` of the block is row `0` of the array. -/
theorem row1_block (c : Dev nD) (t : Fin cfg3.N) :
    rowOf (iblk3 V c 1 t : S1x128.Idx → EReal) = rowOf (V c main_v62 : S1x128.Idx → EReal) := by
  obtain ⟨-, -, e0, e1, -, -, -, -, -, -, -⟩ := index_facts t
  funext q
  show (iblk3 V c 1 t : S1x128.Idx → EReal) (ix2 (0 : Fin 1) q) = (V c main_v62 : S1x128.Idx → EReal) (ix2 (0 : Fin 1) q)
  unfold iblk3
  rw [View.read_apply]
  show V c main_v62 _ = V c main_v62 _
  congr 1
  funext a
  apply Fin.ext
  match a with
  | ⟨0, _⟩ => show win3_1.index t 0 * 1 + 1 * (0 : Fin 1).val = (0 : Fin 1).val; rw [e0]; rfl
  | ⟨1, _⟩ => show win3_1.index t 1 * 128 + 1 * q.val = q.val; rw [e1]; omega

/-- Window 2's one block is its whole array: row `0` of the block is row `0` of the array. -/
theorem row2_block (c : Dev nD) (t : Fin cfg3.N) :
    rowOf (iblk3 V c 2 t : S1x128.Idx → EReal) = rowOf (V c main_v69 : S1x128.Idx → EReal) := by
  obtain ⟨-, -, -, -, e0, e1, -, -, -, -, -⟩ := index_facts t
  funext q
  show (iblk3 V c 2 t : S1x128.Idx → EReal) (ix2 (0 : Fin 1) q) = (V c main_v69 : S1x128.Idx → EReal) (ix2 (0 : Fin 1) q)
  unfold iblk3
  rw [View.read_apply]
  show V c main_v69 _ = V c main_v69 _
  congr 1
  funext a
  apply Fin.ext
  match a with
  | ⟨0, _⟩ => show win3_2.index t 0 * 1 + 1 * (0 : Fin 1).val = (0 : Fin 1).val; rw [e0]; rfl
  | ⟨1, _⟩ => show win3_2.index t 1 * 128 + 1 * q.val = q.val; rw [e1]; omega

/-- Window 3's one block is its whole array: row `0` of the block is row `0` of the array. -/
theorem row3_block (c : Dev nD) (t : Fin cfg3.N) :
    rowOf (iblk3 V c 3 t : S1x128.Idx → EReal) = rowOf (V c main_v70 : S1x128.Idx → EReal) := by
  obtain ⟨-, -, -, -, -, -, e0, e1, -, -, -⟩ := index_facts t
  funext q
  show (iblk3 V c 3 t : S1x128.Idx → EReal) (ix2 (0 : Fin 1) q) = (V c main_v70 : S1x128.Idx → EReal) (ix2 (0 : Fin 1) q)
  unfold iblk3
  rw [View.read_apply]
  show V c main_v70 _ = V c main_v70 _
  congr 1
  funext a
  apply Fin.ext
  match a with
  | ⟨0, _⟩ => show win3_3.index t 0 * 1 + 1 * (0 : Fin 1).val = (0 : Fin 1).val; rw [e0]; rfl
  | ⟨1, _⟩ => show win3_3.index t 1 * 128 + 1 * q.val = q.val; rw [e1]; omega

/-- Window 4's one block is its whole array: row `0` of the block is row `0` of the array. -/
theorem row4_block (c : Dev nD) (t : Fin cfg3.N) :
    rowOf (iblk3 V c 4 t : S1x128.Idx → EReal) = rowOf (V c main_v71 : S1x128.Idx → EReal) := by
  obtain ⟨-, -, -, -, -, -, -, -, e0, e1, -⟩ := index_facts t
  funext q
  show (iblk3 V c 4 t : S1x128.Idx → EReal) (ix2 (0 : Fin 1) q) = (V c main_v71 : S1x128.Idx → EReal) (ix2 (0 : Fin 1) q)
  unfold iblk3
  rw [View.read_apply]
  show V c main_v71 _ = V c main_v71 _
  congr 1
  funext a
  apply Fin.ext
  match a with
  | ⟨0, _⟩ => show win3_4.index t 0 * 1 + 1 * (0 : Fin 1).val = (0 : Fin 1).val; rw [e0]; rfl
  | ⟨1, _⟩ => show win3_4.index t 1 * 128 + 1 * q.val = q.val; rw [e1]; omega

/-- What point `t` writes back is its block of rows of the normalised, rectified array. -/
theorem flushed_eq (c : Dev nD) (t : Fin cfg3.N) :
    (dat3 (F := Ideal) V c).flushed 5 t
      = ((cfg3.win 5).blk t).view.read (Elt Ideal)
          (bnF (V c main_v58) (rowOf (V c main_v62)) (rowOf (V c main_v69)) (rowOf (V c main_v70)) (rowOf (V c main_v71))) := by
  show (cfg3.win 5).cut (grid3.coords t) ((dat3 V c).after 5 t) = _
  rw [after3_5]
  unfold out3_5
  rw [View.canon_unit_zero zero_offsets]
  simp only [View.ld_unit_zero (S := S10000x128) zero_offsets, View.ld_unit_zero (S := S1x128) zero_offsets]
  rw [payload_eq]
  obtain ⟨-, -, -, -, -, -, -, -, -, -, e0, e1⟩ := index_facts t
  funext j
  refine bnF_rows (m := 10000) (M := 50000) (N := 128) (iblk3 V c 0 t) (V c main_v58) (rowOf (iblk3 V c 1 t))
    (rowOf (iblk3 V c 2 t)) (rowOf (iblk3 V c 3 t)) (rowOf (iblk3 V c 4 t)) (rowOf (V c main_v62)) (rowOf (V c main_v69))
    (rowOf (V c main_v70)) (rowOf (V c main_v71)) j (((cfg3.win 5).blk t).view.emb j) ?_ ?_
    (row1_block V c t) (row2_block V c t) (row3_block V c t) (row4_block V c t)
  · refine z_block V c t j (((cfg3.win 5).blk t).view.emb j) ?_ ?_
    · show win3_5.index t 0 * 10000 + 1 * (j 0).val = t.val * 10000 + (j 0).val
      rw [e0]; omega
    · show win3_5.index t 1 * 128 + 1 * (j 1).val = (j 1).val
      rw [e1]; omega
  · apply Fin.ext
    show (j 1).val = win3_5.index t 1 * 128 + 1 * (j 1).val
    rw [e1]; omega

/-- An entry of the output array is in point `t`'s block iff each coordinate is in the block's range on its axis. -/
theorem mem_blk (t : Fin cfg3.N) (i : S50000x128.Idx) :
    i ∈ ((cfg3.win 5).blk t).view.set
      ↔ ∀ a : Fin 2, win3_5.index t a * S10000x128.size a ≤ (i a).val
          ∧ (i a).val < win3_5.index t a * S10000x128.size a + S10000x128.size a := by
  show i ∈ ((View.whole main_v72).slice (win3_5.rect t)).set ↔ _
  rw [View.set_slice_whole, Rect.mem_set_unit]
  exact Iff.rfl

/-- Row `r` of the output array is in the block of point `r / 10000`: the five blocks of rows tile the array. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have ht : (i 0).val / 10000 < cfg3.N := lt_of_lt_of_eq (by omega : (i 0).val / 10000 < 5) N_3.symm
  obtain ⟨-, -, -, -, -, -, -, -, -, -, e0, e1⟩ := index_facts ⟨(i 0).val / 10000, ht⟩
  refine ⟨⟨(i 0).val / 10000, ht⟩, flush3_5 _, ?_⟩
  rw [mem_blk]
  intro a
  match a with
  | ⟨0, _⟩ =>
    show win3_5.index ⟨(i 0).val / 10000, ht⟩ 0 * 10000 ≤ (i 0).val
      ∧ (i 0).val < win3_5.index ⟨(i 0).val / 10000, ht⟩ 0 * 10000 + 10000
    rw [e0]
    show (i 0).val / 10000 * 10000 ≤ (i 0).val ∧ (i 0).val < (i 0).val / 10000 * 10000 + 10000
    omega
  | ⟨1, _⟩ =>
    show win3_5.index ⟨(i 0).val / 10000, ht⟩ 1 * 128 ≤ (i 1).val
      ∧ (i 1).val < win3_5.index ⟨(i 0).val / 10000, ht⟩ 1 * 128 + 128
    rw [e1]; omega

/-- After the region the output array is the normalised, rectified `z`, whole. -/
theorem final (c : Dev nD) :
    (Cert.KernelIdeal.Gen.dat3 (F := Ideal) V c).arrAt 5 cfg3.N
      = bnF (V c main_v58) (rowOf (V c main_v62)) (rowOf (V c main_v69)) (rowOf (V c main_v70)) (rowOf (V c main_v71)) :=
  (dat3 V c).arrAt_eq_of_cover 5 _ (fun t _ => flushed_eq V c t) cover

end Cert.Region3

end
-- ==== Proof.Region4.lean ====
/-
  Region 4 of the idealized kernel: the first node layer, a scaled dense layer `[50000, 128]` by `[128, 128]` followed by the leaky rectifier.

  The region runs over five grid points; at point `t` it reads rows `10000·t … 10000·t + 9999` of the matrix operand and
  of the scale column, the whole weight matrix and the whole bias row, and writes the same rows of its result. What a
  point computes from its blocks is the layer on those blocks (`payload`); read entry by entry this is the layer on the
  whole arrays at the array row the block row is (`flushed_eq`); the five row blocks tile the `50000` rows (`cover`); so
  the result array ends holding the layer of the arrays the region found (`final`).
-/
import proofs.«115186_j77309411328099_1_alg».proof.Proof.RegionLib
import proofs.«115186_j77309411328099_1_alg».proof.Proof.Gen.KernelIdeal.Frame
import Idealize.ShloMosaic.Lib.Pipeline.Value

noncomputable section

namespace Cert.Region4

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.RegionLib

/-- What a point computes from its four blocks is the layer on them. -/
theorem payload (x0 : Vec Ideal S10000x128 .f32) (x1 : Vec Ideal S10000x1 .f32) (x2 : Vec Ideal S128x128 .f32)
    (x3 : Vec Ideal S1x128 .f32) : k4_pay1 x0 x1 x2 x3 = leaky (linF x0 (colOf x1) x2 (rowOf x3)) :=
  (congrArg (fun z : FVec Ideal S10000x128 .f32 =>
      select (cmpf .oge z (broadcast S10000x128 (Scalar.ofBits (F := Ideal) .f32 0x00000000#32))) z
        (mulf (broadcast S10000x128 (Scalar.ofBits (F := Ideal) .f32 0x3C23D70A#32)) z))
    (vec_lin dot_S10000x128_S128x128_S10000x128_1_0_0_1_n_n rfl none x0 x1 x2 x3 _ _ _ _ _ _)).trans (vec_leaky _)

/-- The index maps, decided over the grid: the matrix operand, the scale column and the result move one row block per
    point; the weights and the bias stay at their one block. -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

section
variable (V : (c : Dev nD) → (b : Ref sig .tc) → Buf (Elt Ideal) ((c : Thread nD τ).loc b))

/-- The layer of the arrays the region finds. -/
abbrev G (c : Dev nD) : S50000x128.Idx → EReal :=
  leaky (linF (V c main_v85 : S50000x128.Idx → EReal) (colOf (V c main_v13 : S50000x1.Idx → EReal)) (V c main_arg13 : S128x128.Idx → EReal) (rowOf (V c main_v86 : S1x128.Idx → EReal)))

/-- What point `t` writes back is block `t` of the layer of the arrays. -/
theorem flushed_eq (c : Dev nD) (t : Fin cfg4.N) :
    (dat4 (F := Ideal) V c).flushed 4 t = ((cfg4.win 4).blk t).view.read (Elt Ideal) (G V c) := by
  show (cfg4.win 4).cut (grid4.coords t) ((dat4 (F := Ideal) V c).after 4 t) = _
  rw [after4_4]
  unfold out4_4
  rw [View.canon_unit_zero zeros2]
  simp only [View.ld_unit_zero (S := S10000x128) zeros2, View.ld_unit_zero (S := S10000x1) zeros2,
    View.ld_unit_zero (S := S128x128) zeros2, View.ld_unit_zero (S := S1x128) zeros2]
  rw [payload]
  obtain ⟨e00, e01, e10, e11, e20, e21, e30, e31, e40, e41⟩ := index_maps t
  funext j
  refine leaky_lin_block (m := 10000) (M := 50000) (K := 128) (N := 128) (iblk4 V c 0 t) (V c main_v85) (iblk4 V c 1 t) (V c main_v13)
    (iblk4 V c 2 t) (V c main_arg13) (iblk4 V c 3 t) (V c main_v86) j (((cfg4.win 4).blk t).view.emb j) ?_ ?_ ?_ ?_ ?_
  · apply Fin.ext
    show (j 1).val = win4_4.index t (1 : Fin 2) * 128 + 1 * (j 1).val
    omega
  · intro k
    show V c main_v85 (((cfg4.win 0).blk t).view.emb (ix2 (j 0) k)) = V c main_v85 (ix2 ((((cfg4.win 4).blk t).view.emb j) 0) k)
    refine congrArg (V c main_v85) (funext fun a => Fin.ext ?_)
    match a with
    | ⟨0, _⟩ => show win4_0.index t (0 : Fin 2) * 10000 + 1 * (j 0).val = win4_4.index t (0 : Fin 2) * 10000 + 1 * (j 0).val; omega
    | ⟨1, _⟩ => show win4_0.index t (1 : Fin 2) * 128 + 1 * k.val = k.val; omega
  · show V c main_v13 (((cfg4.win 1).blk t).view.emb (ix2 (j 0) (0 : Fin 1))) = V c main_v13 (ix2 ((((cfg4.win 4).blk t).view.emb j) 0) (0 : Fin 1))
    refine congrArg (V c main_v13) (funext fun a => Fin.ext ?_)
    match a with
    | ⟨0, _⟩ => show win4_1.index t (0 : Fin 2) * 10000 + 1 * (j 0).val = win4_4.index t (0 : Fin 2) * 10000 + 1 * (j 0).val; omega
    | ⟨1, _⟩ => show win4_1.index t (1 : Fin 2) * 1 + 1 * 0 = 0; omega
  · funext y
    show V c main_arg13 (((cfg4.win 2).blk t).view.emb y) = V c main_arg13 y
    refine congrArg (V c main_arg13) (funext fun a => Fin.ext ?_)
    match a with
    | ⟨0, _⟩ => show win4_2.index t (0 : Fin 2) * 128 + 1 * (y 0).val = (y 0).val; omega
    | ⟨1, _⟩ => show win4_2.index t (1 : Fin 2) * 128 + 1 * (y 1).val = (y 1).val; omega
  · funext y
    show V c main_v86 (((cfg4.win 3).blk t).view.emb y) = V c main_v86 y
    refine congrArg (V c main_v86) (funext fun a => Fin.ext ?_)
    match a with
    | ⟨0, _⟩ => show win4_3.index t (0 : Fin 2) * 1 + 1 * (y 0).val = (y 0).val; omega
    | ⟨1, _⟩ => show win4_3.index t (1 : Fin 2) * 128 + 1 * (y 1).val = (y 1).val; omega

/-- Every entry of the result array lies in the block of the point its row names: row `r` in block `r / 10000`. -/
theorem cover (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨h1, h2, h3⟩ := row_in_block 10000 5 (i 0).val (by omega) (by omega)
  obtain ⟨t, ht⟩ : ∃ t : Fin cfg4.N, t.val = (i 0).val / 10000 :=
    ⟨⟨(i 0).val / 10000, by rw [show cfg4.N = 5 from N_4]; exact h1⟩, rfl⟩
  obtain ⟨-, -, -, -, -, -, -, -, e40, e41⟩ := index_maps t
  refine ⟨t, flush4_4 t, ?_⟩
  show i ∈ ((View.whole main_v87).slice (win4_4.rect t)).set
  rw [View.set_slice_whole, Rect.mem_set_unit]
  intro a
  match a with
  | ⟨0, _⟩ =>
    show win4_4.index t (0 : Fin 2) * 10000 ≤ (i 0).val ∧ (i 0).val < win4_4.index t (0 : Fin 2) * 10000 + 10000
    rw [e40, ht]; exact ⟨h2, h3⟩
  | ⟨1, _⟩ =>
    show win4_4.index t (1 : Fin 2) * 128 ≤ (i 1).val ∧ (i 1).val < win4_4.index t (1 : Fin 2) * 128 + 128
    omega

/-- The result array after the region: the layer of the arrays the region found. -/
theorem final (c : Dev nD) :
    (dat4 (F := Ideal) V c).arrAt 4 cfg4.N
      = leaky (linF (V c main_v85 : S50000x128.Idx → EReal) (colOf (V c main_v13 : S50000x1.Idx → EReal)) (V c main_arg13 : S128x128.Idx → EReal)
          (rowOf (V c main_v86 : S1x128.Idx → EReal))) :=
  (dat4 (F := Ideal) V c).arrAt_eq_of_cover 4 (G V c) (fun t _ => flushed_eq V c t) cover

end

end Cert.Region4

end
-- ==== Proof.Region5.lean ====
/-
  Region 5 of the idealized kernel: the second node layer, a scaled dense layer `[50000, 128]` by `[128, 128]` followed by the leaky rectifier.

  The region runs over five grid points; at point `t` it reads rows `10000·t … 10000·t + 9999` of the matrix operand and
  of the scale column, the whole weight matrix and the whole bias row, and writes the same rows of its result. What a
  point computes from its blocks is the layer on those blocks (`payload`); read entry by entry this is the layer on the
  whole arrays at the array row the block row is (`flushed_eq`); the five row blocks tile the `50000` rows (`cover`); so
  the result array ends holding the layer of the arrays the region found (`final`).
-/
import proofs.«115186_j77309411328099_1_alg».proof.Proof.RegionLib
import proofs.«115186_j77309411328099_1_alg».proof.Proof.Gen.KernelIdeal.Frame
import Idealize.ShloMosaic.Lib.Pipeline.Value

noncomputable section

namespace Cert.Region5

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.RegionLib

/-- What a point computes from its four blocks is the layer on them. -/
theorem payload (x0 : Vec Ideal S10000x128 .f32) (x1 : Vec Ideal S10000x1 .f32) (x2 : Vec Ideal S128x128 .f32)
    (x3 : Vec Ideal S1x128 .f32) : k5_pay1 x0 x1 x2 x3 = leaky (linF x0 (colOf x1) x2 (rowOf x3)) :=
  (congrArg (fun z : FVec Ideal S10000x128 .f32 =>
      select (cmpf .oge z (broadcast S10000x128 (Scalar.ofBits (F := Ideal) .f32 0x00000000#32))) z
        (mulf (broadcast S10000x128 (Scalar.ofBits (F := Ideal) .f32 0x3C23D70A#32)) z))
    (vec_lin dot_S10000x128_S128x128_S10000x128_1_0_0_1_n_n rfl none x0 x1 x2 x3 _ _ _ _ _ _)).trans (vec_leaky _)

/-- The index maps, decided over the grid: the matrix operand, the scale column and the result move one row block per
    point; the weights and the bias stay at their one block. -/
theorem index_maps : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

section
variable (V : (c : Dev nD) → (b : Ref sig .tc) → Buf (Elt Ideal) ((c : Thread nD τ).loc b))

/-- The layer of the arrays the region finds. -/
abbrev G (c : Dev nD) : S50000x128.Idx → EReal :=
  leaky (linF (V c main_v100 : S50000x128.Idx → EReal) (colOf (V c main_v13 : S50000x1.Idx → EReal)) (V c main_arg15 : S128x128.Idx → EReal) (rowOf (V c main_v101 : S1x128.Idx → EReal)))

/-- What point `t` writes back is block `t` of the layer of the arrays. -/
theorem flushed_eq (c : Dev nD) (t : Fin cfg5.N) :
    (dat5 (F := Ideal) V c).flushed 4 t = ((cfg5.win 4).blk t).view.read (Elt Ideal) (G V c) := by
  show (cfg5.win 4).cut (grid5.coords t) ((dat5 (F := Ideal) V c).after 4 t) = _
  rw [after5_4]
  unfold out5_4
  rw [View.canon_unit_zero zeros2]
  simp only [View.ld_unit_zero (S := S10000x128) zeros2, View.ld_unit_zero (S := S10000x1) zeros2,
    View.ld_unit_zero (S := S128x128) zeros2, View.ld_unit_zero (S := S1x128) zeros2]
  rw [payload]
  obtain ⟨e00, e01, e10, e11, e20, e21, e30, e31, e40, e41⟩ := index_maps t
  funext j
  refine leaky_lin_block (m := 10000) (M := 50000) (K := 128) (N := 128) (iblk5 V c 0 t) (V c main_v100) (iblk5 V c 1 t) (V c main_v13)
    (iblk5 V c 2 t) (V c main_arg15) (iblk5 V c 3 t) (V c main_v101) j (((cfg5.win 4).blk t).view.emb j) ?_ ?_ ?_ ?_ ?_
  · apply Fin.ext
    show (j 1).val = win5_4.index t (1 : Fin 2) * 128 + 1 * (j 1).val
    omega
  · intro k
    show V c main_v100 (((cfg5.win 0).blk t).view.emb (ix2 (j 0) k)) = V c main_v100 (ix2 ((((cfg5.win 4).blk t).view.emb j) 0) k)
    refine congrArg (V c main_v100) (funext fun a => Fin.ext ?_)
    match a with
    | ⟨0, _⟩ => show win5_0.index t (0 : Fin 2) * 10000 + 1 * (j 0).val = win5_4.index t (0 : Fin 2) * 10000 + 1 * (j 0).val; omega
    | ⟨1, _⟩ => show win5_0.index t (1 : Fin 2) * 128 + 1 * k.val = k.val; omega
  · show V c main_v13 (((cfg5.win 1).blk t).view.emb (ix2 (j 0) (0 : Fin 1))) = V c main_v13 (ix2 ((((cfg5.win 4).blk t).view.emb j) 0) (0 : Fin 1))
    refine congrArg (V c main_v13) (funext fun a => Fin.ext ?_)
    match a with
    | ⟨0, _⟩ => show win5_1.index t (0 : Fin 2) * 10000 + 1 * (j 0).val = win5_4.index t (0 : Fin 2) * 10000 + 1 * (j 0).val; omega
    | ⟨1, _⟩ => show win5_1.index t (1 : Fin 2) * 1 + 1 * 0 = 0; omega
  · funext y
    show V c main_arg15 (((cfg5.win 2).blk t).view.emb y) = V c main_arg15 y
    refine congrArg (V c main_arg15) (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  · funext y
    show V c main_v101 (((cfg5.win 3).blk t).view.emb y) = V c main_v101 y
    refine congrArg (V c main_v101) (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega

/-- Every entry of the result array lies in the block of the point its row names: row `r` in block `r / 10000`. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨h1, h2, h3⟩ := row_in_block 10000 5 (i 0).val (by omega) (by omega)
  obtain ⟨t, ht⟩ : ∃ t : Fin cfg5.N, t.val = (i 0).val / 10000 :=
    ⟨⟨(i 0).val / 10000, by rw [show cfg5.N = 5 from N_5]; exact h1⟩, rfl⟩
  obtain ⟨-, -, -, -, -, -, -, -, e40, e41⟩ := index_maps t
  refine ⟨t, flush5_4 t, ?_⟩
  show i ∈ ((View.whole main_v102).slice (win5_4.rect t)).set
  rw [View.set_slice_whole, Rect.mem_set_unit]
  intro a
  match a with
  | ⟨0, _⟩ =>
    show win5_4.index t (0 : Fin 2) * 10000 ≤ (i 0).val ∧ (i 0).val < win5_4.index t (0 : Fin 2) * 10000 + 10000
    rw [e40, ht]; exact ⟨h2, h3⟩
  | ⟨1, _⟩ =>
    show win5_4.index t (1 : Fin 2) * 128 ≤ (i 1).val ∧ (i 1).val < win5_4.index t (1 : Fin 2) * 128 + 128
    omega

/-- The result array after the region: the layer of the arrays the region found. -/
theorem final (c : Dev nD) :
    (dat5 (F := Ideal) V c).arrAt 4 cfg5.N
      = leaky (linF (V c main_v100 : S50000x128.Idx → EReal) (colOf (V c main_v13 : S50000x1.Idx → EReal)) (V c main_arg15 : S128x128.Idx → EReal)
          (rowOf (V c main_v101 : S1x128.Idx → EReal))) :=
  (dat5 (F := Ideal) V c).arrAt_eq_of_cover 4 (G V c) (fun t _ => flushed_eq V c t) cover

end

end Cert.Region5

end
-- ==== Proof.Region6.lean ====
/-
  Region 6 of the idealized kernel: the node classifier's scaled dense layer, `[50000, 128]` by `[128, 8]`.

  The region runs over five grid points; at point `t` it reads rows `10000·t … 10000·t + 9999` of the matrix operand and
  of the scale column, the whole weight matrix and the whole bias row, and writes the same rows of its result. What a
  point computes from its blocks is the layer on those blocks (`payload`); read entry by entry this is the layer on the
  whole arrays at the array row the block row is (`flushed_eq`); the five row blocks tile the `50000` rows (`cover`); so
  the result array ends holding the layer of the arrays the region found (`final`).
-/
import proofs.«115186_j77309411328099_1_alg».proof.Proof.RegionLib
import proofs.«115186_j77309411328099_1_alg».proof.Proof.Gen.KernelIdeal.Frame
import Idealize.ShloMosaic.Lib.Pipeline.Value

noncomputable section

namespace Cert.Region6

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.RegionLib

/-- What a point computes from its four blocks is the layer on them. -/
theorem payload (x0 : Vec Ideal S10000x128 .f32) (x1 : Vec Ideal S10000x1 .f32) (x2 : Vec Ideal S128x8 .f32)
    (x3 : Vec Ideal S1x8 .f32) : k6_pay1 x0 x1 x2 x3 = linF x0 (colOf x1) x2 (rowOf x3) :=
  vec_lin dot_S10000x128_S128x8_S10000x8_1_0_0_1_n_n rfl none x0 x1 x2 x3 _ _ _ _ _ _

/-- The index maps, decided over the grid: the matrix operand, the scale column and the result move one row block per
    point; the weights and the bias stay at their one block. -/
theorem index_maps : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

section
variable (V : (c : Dev nD) → (b : Ref sig .tc) → Buf (Elt Ideal) ((c : Thread nD τ).loc b))

/-- The layer of the arrays the region finds. -/
abbrev G (c : Dev nD) : S50000x8.Idx → EReal :=
  linF (V c main_v102 : S50000x128.Idx → EReal) (colOf (V c main_v14 : S50000x1.Idx → EReal)) (V c main_arg17 : S128x8.Idx → EReal) (rowOf (V c main_v103 : S1x8.Idx → EReal))

/-- What point `t` writes back is block `t` of the layer of the arrays. -/
theorem flushed_eq (c : Dev nD) (t : Fin cfg6.N) :
    (dat6 (F := Ideal) V c).flushed 4 t = ((cfg6.win 4).blk t).view.read (Elt Ideal) (G V c) := by
  show (cfg6.win 4).cut (grid6.coords t) ((dat6 (F := Ideal) V c).after 4 t) = _
  rw [after6_4]
  unfold out6_4
  rw [View.canon_unit_zero zeros2]
  simp only [View.ld_unit_zero (S := S10000x128) zeros2, View.ld_unit_zero (S := S10000x1) zeros2,
    View.ld_unit_zero (S := S128x8) zeros2, View.ld_unit_zero (S := S1x8) zeros2]
  rw [payload]
  obtain ⟨e00, e01, e10, e11, e20, e21, e30, e31, e40, e41⟩ := index_maps t
  funext j
  refine lin_block (m := 10000) (M := 50000) (K := 128) (N := 8) (iblk6 V c 0 t) (V c main_v102) (iblk6 V c 1 t) (V c main_v14)
    (iblk6 V c 2 t) (V c main_arg17) (iblk6 V c 3 t) (V c main_v103) j (((cfg6.win 4).blk t).view.emb j) ?_ ?_ ?_ ?_ ?_
  · apply Fin.ext
    show (j 1).val = win6_4.index t (1 : Fin 2) * 8 + 1 * (j 1).val
    omega
  · intro k
    show V c main_v102 (((cfg6.win 0).blk t).view.emb (ix2 (j 0) k)) = V c main_v102 (ix2 ((((cfg6.win 4).blk t).view.emb j) 0) k)
    refine congrArg (V c main_v102) (funext fun a => Fin.ext ?_)
    match a with
    | ⟨0, _⟩ => show win6_0.index t (0 : Fin 2) * 10000 + 1 * (j 0).val = win6_4.index t (0 : Fin 2) * 10000 + 1 * (j 0).val; omega
    | ⟨1, _⟩ => show win6_0.index t (1 : Fin 2) * 128 + 1 * k.val = k.val; omega
  · show V c main_v14 (((cfg6.win 1).blk t).view.emb (ix2 (j 0) (0 : Fin 1))) = V c main_v14 (ix2 ((((cfg6.win 4).blk t).view.emb j) 0) (0 : Fin 1))
    refine congrArg (V c main_v14) (funext fun a => Fin.ext ?_)
    match a with
    | ⟨0, _⟩ => show win6_1.index t (0 : Fin 2) * 10000 + 1 * (j 0).val = win6_4.index t (0 : Fin 2) * 10000 + 1 * (j 0).val; omega
    | ⟨1, _⟩ => show win6_1.index t (1 : Fin 2) * 1 + 1 * 0 = 0; omega
  · funext y
    show V c main_arg17 (((cfg6.win 2).blk t).view.emb y) = V c main_arg17 y
    refine congrArg (V c main_arg17) (funext fun a => Fin.ext ?_)
    match a with
    | ⟨0, _⟩ => show win6_2.index t (0 : Fin 2) * 128 + 1 * (y 0).val = (y 0).val; omega
    | ⟨1, _⟩ => show win6_2.index t (1 : Fin 2) * 8 + 1 * (y 1).val = (y 1).val; omega
  · funext y
    show V c main_v103 (((cfg6.win 3).blk t).view.emb y) = V c main_v103 y
    refine congrArg (V c main_v103) (funext fun a => Fin.ext ?_)
    match a with
    | ⟨0, _⟩ => show win6_3.index t (0 : Fin 2) * 1 + 1 * (y 0).val = (y 0).val; omega
    | ⟨1, _⟩ => show win6_3.index t (1 : Fin 2) * 8 + 1 * (y 1).val = (y 1).val; omega

/-- Every entry of the result array lies in the block of the point its row names: row `r` in block `r / 10000`. -/
theorem cover (i : S50000x8.Idx) :
    ∃ t : Fin cfg6.N, (cfg6.win 4).flush t = true ∧ i ∈ ((cfg6.win 4).blk t).view.set := by
  have hi0 : (i 0).val < 50000 := (i 0).isLt
  have hi1 : (i 1).val < 8 := (i 1).isLt
  obtain ⟨h1, h2, h3⟩ := row_in_block 10000 5 (i 0).val (by omega) (by omega)
  obtain ⟨t, ht⟩ : ∃ t : Fin cfg6.N, t.val = (i 0).val / 10000 :=
    ⟨⟨(i 0).val / 10000, by rw [show cfg6.N = 5 from N_6]; exact h1⟩, rfl⟩
  obtain ⟨-, -, -, -, -, -, -, -, e40, e41⟩ := index_maps t
  refine ⟨t, flush6_4 t, ?_⟩
  show i ∈ ((View.whole main_v104).slice (win6_4.rect t)).set
  rw [View.set_slice_whole, Rect.mem_set_unit]
  intro a
  match a with
  | ⟨0, _⟩ =>
    show win6_4.index t (0 : Fin 2) * 10000 ≤ (i 0).val ∧ (i 0).val < win6_4.index t (0 : Fin 2) * 10000 + 10000
    rw [e40, ht]; exact ⟨h2, h3⟩
  | ⟨1, _⟩ =>
    show win6_4.index t (1 : Fin 2) * 8 ≤ (i 1).val ∧ (i 1).val < win6_4.index t (1 : Fin 2) * 8 + 8
    omega

/-- The result array after the region: the layer of the arrays the region found. -/
theorem final (c : Dev nD) :
    (dat6 (F := Ideal) V c).arrAt 4 cfg6.N
      = linF (V c main_v102 : S50000x128.Idx → EReal) (colOf (V c main_v14 : S50000x1.Idx → EReal)) (V c main_arg17 : S128x8.Idx → EReal)
          (rowOf (V c main_v103 : S1x8.Idx → EReal)) :=
  (dat6 (F := Ideal) V c).arrAt_eq_of_cover 4 (G V c) (fun t _ => flushed_eq V c t) cover

end

end Cert.Region6

end
-- ==== Proof.Region7.lean ====
/-
  Region 7 of the idealized kernel: the first graph layer, a scaled dense layer `[50000, 129]` by `[129, 128]` followed by the leaky rectifier.

  The region runs over five grid points; at point `t` it reads rows `10000·t … 10000·t + 9999` of the matrix operand and
  of the scale column, the whole weight matrix and the whole bias row, and writes the same rows of its result. What a
  point computes from its blocks is the layer on those blocks (`payload`); read entry by entry this is the layer on the
  whole arrays at the array row the block row is (`flushed_eq`); the five row blocks tile the `50000` rows (`cover`); so
  the result array ends holding the layer of the arrays the region found (`final`).
-/
import proofs.«115186_j77309411328099_1_alg».proof.Proof.RegionLib
import proofs.«115186_j77309411328099_1_alg».proof.Proof.Gen.KernelIdeal.Frame
import Idealize.ShloMosaic.Lib.Pipeline.Value

noncomputable section

namespace Cert.Region7

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.RegionLib

/-- What a point computes from its four blocks is the layer on them. -/
theorem payload (x0 : Vec Ideal S10000x129 .f32) (x1 : Vec Ideal S10000x1 .f32) (x2 : Vec Ideal S129x128 .f32)
    (x3 : Vec Ideal S1x128 .f32) : k7_pay1 x0 x1 x2 x3 = leaky (linF x0 (colOf x1) x2 (rowOf x3)) :=
  (congrArg (fun z : FVec Ideal S10000x128 .f32 =>
      select (cmpf .oge z (broadcast S10000x128 (Scalar.ofBits (F := Ideal) .f32 0x00000000#32))) z
        (mulf (broadcast S10000x128 (Scalar.ofBits (F := Ideal) .f32 0x3C23D70A#32)) z))
    (vec_lin dot_S10000x129_S129x128_S10000x128_1_0_0_1_n_n rfl none x0 x1 x2 x3 _ _ _ _ _ _)).trans (vec_leaky _)

/-- The index maps, decided over the grid: the matrix operand, the scale column and the result move one row block per
    point; the weights and the bias stay at their one block. -/
theorem index_maps : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

section
variable (V : (c : Dev nD) → (b : Ref sig .tc) → Buf (Elt Ideal) ((c : Thread nD τ).loc b))

/-- The layer of the arrays the region finds. -/
abbrev G (c : Dev nD) : S50000x128.Idx → EReal :=
  leaky (linF (V c main_v119 : S50000x129.Idx → EReal) (colOf (V c main_v13 : S50000x1.Idx → EReal)) (V c main_arg19 : S129x128.Idx → EReal) (rowOf (V c main_v120 : S1x128.Idx → EReal)))

/-- What point `t` writes back is block `t` of the layer of the arrays. -/
theorem flushed_eq (c : Dev nD) (t : Fin cfg7.N) :
    (dat7 (F := Ideal) V c).flushed 4 t = ((cfg7.win 4).blk t).view.read (Elt Ideal) (G V c) := by
  show (cfg7.win 4).cut (grid7.coords t) ((dat7 (F := Ideal) V c).after 4 t) = _
  rw [after7_4]
  unfold out7_4
  rw [View.canon_unit_zero zeros2]
  simp only [View.ld_unit_zero (S := S10000x129) zeros2, View.ld_unit_zero (S := S10000x1) zeros2,
    View.ld_unit_zero (S := S129x128) zeros2, View.ld_unit_zero (S := S1x128) zeros2]
  rw [payload]
  obtain ⟨e00, e01, e10, e11, e20, e21, e30, e31, e40, e41⟩ := index_maps t
  funext j
  refine leaky_lin_block (m := 10000) (M := 50000) (K := 129) (N := 128) (iblk7 V c 0 t) (V c main_v119) (iblk7 V c 1 t) (V c main_v13)
    (iblk7 V c 2 t) (V c main_arg19) (iblk7 V c 3 t) (V c main_v120) j (((cfg7.win 4).blk t).view.emb j) ?_ ?_ ?_ ?_ ?_
  · apply Fin.ext
    show (j 1).val = win7_4.index t (1 : Fin 2) * 128 + 1 * (j 1).val
    omega
  · intro k
    show V c main_v119 (((cfg7.win 0).blk t).view.emb (ix2 (j 0) k)) = V c main_v119 (ix2 ((((cfg7.win 4).blk t).view.emb j) 0) k)
    refine congrArg (V c main_v119) (funext fun a => Fin.ext ?_)
    match a with
    | ⟨0, _⟩ => show win7_0.index t (0 : Fin 2) * 10000 + 1 * (j 0).val = win7_4.index t (0 : Fin 2) * 10000 + 1 * (j 0).val; omega
    | ⟨1, _⟩ => show win7_0.index t (1 : Fin 2) * 129 + 1 * k.val = k.val; omega
  · show V c main_v13 (((cfg7.win 1).blk t).view.emb (ix2 (j 0) (0 : Fin 1))) = V c main_v13 (ix2 ((((cfg7.win 4).blk t).view.emb j) 0) (0 : Fin 1))
    refine congrArg (V c main_v13) (funext fun a => Fin.ext ?_)
    match a with
    | ⟨0, _⟩ => show win7_1.index t (0 : Fin 2) * 10000 + 1 * (j 0).val = win7_4.index t (0 : Fin 2) * 10000 + 1 * (j 0).val; omega
    | ⟨1, _⟩ => show win7_1.index t (1 : Fin 2) * 1 + 1 * 0 = 0; omega
  · funext y
    show V c main_arg19 (((cfg7.win 2).blk t).view.emb y) = V c main_arg19 y
    refine congrArg (V c main_arg19) (funext fun a => Fin.ext ?_)
    match a with
    | ⟨0, _⟩ => show win7_2.index t (0 : Fin 2) * 129 + 1 * (y 0).val = (y 0).val; omega
    | ⟨1, _⟩ => show win7_2.index t (1 : Fin 2) * 128 + 1 * (y 1).val = (y 1).val; omega
  · funext y
    show V c main_v120 (((cfg7.win 3).blk t).view.emb y) = V c main_v120 y
    refine congrArg (V c main_v120) (funext fun a => Fin.ext ?_)
    match a with
    | ⟨0, _⟩ => show win7_3.index t (0 : Fin 2) * 1 + 1 * (y 0).val = (y 0).val; omega
    | ⟨1, _⟩ => show win7_3.index t (1 : Fin 2) * 128 + 1 * (y 1).val = (y 1).val; omega

/-- Every entry of the result array lies in the block of the point its row names: row `r` in block `r / 10000`. -/
theorem cover (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  obtain ⟨h1, h2, h3⟩ := row_in_block 10000 5 (i 0).val (by omega) (by omega)
  obtain ⟨t, ht⟩ : ∃ t : Fin cfg7.N, t.val = (i 0).val / 10000 :=
    ⟨⟨(i 0).val / 10000, by rw [show cfg7.N = 5 from N_7]; exact h1⟩, rfl⟩
  obtain ⟨-, -, -, -, -, -, -, -, e40, e41⟩ := index_maps t
  refine ⟨t, flush7_4 t, ?_⟩
  show i ∈ ((View.whole main_v121).slice (win7_4.rect t)).set
  rw [View.set_slice_whole, Rect.mem_set_unit]
  intro a
  match a with
  | ⟨0, _⟩ =>
    show win7_4.index t (0 : Fin 2) * 10000 ≤ (i 0).val ∧ (i 0).val < win7_4.index t (0 : Fin 2) * 10000 + 10000
    rw [e40, ht]; exact ⟨h2, h3⟩
  | ⟨1, _⟩ =>
    show win7_4.index t (1 : Fin 2) * 128 ≤ (i 1).val ∧ (i 1).val < win7_4.index t (1 : Fin 2) * 128 + 128
    omega

/-- The result array after the region: the layer of the arrays the region found. -/
theorem final (c : Dev nD) :
    (dat7 (F := Ideal) V c).arrAt 4 cfg7.N
      = leaky (linF (V c main_v119 : S50000x129.Idx → EReal) (colOf (V c main_v13 : S50000x1.Idx → EReal)) (V c main_arg19 : S129x128.Idx → EReal)
          (rowOf (V c main_v120 : S1x128.Idx → EReal))) :=
  (dat7 (F := Ideal) V c).arrAt_eq_of_cover 4 (G V c) (fun t _ => flushed_eq V c t) cover

end

end Cert.Region7

end
-- ==== Proof.KernelValue.lean ====
/-
  The idealized kernel program's two results as the network of `Cert.Model`.

  The run ends with every buffer at the last boundary's contents, a fold through nine stretches of host operations and
  eight regions. The fold is read back from the end: a buffer no later segment writes holds what it held when it was
  written; a region's output array is the scaled layer (or the normalisation) of the arrays the region found, block of
  rows by block of rows; a host stretch's result is the named host function of the buffers it read. Unrolled from the
  launch memory this gives, layer by layer, `z1`, `h1`, `z2`, `h2`, `hn1`, `hn2` and the node scores, then the graph
  branch `hg` and the graph scores. The node classifier's region multiplies every row by a scale of one.
-/
import proofs.«115186_j77309411328099_1_alg».proof.Proof.KernelRun
import proofs.«115186_j77309411328099_1_alg».proof.Proof.Model
import proofs.«115186_j77309411328099_1_alg».proof.Proof.Stretch0
import proofs.«115186_j77309411328099_1_alg».proof.Proof.Stretch1Keep
import proofs.«115186_j77309411328099_1_alg».proof.Proof.Stretch2
import proofs.«115186_j77309411328099_1_alg».proof.Proof.Stretch3Keep
import proofs.«115186_j77309411328099_1_alg».proof.Proof.Stretch4
import proofs.«115186_j77309411328099_1_alg».proof.Proof.Stretch5
import proofs.«115186_j77309411328099_1_alg».proof.Proof.Stretch6
import proofs.«115186_j77309411328099_1_alg».proof.Proof.Stretch7
import proofs.«115186_j77309411328099_1_alg».proof.Proof.Stretch8
import proofs.«115186_j77309411328099_1_alg».proof.Proof.StretchStats
import proofs.«115186_j77309411328099_1_alg».proof.Proof.Region0
import proofs.«115186_j77309411328099_1_alg».proof.Proof.Region1
import proofs.«115186_j77309411328099_1_alg».proof.Proof.Region2
import proofs.«115186_j77309411328099_1_alg».proof.Proof.Region3
import proofs.«115186_j77309411328099_1_alg».proof.Proof.Region4
import proofs.«115186_j77309411328099_1_alg».proof.Proof.Region5
import proofs.«115186_j77309411328099_1_alg».proof.Proof.Region6
import proofs.«115186_j77309411328099_1_alg».proof.Proof.Region7

set_option maxRecDepth 16384

noncomputable section

namespace Cert.KernelValue

open Cert.KernelIdeal Cert.KernelIdeal.Gen Cert.Spec Cert.Model Cert.Stretch Cert.DenseLayer
open Idealize.ShloMosaic Idealize.ShloMosaic.TcCoe Idealize.SL.Sem

variable (m : (ℓ : Loc nD τ sig) → Buf (Elt Ideal) ℓ) (ρ : Dev nD → PrngReg) (c : Dev nD)

/-- The network's inputs as the kernel program's argument arrays. -/
def argsK : Model.Args where
  x0 := m ((c : Thread nD τ).loc main_arg0)
  nt := m ((c : Thread nD τ).loc main_arg1)
  W1 := m ((c : Thread nD τ).loc main_arg3)
  b1 := m ((c : Thread nD τ).loc main_arg4)
  g1 := m ((c : Thread nD τ).loc main_arg5)
  be1 := m ((c : Thread nD τ).loc main_arg6)
  W2 := m ((c : Thread nD τ).loc main_arg7)
  b2 := m ((c : Thread nD τ).loc main_arg8)
  g2 := m ((c : Thread nD τ).loc main_arg9)
  be2 := m ((c : Thread nD τ).loc main_arg10)
  Wn1 := m ((c : Thread nD τ).loc main_arg13)
  bn1 := m ((c : Thread nD τ).loc main_arg14)
  Wn2 := m ((c : Thread nD τ).loc main_arg15)
  bn2 := m ((c : Thread nD τ).loc main_arg16)
  Wnc := m ((c : Thread nD τ).loc main_arg17)
  bnc := m ((c : Thread nD τ).loc main_arg18)
  Wg1 := m ((c : Thread nD τ).loc main_arg19)
  bg1 := m ((c : Thread nD τ).loc main_arg20)
  Wgc := m ((c : Thread nD τ).loc main_arg21)
  bgc := m ((c : Thread nD τ).loc main_arg22)
  src := m ((c : Thread nD τ).loc main_arg23)
  dst := m ((c : Thread nD τ).loc main_arg24)
  gid := m ((c : Thread nD τ).loc main_arg25)

/-! ## One step back through a segment that does not write the buffer read -/

theorem d17 (b : Ref sig .tc) (h : b ∉ written8) : W17 m ρ c (no_index (Proc.devRef .tc b)) = W16 m ρ c (Proc.devRef .tc b) := s8_keep _ b h
theorem d16 (b : Ref sig .tc) (h : ∀ w, Pipeline.arrRef spec7 w ≠ b) : W16 m ρ c (no_index (Proc.devRef .tc b)) = W15 m ρ c (Proc.devRef .tc b) := W16_of_ne m ρ c b h
theorem d15 (b : Ref sig .tc) (h : b ∉ written7) : W15 m ρ c (no_index (Proc.devRef .tc b)) = W14 m ρ c (Proc.devRef .tc b) := s7_keep _ b h
theorem d14 (b : Ref sig .tc) (h : ∀ w, Pipeline.arrRef spec6 w ≠ b) : W14 m ρ c (no_index (Proc.devRef .tc b)) = W13 m ρ c (Proc.devRef .tc b) := W14_of_ne m ρ c b h
theorem d13 (b : Ref sig .tc) (h : b ∉ written6) : W13 m ρ c (no_index (Proc.devRef .tc b)) = W12 m ρ c (Proc.devRef .tc b) := s6_keep _ b h
theorem d12 (b : Ref sig .tc) (h : ∀ w, Pipeline.arrRef spec5 w ≠ b) : W12 m ρ c (no_index (Proc.devRef .tc b)) = W11 m ρ c (Proc.devRef .tc b) := W12_of_ne m ρ c b h
theorem d11 (b : Ref sig .tc) (h : b ∉ written5) : W11 m ρ c (no_index (Proc.devRef .tc b)) = W10 m ρ c (Proc.devRef .tc b) := s5_keep _ b h
theorem d10 (b : Ref sig .tc) (h : ∀ w, Pipeline.arrRef spec4 w ≠ b) : W10 m ρ c (no_index (Proc.devRef .tc b)) = W9 m ρ c (Proc.devRef .tc b) := W10_of_ne m ρ c b h
theorem d9 (b : Ref sig .tc) (h : b ∉ written4) : W9 m ρ c (no_index (Proc.devRef .tc b)) = W8 m ρ c (Proc.devRef .tc b) := s4_keep _ b h
theorem d8 (b : Ref sig .tc) (h : ∀ w, Pipeline.arrRef spec3 w ≠ b) : W8 m ρ c (no_index (Proc.devRef .tc b)) = W7 m ρ c (Proc.devRef .tc b) := W8_of_ne m ρ c b h
theorem d7 (b : Ref sig .tc) (h : b ∉ written3) : W7 m ρ c (no_index (Proc.devRef .tc b)) = W6 m ρ c (Proc.devRef .tc b) := s3_keep _ b h
theorem d6 (b : Ref sig .tc) (h : ∀ w, Pipeline.arrRef spec2 w ≠ b) : W6 m ρ c (no_index (Proc.devRef .tc b)) = W5 m ρ c (Proc.devRef .tc b) := W6_of_ne m ρ c b h
theorem d5 (b : Ref sig .tc) (h : b ∉ written2) : W5 m ρ c (no_index (Proc.devRef .tc b)) = W4 m ρ c (Proc.devRef .tc b) := s2_keep _ b h
theorem d4 (b : Ref sig .tc) (h : ∀ w, Pipeline.arrRef spec1 w ≠ b) : W4 m ρ c (no_index (Proc.devRef .tc b)) = W3 m ρ c (Proc.devRef .tc b) := W4_of_ne m ρ c b h
theorem d3 (b : Ref sig .tc) (h : b ∉ written1) : W3 m ρ c (no_index (Proc.devRef .tc b)) = W2 m ρ c (Proc.devRef .tc b) := s1_keep _ b h
theorem d2 (b : Ref sig .tc) (h : ∀ w, Pipeline.arrRef spec0 w ≠ b) : W2 m ρ c (no_index (Proc.devRef .tc b)) = W1 m ρ c (Proc.devRef .tc b) := W2_of_ne m ρ c b h
theorem d1 (b : Ref sig .tc) (h : b ∉ written0) : W1 m ρ c (no_index (Proc.devRef .tc b)) = W0 m ρ c (Proc.devRef .tc b) := s0_keep _ b h

/-- The scale column is an input window of the regions it passes: a region leaves an input array as it found it. -/
theorem in2_v13 : W2 m ρ c (Proc.devRef .tc main_v13) = W1 m ρ c (Proc.devRef .tc main_v13) :=
  (W2_arr m ρ c 1).trans (((dat0 (V1 m ρ) c).arrAt_in 1 rfl _).trans (A_eq0 (V1 m ρ) c 1))
theorem in6_v13 : W6 m ρ c (Proc.devRef .tc main_v13) = W5 m ρ c (Proc.devRef .tc main_v13) :=
  (W6_arr m ρ c 1).trans (((dat2 (V5 m ρ) c).arrAt_in 1 rfl _).trans (A_eq2 (V5 m ρ) c 1))
theorem in10_v13 : W10 m ρ c (Proc.devRef .tc main_v13) = W9 m ρ c (Proc.devRef .tc main_v13) :=
  (W10_arr m ρ c 1).trans (((dat4 (V9 m ρ) c).arrAt_in 1 rfl _).trans (A_eq4 (V9 m ρ) c 1))
theorem in12_v13 : W12 m ρ c (Proc.devRef .tc main_v13) = W11 m ρ c (Proc.devRef .tc main_v13) :=
  (W12_arr m ρ c 1).trans (((dat5 (V11 m ρ) c).arrAt_in 1 rfl _).trans (A_eq5 (V11 m ρ) c 1))

theorem in2 (b : Ref sig .tc) (h : b = main_v13) : W2 m ρ c (no_index (Proc.devRef .tc b)) = W1 m ρ c (Proc.devRef .tc b) := by
  subst h; exact in2_v13 m ρ c
theorem in6 (b : Ref sig .tc) (h : b = main_v13) : W6 m ρ c (no_index (Proc.devRef .tc b)) = W5 m ρ c (Proc.devRef .tc b) := by
  subst h; exact in6_v13 m ρ c
theorem in10 (b : Ref sig .tc) (h : b = main_v13) : W10 m ρ c (no_index (Proc.devRef .tc b)) = W9 m ρ c (Proc.devRef .tc b) := by
  subst h; exact in10_v13 m ρ c
theorem in12 (b : Ref sig .tc) (h : b = main_v13) : W12 m ρ c (no_index (Proc.devRef .tc b)) = W11 m ρ c (Proc.devRef .tc b) := by
  subst h; exact in12_v13 m ρ c

/-- Walks every boundary's contents in the goal back, segment by segment, to the segment that wrote the buffer or to the
    launch memory: one pass of conditional rewriting, each side condition decided. -/
macro "back" : tactic => `(tactic| simp (disch := decide) only [d17, d16, d15, d14, d13, d12, d11, d10, d9, d8, d7, d6, d5, d4, d3, d2, d1,
  in2, in6, in10, in12])

/-! ## The first graph convolution -/

local notation "𝔸" => argsK m c

theorem w1_v11 : W1 m ρ c (Proc.devRef .tc main_v11) = ro 𝔸 := s0_v11 (W0 m ρ c)
theorem w1_v13 : colOf (W1 m ρ c (Proc.devRef .tc main_v13)) = vecOf (ri 𝔸) := s0_v13 (W0 m ρ c)
theorem w1_v14 (p : Fin 50000) : colOf (W1 m ρ c (Proc.devRef .tc main_v14)) p = 1 := s0_v14 (W0 m ρ c) p
theorem w1_v27 : W1 m ρ c (Proc.devRef .tc main_v27) = agg 𝔸 (𝔸).x0 := s0_v27 (W0 m ρ c)
theorem w1_v28 : rowOf (W1 m ρ c (Proc.devRef .tc main_v28)) = vecOf (𝔸).b1 := s0_v28 (W0 m ρ c)

theorem w2_v29 : W2 m ρ c (Proc.devRef .tc main_v29) = z1 𝔸 := by
  refine (W2_arr m ρ c 4).trans ((Cert.Region0.final (V1 m ρ) c).trans ?_)
  show linF (W1 m ρ c (Proc.devRef .tc main_v27)) (colOf (W1 m ρ c (Proc.devRef .tc main_v13))) (W1 m ρ c (Proc.devRef .tc main_arg3)) (rowOf (W1 m ρ c (Proc.devRef .tc main_v28))) = _
  rw [w1_v27, w1_v13, w1_v28]
  back
  rfl

/-! ## The first normalisation -/

theorem w3_v33 : rowOf (W3 m ρ c (Proc.devRef .tc main_v33)) = colMean (W2 m ρ c (Proc.devRef .tc main_v29)) := s1_v33 (W2 m ρ c)
theorem w3_v40 : rowOf (W3 m ρ c (Proc.devRef .tc main_v40)) = colVar (W2 m ρ c (Proc.devRef .tc main_v29)) := s1_v40 (W2 m ρ c)
theorem w3_v41 : rowOf (W3 m ρ c (Proc.devRef .tc main_v41)) = vecOf (W2 m ρ c (Proc.devRef .tc main_arg5)) := s1_v41 (W2 m ρ c)
theorem w3_v42 : rowOf (W3 m ρ c (Proc.devRef .tc main_v42)) = vecOf (W2 m ρ c (Proc.devRef .tc main_arg6)) := s1_v42 (W2 m ρ c)

theorem w4_v43 : W4 m ρ c (Proc.devRef .tc main_v43) = h1 𝔸 := by
  refine (W4_arr m ρ c 5).trans ((Cert.Region1.final (V3 m ρ) c).trans ?_)
  show bnF (W3 m ρ c (Proc.devRef .tc main_v29)) (rowOf (W3 m ρ c (Proc.devRef .tc main_v33))) (rowOf (W3 m ρ c (Proc.devRef .tc main_v40))) (rowOf (W3 m ρ c (Proc.devRef .tc main_v41))) (rowOf (W3 m ρ c (Proc.devRef .tc main_v42))) = _
  rw [w3_v33, w3_v40, w3_v41, w3_v42]
  back
  rw [w2_v29]
  rfl

/-! ## The second graph convolution -/

theorem w5_v56 : W5 m ρ c (Proc.devRef .tc main_v56) = aggK (W4 m ρ c (Proc.devRef .tc main_v43)) (W4 m ρ c (Proc.devRef .tc main_v11)) (W4 m ρ c (Proc.devRef .tc main_arg23)) (W4 m ρ c (Proc.devRef .tc main_arg24)) := s2_v56 (W4 m ρ c)
theorem w5_v57 : rowOf (W5 m ρ c (Proc.devRef .tc main_v57)) = vecOf (W4 m ρ c (Proc.devRef .tc main_arg8)) := s2_v57 (W4 m ρ c)

theorem w6_v58 : W6 m ρ c (Proc.devRef .tc main_v58) = z2 𝔸 := by
  refine (W6_arr m ρ c 4).trans ((Cert.Region2.final (V5 m ρ) c).trans ?_)
  show linF (W5 m ρ c (Proc.devRef .tc main_v56)) (colOf (W5 m ρ c (Proc.devRef .tc main_v13))) (W5 m ρ c (Proc.devRef .tc main_arg7)) (rowOf (W5 m ρ c (Proc.devRef .tc main_v57))) = _
  rw [w5_v56, w5_v57]
  back
  rw [w4_v43, w1_v11, w1_v13]
  rfl

/-! ## The second normalisation -/

theorem w7_v62 : rowOf (W7 m ρ c (Proc.devRef .tc main_v62)) = colMean (W6 m ρ c (Proc.devRef .tc main_v58)) := s3_v62 (W6 m ρ c)
theorem w7_v69 : rowOf (W7 m ρ c (Proc.devRef .tc main_v69)) = colVar (W6 m ρ c (Proc.devRef .tc main_v58)) := s3_v69 (W6 m ρ c)
theorem w7_v70 : rowOf (W7 m ρ c (Proc.devRef .tc main_v70)) = vecOf (W6 m ρ c (Proc.devRef .tc main_arg9)) := s3_v70 (W6 m ρ c)
theorem w7_v71 : rowOf (W7 m ρ c (Proc.devRef .tc main_v71)) = vecOf (W6 m ρ c (Proc.devRef .tc main_arg10)) := s3_v71 (W6 m ρ c)

theorem w8_v72 : W8 m ρ c (Proc.devRef .tc main_v72) = h2 𝔸 := by
  refine (W8_arr m ρ c 5).trans ((Cert.Region3.final (V7 m ρ) c).trans ?_)
  show bnF (W7 m ρ c (Proc.devRef .tc main_v58)) (rowOf (W7 m ρ c (Proc.devRef .tc main_v62))) (rowOf (W7 m ρ c (Proc.devRef .tc main_v69))) (rowOf (W7 m ρ c (Proc.devRef .tc main_v70))) (rowOf (W7 m ρ c (Proc.devRef .tc main_v71))) = _
  rw [w7_v62, w7_v69, w7_v70, w7_v71]
  back
  rw [w6_v58]
  rfl

/-! ## The node branch -/

theorem w9_v85 : W9 m ρ c (Proc.devRef .tc main_v85) = aggK (W8 m ρ c (Proc.devRef .tc main_v72)) (W8 m ρ c (Proc.devRef .tc main_v11)) (W8 m ρ c (Proc.devRef .tc main_arg23)) (W8 m ρ c (Proc.devRef .tc main_arg24)) := s4_v85 (W8 m ρ c)
theorem w9_v86 : rowOf (W9 m ρ c (Proc.devRef .tc main_v86)) = vecOf (W8 m ρ c (Proc.devRef .tc main_arg14)) := s4_v86 (W8 m ρ c)

theorem w10_v87 : W10 m ρ c (Proc.devRef .tc main_v87) = hn1 𝔸 := by
  refine (W10_arr m ρ c 4).trans ((Cert.Region4.final (V9 m ρ) c).trans ?_)
  show leaky (linF (W9 m ρ c (Proc.devRef .tc main_v85)) (colOf (W9 m ρ c (Proc.devRef .tc main_v13))) (W9 m ρ c (Proc.devRef .tc main_arg13)) (rowOf (W9 m ρ c (Proc.devRef .tc main_v86)))) = _
  rw [w9_v85, w9_v86]
  back
  rw [w8_v72, w1_v11, w1_v13]
  rfl

theorem w11_v100 : W11 m ρ c (Proc.devRef .tc main_v100) = aggK (W10 m ρ c (Proc.devRef .tc main_v87)) (W10 m ρ c (Proc.devRef .tc main_v11)) (W10 m ρ c (Proc.devRef .tc main_arg23)) (W10 m ρ c (Proc.devRef .tc main_arg24)) := s5_v100 (W10 m ρ c)
theorem w11_v101 : rowOf (W11 m ρ c (Proc.devRef .tc main_v101)) = vecOf (W10 m ρ c (Proc.devRef .tc main_arg16)) := s5_v101 (W10 m ρ c)

theorem w12_v102 : W12 m ρ c (Proc.devRef .tc main_v102) = hn2 𝔸 := by
  refine (W12_arr m ρ c 4).trans ((Cert.Region5.final (V11 m ρ) c).trans ?_)
  show leaky (linF (W11 m ρ c (Proc.devRef .tc main_v100)) (colOf (W11 m ρ c (Proc.devRef .tc main_v13))) (W11 m ρ c (Proc.devRef .tc main_arg15)) (rowOf (W11 m ρ c (Proc.devRef .tc main_v101)))) = _
  rw [w11_v100, w11_v101]
  back
  rw [w10_v87, w1_v11, w1_v13]
  rfl

theorem w13_v103 : rowOf (W13 m ρ c (Proc.devRef .tc main_v103)) = vecOf (W12 m ρ c (Proc.devRef .tc main_arg18)) := s6_v103 (W12 m ρ c)

theorem w14_v104 : W14 m ρ c (Proc.devRef .tc main_v104) = nodeOut 𝔸 := by
  refine (W14_arr m ρ c 4).trans ((Cert.Region6.final (V13 m ρ) c).trans ?_)
  show linF (W13 m ρ c (Proc.devRef .tc main_v102)) (colOf (W13 m ρ c (Proc.devRef .tc main_v14))) (W13 m ρ c (Proc.devRef .tc main_arg17)) (rowOf (W13 m ρ c (Proc.devRef .tc main_v103))) = _
  rw [w13_v103]
  refine (linF_one _ _ (fun p => ?_) _ _).trans ?_
  · back
    exact w1_v14 m ρ c p
  · back
    rw [w12_v102]
    rfl

theorem w17_v104 : W17 m ρ c (Proc.devRef .tc main_v104) = nodeOut 𝔸 := by
  back
  exact w14_v104 m ρ c

/-! ## The graph branch -/

theorem w15_v119 : W15 m ρ c (Proc.devRef .tc main_v119) = agg129K (catK (W14 m ρ c (Proc.devRef .tc main_v72)) (W14 m ρ c (Proc.devRef .tc main_arg1))) (W14 m ρ c (Proc.devRef .tc main_v11)) (W14 m ρ c (Proc.devRef .tc main_arg23)) (W14 m ρ c (Proc.devRef .tc main_arg24)) := s7_v119 (W14 m ρ c)
theorem w15_v120 : rowOf (W15 m ρ c (Proc.devRef .tc main_v120)) = vecOf (W14 m ρ c (Proc.devRef .tc main_arg20)) := s7_v120 (W14 m ρ c)

theorem w16_v121 : W16 m ρ c (Proc.devRef .tc main_v121) = hg 𝔸 := by
  refine (W16_arr m ρ c 4).trans ((Cert.Region7.final (V15 m ρ) c).trans ?_)
  show leaky (linF (W15 m ρ c (Proc.devRef .tc main_v119)) (colOf (W15 m ρ c (Proc.devRef .tc main_v13))) (W15 m ρ c (Proc.devRef .tc main_arg19)) (rowOf (W15 m ρ c (Proc.devRef .tc main_v120)))) = _
  rw [w15_v119, w15_v120]
  back
  rw [w8_v72, w1_v11, w1_v13]
  rfl

theorem w17_v137 : W17 m ρ c (Proc.devRef .tc main_v137) = graphOut 𝔸 := by
  refine (s8_v137 (W16 m ρ c)).trans ?_
  rw [w16_v121]
  back
  rfl

/-! ## The run -/

/-- Every weakly fair execution of the idealized kernel program terminates with the node scores and the graph scores of
    the network on its argument arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v104) = nodeOut (argsK m c)
      ∧ r.2.mem ((c.tc : Thread nD τ).loc main_v137) = graphOut (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c main_v104 (by decide)).trans (w17_v104 m ρ c),
     (h c main_v137 (by decide)).trans (w17_v137 m ρ c),
     (h c main_arg0 (by decide)).trans (W17_main_arg0 m ρ c),
     (h c main_arg1 (by decide)).trans (W17_main_arg1 m ρ c),
     (h c main_arg2 (by decide)).trans (W17_main_arg2 m ρ c),
     (h c main_arg3 (by decide)).trans (W17_main_arg3 m ρ c),
     (h c main_arg4 (by decide)).trans (W17_main_arg4 m ρ c),
     (h c main_arg5 (by decide)).trans (W17_main_arg5 m ρ c),
     (h c main_arg6 (by decide)).trans (W17_main_arg6 m ρ c),
     (h c main_arg7 (by decide)).trans (W17_main_arg7 m ρ c),
     (h c main_arg8 (by decide)).trans (W17_main_arg8 m ρ c),
     (h c main_arg9 (by decide)).trans (W17_main_arg9 m ρ c),
     (h c main_arg10 (by decide)).trans (W17_main_arg10 m ρ c),
     (h c main_arg11 (by decide)).trans (W17_main_arg11 m ρ c),
     (h c main_arg12 (by decide)).trans (W17_main_arg12 m ρ c),
     (h c main_arg13 (by decide)).trans (W17_main_arg13 m ρ c),
     (h c main_arg14 (by decide)).trans (W17_main_arg14 m ρ c),
     (h c main_arg15 (by decide)).trans (W17_main_arg15 m ρ c),
     (h c main_arg16 (by decide)).trans (W17_main_arg16 m ρ c),
     (h c main_arg17 (by decide)).trans (W17_main_arg17 m ρ c),
     (h c main_arg18 (by decide)).trans (W17_main_arg18 m ρ c),
     (h c main_arg19 (by decide)).trans (W17_main_arg19 m ρ c),
     (h c main_arg20 (by decide)).trans (W17_main_arg20 m ρ c),
     (h c main_arg21 (by decide)).trans (W17_main_arg21 m ρ c),
     (h c main_arg22 (by decide)).trans (W17_main_arg22 m ρ c),
     (h c main_arg23 (by decide)).trans (W17_main_arg23 m ρ c),
     (h c main_arg24 (by decide)).trans (W17_main_arg24 m ρ c),
     (h c main_arg25 (by decide)).trans (W17_main_arg25 m ρ c)⟩)
    (Cert.KernelRun.run_at m ρ)

end Cert.KernelValue

end
-- ==== Proof.RefKeep.lean ====
/-
  What each block of the reference program's operations writes, and that a buffer outside that list keeps its contents
  through the block. Running a concatenation of two lists of operations is running the first and then the second.
-/
import proofs.«115186_j77309411328099_1_alg».proof.Proof.RefRun

noncomputable section

namespace Cert.RefValue

open Idealize.ShloMosaic Idealize.ShloMosaic.StableHlo Idealize.ShloMosaic.TcCoe Idealize.SL.Sem
open Cert.ReferenceIdeal Cert.ReferenceIdeal.Gen Cert.ReferenceIdeal.RunP

variable {F : FTy → Type} [FloatOps F]

/-- Two lines run one after the other leave what their concatenation leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The buffers block A writes. -/
abbrev writesA : List (Ref sig .tc) := [main_cst, main_v0, main_cst_0, main_v1, main_v2, main_v3, main_cst_1, main_v4, main_v5, main_cst_2, main_v6, main_v7, main_v8, main_cst_3, main_v9, main_v10, main_v11, main_v12, main_v13, main_v14, main_c, main_v15, main_v16, main_c_4, main_v17, main_v18, main_v19, main_v20, main_v21, main_cst_5, main_v22, main_v23, main_v24, main_v25, main_v26, main_v27, main_v28, main_v29, main_v30, main_v31, main_v32]
theorem opsA_writes : (opsA : List (HloOp τ sig (Elt F))).Forall fun op => op.writes ⊆ (writesA.map (Proc.devRef (τ := τ) .tc)).toFinset := by
  have one : ∀ (op : HloOp τ sig (Elt F)) (y : Ref sig .tc), op.writes = {Proc.devRef .tc y} → y ∈ writesA →
      op.writes ⊆ (writesA.map (Proc.devRef (τ := τ) .tc)).toFinset := fun op y e h => by
    rw [e, Finset.singleton_subset_iff, List.mem_toFinset]; exact List.mem_map_of_mem h
  exact ⟨one _ main_cst rfl (by decide), one _ main_v0 rfl (by decide), one _ main_cst_0 rfl (by decide), one _ main_v1 rfl (by decide), one _ main_v2 rfl (by decide), one _ main_v3 rfl (by decide), one _ main_cst_1 rfl (by decide), one _ main_v4 rfl (by decide), one _ main_v5 rfl (by decide), one _ main_cst_2 rfl (by decide), one _ main_v6 rfl (by decide), one _ main_v7 rfl (by decide), one _ main_v8 rfl (by decide), one _ main_cst_3 rfl (by decide), one _ main_v9 rfl (by decide), one _ main_v10 rfl (by decide), one _ main_v11 rfl (by decide), one _ main_v12 rfl (by decide), one _ main_v13 rfl (by decide), one _ main_v14 rfl (by decide), one _ main_c rfl (by decide), one _ main_v15 rfl (by decide), one _ main_v16 rfl (by decide), one _ main_c_4 rfl (by decide), one _ main_v17 rfl (by decide), one _ main_v18 rfl (by decide), one _ main_v19 rfl (by decide), one _ main_v20 rfl (by decide), one _ main_v21 rfl (by decide), one _ main_cst_5 rfl (by decide), one _ main_v22 rfl (by decide), one _ main_v23 rfl (by decide), one _ main_v24 rfl (by decide), one _ main_v25 rfl (by decide), one _ main_v26 rfl (by decide), one _ main_v27 rfl (by decide), one _ main_v28 rfl (by decide), one _ main_v29 rfl (by decide), one _ main_v30 rfl (by decide), one _ main_v31 rfl (by decide), one _ main_v32 rfl (by decide)⟩
/-- A buffer block A does not write keeps its contents through it. -/
theorem keepA (V : Valuation τ sig (Elt F)) {r : Ref sig .tc} (h : r ∉ writesA) :
    after opsA V (Proc.devRef .tc r) = V (Proc.devRef .tc r) :=
  after_of_writes_sub opsA V opsA_writes h

/-- The buffers block B writes. -/
abbrev writesB : List (Ref sig .tc) := [main_cst_6, main_v33, main_cst_7, main_v34, main_v35, main_v36, main_v37, main_v38, main_v39, main_cst_8, main_v40, main_cst_9, main_v41, main_v42, main_v43, main_v44, main_v45, main_cst_10, main_v46, main_v47, main_v48, main_v49, main_v50, main_v51, main_v52, main_v53, main_v54, main_v55, main_v56, main_v57, main_cst_11, main_v58, main_v59, main_cst_12, main_v60, main_v61, main_v62]
theorem opsB_writes : (opsB : List (HloOp τ sig (Elt F))).Forall fun op => op.writes ⊆ (writesB.map (Proc.devRef (τ := τ) .tc)).toFinset := by
  have one : ∀ (op : HloOp τ sig (Elt F)) (y : Ref sig .tc), op.writes = {Proc.devRef .tc y} → y ∈ writesB →
      op.writes ⊆ (writesB.map (Proc.devRef (τ := τ) .tc)).toFinset := fun op y e h => by
    rw [e, Finset.singleton_subset_iff, List.mem_toFinset]; exact List.mem_map_of_mem h
  exact ⟨one _ main_cst_6 rfl (by decide), one _ main_v33 rfl (by decide), one _ main_cst_7 rfl (by decide), one _ main_v34 rfl (by decide), one _ main_v35 rfl (by decide), one _ main_v36 rfl (by decide), one _ main_v37 rfl (by decide), one _ main_v38 rfl (by decide), one _ main_v39 rfl (by decide), one _ main_cst_8 rfl (by decide), one _ main_v40 rfl (by decide), one _ main_cst_9 rfl (by decide), one _ main_v41 rfl (by decide), one _ main_v42 rfl (by decide), one _ main_v43 rfl (by decide), one _ main_v44 rfl (by decide), one _ main_v45 rfl (by decide), one _ main_cst_10 rfl (by decide), one _ main_v46 rfl (by decide), one _ main_v47 rfl (by decide), one _ main_v48 rfl (by decide), one _ main_v49 rfl (by decide), one _ main_v50 rfl (by decide), one _ main_v51 rfl (by decide), one _ main_v52 rfl (by decide), one _ main_v53 rfl (by decide), one _ main_v54 rfl (by decide), one _ main_v55 rfl (by decide), one _ main_v56 rfl (by decide), one _ main_v57 rfl (by decide), one _ main_cst_11 rfl (by decide), one _ main_v58 rfl (by decide), one _ main_v59 rfl (by decide), one _ main_cst_12 rfl (by decide), one _ main_v60 rfl (by decide), one _ main_v61 rfl (by decide), one _ main_v62 rfl (by decide)⟩
/-- A buffer block B does not write keeps its contents through it. -/
theorem keepB (V : Valuation τ sig (Elt F)) {r : Ref sig .tc} (h : r ∉ writesB) :
    after opsB V (Proc.devRef .tc r) = V (Proc.devRef .tc r) :=
  after_of_writes_sub opsB V opsB_writes h

/-- The buffers block C writes. -/
abbrev writesC : List (Ref sig .tc) := [main_cst_13, main_v63, main_cst_14, main_v64, main_v65, main_v66, main_cst_15, main_v67, main_v68, main_cst_16, main_v69, main_v70, main_v71, main_cst_17, main_v72, main_v73, main_v74, main_v75, main_v76, main_v77, main_c_18, main_v78, main_v79, main_c_19, main_v80, main_v81, main_v82, main_v83, main_v84, main_cst_20, main_v85, main_v86, main_v87, main_v88, main_v89, main_v90, main_v91, main_v92, main_v93, main_v94, main_v95]
theorem opsC_writes : (opsC : List (HloOp τ sig (Elt F))).Forall fun op => op.writes ⊆ (writesC.map (Proc.devRef (τ := τ) .tc)).toFinset := by
  have one : ∀ (op : HloOp τ sig (Elt F)) (y : Ref sig .tc), op.writes = {Proc.devRef .tc y} → y ∈ writesC →
      op.writes ⊆ (writesC.map (Proc.devRef (τ := τ) .tc)).toFinset := fun op y e h => by
    rw [e, Finset.singleton_subset_iff, List.mem_toFinset]; exact List.mem_map_of_mem h
  exact ⟨one _ main_cst_13 rfl (by decide), one _ main_v63 rfl (by decide), one _ main_cst_14 rfl (by decide), one _ main_v64 rfl (by decide), one _ main_v65 rfl (by decide), one _ main_v66 rfl (by decide), one _ main_cst_15 rfl (by decide), one _ main_v67 rfl (by decide), one _ main_v68 rfl (by decide), one _ main_cst_16 rfl (by decide), one _ main_v69 rfl (by decide), one _ main_v70 rfl (by decide), one _ main_v71 rfl (by decide), one _ main_cst_17 rfl (by decide), one _ main_v72 rfl (by decide), one _ main_v73 rfl (by decide), one _ main_v74 rfl (by decide), one _ main_v75 rfl (by decide), one _ main_v76 rfl (by decide), one _ main_v77 rfl (by decide), one _ main_c_18 rfl (by decide), one _ main_v78 rfl (by decide), one _ main_v79 rfl (by decide), one _ main_c_19 rfl (by decide), one _ main_v80 rfl (by decide), one _ main_v81 rfl (by decide), one _ main_v82 rfl (by decide), one _ main_v83 rfl (by decide), one _ main_v84 rfl (by decide), one _ main_cst_20 rfl (by decide), one _ main_v85 rfl (by decide), one _ main_v86 rfl (by decide), one _ main_v87 rfl (by decide), one _ main_v88 rfl (by decide), one _ main_v89 rfl (by decide), one _ main_v90 rfl (by decide), one _ main_v91 rfl (by decide), one _ main_v92 rfl (by decide), one _ main_v93 rfl (by decide), one _ main_v94 rfl (by decide), one _ main_v95 rfl (by decide)⟩
/-- A buffer block C does not write keeps its contents through it. -/
theorem keepC (V : Valuation τ sig (Elt F)) {r : Ref sig .tc} (h : r ∉ writesC) :
    after opsC V (Proc.devRef .tc r) = V (Proc.devRef .tc r) :=
  after_of_writes_sub opsC V opsC_writes h

/-- The buffers block D writes. -/
abbrev writesD : List (Ref sig .tc) := [main_cst_21, main_v96, main_cst_22, main_v97, main_v98, main_v99, main_v100, main_v101, main_v102, main_cst_23, main_v103, main_cst_24, main_v104, main_v105, main_v106, main_v107, main_v108, main_cst_25, main_v109, main_v110, main_v111, main_v112, main_v113, main_v114, main_v115, main_v116, main_v117, main_v118, main_v119, main_v120, main_cst_26, main_v121, main_v122, main_cst_27, main_v123, main_v124, main_v125]
theorem opsD_writes : (opsD : List (HloOp τ sig (Elt F))).Forall fun op => op.writes ⊆ (writesD.map (Proc.devRef (τ := τ) .tc)).toFinset := by
  have one : ∀ (op : HloOp τ sig (Elt F)) (y : Ref sig .tc), op.writes = {Proc.devRef .tc y} → y ∈ writesD →
      op.writes ⊆ (writesD.map (Proc.devRef (τ := τ) .tc)).toFinset := fun op y e h => by
    rw [e, Finset.singleton_subset_iff, List.mem_toFinset]; exact List.mem_map_of_mem h
  exact ⟨one _ main_cst_21 rfl (by decide), one _ main_v96 rfl (by decide), one _ main_cst_22 rfl (by decide), one _ main_v97 rfl (by decide), one _ main_v98 rfl (by decide), one _ main_v99 rfl (by decide), one _ main_v100 rfl (by decide), one _ main_v101 rfl (by decide), one _ main_v102 rfl (by decide), one _ main_cst_23 rfl (by decide), one _ main_v103 rfl (by decide), one _ main_cst_24 rfl (by decide), one _ main_v104 rfl (by decide), one _ main_v105 rfl (by decide), one _ main_v106 rfl (by decide), one _ main_v107 rfl (by decide), one _ main_v108 rfl (by decide), one _ main_cst_25 rfl (by decide), one _ main_v109 rfl (by decide), one _ main_v110 rfl (by decide), one _ main_v111 rfl (by decide), one _ main_v112 rfl (by decide), one _ main_v113 rfl (by decide), one _ main_v114 rfl (by decide), one _ main_v115 rfl (by decide), one _ main_v116 rfl (by decide), one _ main_v117 rfl (by decide), one _ main_v118 rfl (by decide), one _ main_v119 rfl (by decide), one _ main_v120 rfl (by decide), one _ main_cst_26 rfl (by decide), one _ main_v121 rfl (by decide), one _ main_v122 rfl (by decide), one _ main_cst_27 rfl (by decide), one _ main_v123 rfl (by decide), one _ main_v124 rfl (by decide), one _ main_v125 rfl (by decide)⟩
/-- A buffer block D does not write keeps its contents through it. -/
theorem keepD (V : Valuation τ sig (Elt F)) {r : Ref sig .tc} (h : r ∉ writesD) :
    after opsD V (Proc.devRef .tc r) = V (Proc.devRef .tc r) :=
  after_of_writes_sub opsD V opsD_writes h

/-- The buffers block E writes. -/
abbrev writesE : List (Ref sig .tc) := [main_c_28, main_v126, main_v127, main_c_29, main_v128, main_v129, main_v130, main_v131, main_v132, main_v133, main_v134, main_v135, main_v136, main_v137]
theorem opsE_writes : (opsE : List (HloOp τ sig (Elt F))).Forall fun op => op.writes ⊆ (writesE.map (Proc.devRef (τ := τ) .tc)).toFinset := by
  have one : ∀ (op : HloOp τ sig (Elt F)) (y : Ref sig .tc), op.writes = {Proc.devRef .tc y} → y ∈ writesE →
      op.writes ⊆ (writesE.map (Proc.devRef (τ := τ) .tc)).toFinset := fun op y e h => by
    rw [e, Finset.singleton_subset_iff, List.mem_toFinset]; exact List.mem_map_of_mem h
  exact ⟨one _ main_c_28 rfl (by decide), one _ main_v126 rfl (by decide), one _ main_v127 rfl (by decide), one _ main_c_29 rfl (by decide), one _ main_v128 rfl (by decide), one _ main_v129 rfl (by decide), one _ main_v130 rfl (by decide), one _ main_v131 rfl (by decide), one _ main_v132 rfl (by decide), one _ main_v133 rfl (by decide), one _ main_v134 rfl (by decide), one _ main_v135 rfl (by decide), one _ main_v136 rfl (by decide), one _ main_v137 rfl (by decide)⟩
/-- A buffer block E does not write keeps its contents through it. -/
theorem keepE (V : Valuation τ sig (Elt F)) {r : Ref sig .tc} (h : r ∉ writesE) :
    after opsE V (Proc.devRef .tc r) = V (Proc.devRef .tc r) :=
  after_of_writes_sub opsE V opsE_writes h

/-- The buffers block F writes. -/
abbrev writesF : List (Ref sig .tc) := [main_cst_30, main_v138, main_cst_31, main_v139, main_v140, main_v141, main_cst_32, main_v142, main_v143, main_cst_33, main_v144, main_v145, main_v146, main_cst_34, main_v147, main_v148, main_v149, main_v150, main_v151, main_v152, main_c_35, main_v153, main_v154, main_c_36, main_v155, main_v156, main_v157, main_v158, main_v159, main_cst_37, main_v160, main_v161, main_v162, main_v163, main_v164, main_v165, main_v166, main_v167, main_v168, main_v169, main_v170]
theorem opsF_writes : (opsF : List (HloOp τ sig (Elt F))).Forall fun op => op.writes ⊆ (writesF.map (Proc.devRef (τ := τ) .tc)).toFinset := by
  have one : ∀ (op : HloOp τ sig (Elt F)) (y : Ref sig .tc), op.writes = {Proc.devRef .tc y} → y ∈ writesF →
      op.writes ⊆ (writesF.map (Proc.devRef (τ := τ) .tc)).toFinset := fun op y e h => by
    rw [e, Finset.singleton_subset_iff, List.mem_toFinset]; exact List.mem_map_of_mem h
  exact ⟨one _ main_cst_30 rfl (by decide), one _ main_v138 rfl (by decide), one _ main_cst_31 rfl (by decide), one _ main_v139 rfl (by decide), one _ main_v140 rfl (by decide), one _ main_v141 rfl (by decide), one _ main_cst_32 rfl (by decide), one _ main_v142 rfl (by decide), one _ main_v143 rfl (by decide), one _ main_cst_33 rfl (by decide), one _ main_v144 rfl (by decide), one _ main_v145 rfl (by decide), one _ main_v146 rfl (by decide), one _ main_cst_34 rfl (by decide), one _ main_v147 rfl (by decide), one _ main_v148 rfl (by decide), one _ main_v149 rfl (by decide), one _ main_v150 rfl (by decide), one _ main_v151 rfl (by decide), one _ main_v152 rfl (by decide), one _ main_c_35 rfl (by decide), one _ main_v153 rfl (by decide), one _ main_v154 rfl (by decide), one _ main_c_36 rfl (by decide), one _ main_v155 rfl (by decide), one _ main_v156 rfl (by decide), one _ main_v157 rfl (by decide), one _ main_v158 rfl (by decide), one _ main_v159 rfl (by decide), one _ main_cst_37 rfl (by decide), one _ main_v160 rfl (by decide), one _ main_v161 rfl (by decide), one _ main_v162 rfl (by decide), one _ main_v163 rfl (by decide), one _ main_v164 rfl (by decide), one _ main_v165 rfl (by decide), one _ main_v166 rfl (by decide), one _ main_v167 rfl (by decide), one _ main_v168 rfl (by decide), one _ main_v169 rfl (by decide), one _ main_v170 rfl (by decide)⟩
/-- A buffer block F does not write keeps its contents through it. -/
theorem keepF (V : Valuation τ sig (Elt F)) {r : Ref sig .tc} (h : r ∉ writesF) :
    after opsF V (Proc.devRef .tc r) = V (Proc.devRef .tc r) :=
  after_of_writes_sub opsF V opsF_writes h

/-- The buffers block Fr writes. -/
abbrev writesFr : List (Ref sig .tc) := [main_cst_38, main_v171, main_v172, main_cst_39, main_v173, main_v174, main_v175]
theorem opsFr_writes : (opsFr : List (HloOp τ sig (Elt F))).Forall fun op => op.writes ⊆ (writesFr.map (Proc.devRef (τ := τ) .tc)).toFinset := by
  have one : ∀ (op : HloOp τ sig (Elt F)) (y : Ref sig .tc), op.writes = {Proc.devRef .tc y} → y ∈ writesFr →
      op.writes ⊆ (writesFr.map (Proc.devRef (τ := τ) .tc)).toFinset := fun op y e h => by
    rw [e, Finset.singleton_subset_iff, List.mem_toFinset]; exact List.mem_map_of_mem h
  exact ⟨one _ main_cst_38 rfl (by decide), one _ main_v171 rfl (by decide), one _ main_v172 rfl (by decide), one _ main_cst_39 rfl (by decide), one _ main_v173 rfl (by decide), one _ main_v174 rfl (by decide), one _ main_v175 rfl (by decide)⟩
/-- A buffer block Fr does not write keeps its contents through it. -/
theorem keepFr (V : Valuation τ sig (Elt F)) {r : Ref sig .tc} (h : r ∉ writesFr) :
    after opsFr V (Proc.devRef .tc r) = V (Proc.devRef .tc r) :=
  after_of_writes_sub opsFr V opsFr_writes h

/-- The buffers block G writes. -/
abbrev writesG : List (Ref sig .tc) := [main_cst_40, main_v176, main_cst_41, main_v177, main_v178, main_v179, main_cst_42, main_v180, main_v181, main_cst_43, main_v182, main_v183, main_v184, main_cst_44, main_v185, main_v186, main_v187, main_v188, main_v189, main_v190, main_c_45, main_v191, main_v192, main_c_46, main_v193, main_v194, main_v195, main_v196, main_v197, main_cst_47, main_v198, main_v199, main_v200, main_v201, main_v202, main_v203, main_v204, main_v205, main_v206, main_v207, main_v208]
theorem opsG_writes : (opsG : List (HloOp τ sig (Elt F))).Forall fun op => op.writes ⊆ (writesG.map (Proc.devRef (τ := τ) .tc)).toFinset := by
  have one : ∀ (op : HloOp τ sig (Elt F)) (y : Ref sig .tc), op.writes = {Proc.devRef .tc y} → y ∈ writesG →
      op.writes ⊆ (writesG.map (Proc.devRef (τ := τ) .tc)).toFinset := fun op y e h => by
    rw [e, Finset.singleton_subset_iff, List.mem_toFinset]; exact List.mem_map_of_mem h
  exact ⟨one _ main_cst_40 rfl (by decide), one _ main_v176 rfl (by decide), one _ main_cst_41 rfl (by decide), one _ main_v177 rfl (by decide), one _ main_v178 rfl (by decide), one _ main_v179 rfl (by decide), one _ main_cst_42 rfl (by decide), one _ main_v180 rfl (by decide), one _ main_v181 rfl (by decide), one _ main_cst_43 rfl (by decide), one _ main_v182 rfl (by decide), one _ main_v183 rfl (by decide), one _ main_v184 rfl (by decide), one _ main_cst_44 rfl (by decide), one _ main_v185 rfl (by decide), one _ main_v186 rfl (by decide), one _ main_v187 rfl (by decide), one _ main_v188 rfl (by decide), one _ main_v189 rfl (by decide), one _ main_v190 rfl (by decide), one _ main_c_45 rfl (by decide), one _ main_v191 rfl (by decide), one _ main_v192 rfl (by decide), one _ main_c_46 rfl (by decide), one _ main_v193 rfl (by decide), one _ main_v194 rfl (by decide), one _ main_v195 rfl (by decide), one _ main_v196 rfl (by decide), one _ main_v197 rfl (by decide), one _ main_cst_47 rfl (by decide), one _ main_v198 rfl (by decide), one _ main_v199 rfl (by decide), one _ main_v200 rfl (by decide), one _ main_v201 rfl (by decide), one _ main_v202 rfl (by decide), one _ main_v203 rfl (by decide), one _ main_v204 rfl (by decide), one _ main_v205 rfl (by decide), one _ main_v206 rfl (by decide), one _ main_v207 rfl (by decide), one _ main_v208 rfl (by decide)⟩
/-- A buffer block G does not write keeps its contents through it. -/
theorem keepG (V : Valuation τ sig (Elt F)) {r : Ref sig .tc} (h : r ∉ writesG) :
    after opsG V (Proc.devRef .tc r) = V (Proc.devRef .tc r) :=
  after_of_writes_sub opsG V opsG_writes h

/-- The buffers block Gr writes. -/
abbrev writesGr : List (Ref sig .tc) := [main_cst_48, main_v209, main_v210, main_cst_49, main_v211, main_v212, main_v213]
theorem opsGr_writes : (opsGr : List (HloOp τ sig (Elt F))).Forall fun op => op.writes ⊆ (writesGr.map (Proc.devRef (τ := τ) .tc)).toFinset := by
  have one : ∀ (op : HloOp τ sig (Elt F)) (y : Ref sig .tc), op.writes = {Proc.devRef .tc y} → y ∈ writesGr →
      op.writes ⊆ (writesGr.map (Proc.devRef (τ := τ) .tc)).toFinset := fun op y e h => by
    rw [e, Finset.singleton_subset_iff, List.mem_toFinset]; exact List.mem_map_of_mem h
  exact ⟨one _ main_cst_48 rfl (by decide), one _ main_v209 rfl (by decide), one _ main_v210 rfl (by decide), one _ main_cst_49 rfl (by decide), one _ main_v211 rfl (by decide), one _ main_v212 rfl (by decide), one _ main_v213 rfl (by decide)⟩
/-- A buffer block Gr does not write keeps its contents through it. -/
theorem keepGr (V : Valuation τ sig (Elt F)) {r : Ref sig .tc} (h : r ∉ writesGr) :
    after opsGr V (Proc.devRef .tc r) = V (Proc.devRef .tc r) :=
  after_of_writes_sub opsGr V opsGr_writes h

/-- The buffers block H writes. -/
abbrev writesH : List (Ref sig .tc) := [main_v214, main_v215, main_v216, main_v217]
theorem opsH_writes : (opsH : List (HloOp τ sig (Elt F))).Forall fun op => op.writes ⊆ (writesH.map (Proc.devRef (τ := τ) .tc)).toFinset := by
  have one : ∀ (op : HloOp τ sig (Elt F)) (y : Ref sig .tc), op.writes = {Proc.devRef .tc y} → y ∈ writesH →
      op.writes ⊆ (writesH.map (Proc.devRef (τ := τ) .tc)).toFinset := fun op y e h => by
    rw [e, Finset.singleton_subset_iff, List.mem_toFinset]; exact List.mem_map_of_mem h
  exact ⟨one _ main_v214 rfl (by decide), one _ main_v215 rfl (by decide), one _ main_v216 rfl (by decide), one _ main_v217 rfl (by decide)⟩
/-- A buffer block H does not write keeps its contents through it. -/
theorem keepH (V : Valuation τ sig (Elt F)) {r : Ref sig .tc} (h : r ∉ writesH) :
    after opsH V (Proc.devRef .tc r) = V (Proc.devRef .tc r) :=
  after_of_writes_sub opsH V opsH_writes h

/-- The buffers block I writes. -/
abbrev writesI : List (Ref sig .tc) := [main_v218, main_v219, main_cst_50, main_v220, main_cst_51, main_v221, main_v222, main_v223, main_cst_52, main_v224, main_v225, main_cst_53, main_v226, main_v227, main_v228, main_cst_54, main_v229, main_v230, main_v231, main_v232, main_v233, main_v234, main_c_55, main_v235, main_v236, main_c_56, main_v237, main_v238, main_v239, main_v240, main_v241, main_cst_57, main_v242, main_v243, main_v244, main_v245, main_v246, main_v247, main_v248, main_v249, main_v250, main_v251, main_v252]
theorem opsI_writes : (opsI : List (HloOp τ sig (Elt F))).Forall fun op => op.writes ⊆ (writesI.map (Proc.devRef (τ := τ) .tc)).toFinset := by
  have one : ∀ (op : HloOp τ sig (Elt F)) (y : Ref sig .tc), op.writes = {Proc.devRef .tc y} → y ∈ writesI →
      op.writes ⊆ (writesI.map (Proc.devRef (τ := τ) .tc)).toFinset := fun op y e h => by
    rw [e, Finset.singleton_subset_iff, List.mem_toFinset]; exact List.mem_map_of_mem h
  exact ⟨one _ main_v218 rfl (by decide), one _ main_v219 rfl (by decide), one _ main_cst_50 rfl (by decide), one _ main_v220 rfl (by decide), one _ main_cst_51 rfl (by decide), one _ main_v221 rfl (by decide), one _ main_v222 rfl (by decide), one _ main_v223 rfl (by decide), one _ main_cst_52 rfl (by decide), one _ main_v224 rfl (by decide), one _ main_v225 rfl (by decide), one _ main_cst_53 rfl (by decide), one _ main_v226 rfl (by decide), one _ main_v227 rfl (by decide), one _ main_v228 rfl (by decide), one _ main_cst_54 rfl (by decide), one _ main_v229 rfl (by decide), one _ main_v230 rfl (by decide), one _ main_v231 rfl (by decide), one _ main_v232 rfl (by decide), one _ main_v233 rfl (by decide), one _ main_v234 rfl (by decide), one _ main_c_55 rfl (by decide), one _ main_v235 rfl (by decide), one _ main_v236 rfl (by decide), one _ main_c_56 rfl (by decide), one _ main_v237 rfl (by decide), one _ main_v238 rfl (by decide), one _ main_v239 rfl (by decide), one _ main_v240 rfl (by decide), one _ main_v241 rfl (by decide), one _ main_cst_57 rfl (by decide), one _ main_v242 rfl (by decide), one _ main_v243 rfl (by decide), one _ main_v244 rfl (by decide), one _ main_v245 rfl (by decide), one _ main_v246 rfl (by decide), one _ main_v247 rfl (by decide), one _ main_v248 rfl (by decide), one _ main_v249 rfl (by decide), one _ main_v250 rfl (by decide), one _ main_v251 rfl (by decide), one _ main_v252 rfl (by decide)⟩
/-- A buffer block I does not write keeps its contents through it. -/
theorem keepI (V : Valuation τ sig (Elt F)) {r : Ref sig .tc} (h : r ∉ writesI) :
    after opsI V (Proc.devRef .tc r) = V (Proc.devRef .tc r) :=
  after_of_writes_sub opsI V opsI_writes h

/-- The buffers block Ir writes. -/
abbrev writesIr : List (Ref sig .tc) := [main_cst_58, main_v253, main_v254, main_cst_59, main_v255, main_v256, main_v257]
theorem opsIr_writes : (opsIr : List (HloOp τ sig (Elt F))).Forall fun op => op.writes ⊆ (writesIr.map (Proc.devRef (τ := τ) .tc)).toFinset := by
  have one : ∀ (op : HloOp τ sig (Elt F)) (y : Ref sig .tc), op.writes = {Proc.devRef .tc y} → y ∈ writesIr →
      op.writes ⊆ (writesIr.map (Proc.devRef (τ := τ) .tc)).toFinset := fun op y e h => by
    rw [e, Finset.singleton_subset_iff, List.mem_toFinset]; exact List.mem_map_of_mem h
  exact ⟨one _ main_cst_58 rfl (by decide), one _ main_v253 rfl (by decide), one _ main_v254 rfl (by decide), one _ main_cst_59 rfl (by decide), one _ main_v255 rfl (by decide), one _ main_v256 rfl (by decide), one _ main_v257 rfl (by decide)⟩
/-- A buffer block Ir does not write keeps its contents through it. -/
theorem keepIr (V : Valuation τ sig (Elt F)) {r : Ref sig .tc} (h : r ∉ writesIr) :
    after opsIr V (Proc.devRef .tc r) = V (Proc.devRef .tc r) :=
  after_of_writes_sub opsIr V opsIr_writes h

/-- The buffers block J writes. -/
abbrev writesJ : List (Ref sig .tc) := [main_cst_60, main_v258, main_cst_61, main_v259, main_v260, main_v261, main_cst_62, main_v262, main_v263, main_cst_63, main_v264, main_v265, main_v266, main_v267, main_v268, main_v269, main_v270, main_v271, main_v272, main_v273]
theorem opsJ_writes : (opsJ : List (HloOp τ sig (Elt F))).Forall fun op => op.writes ⊆ (writesJ.map (Proc.devRef (τ := τ) .tc)).toFinset := by
  have one : ∀ (op : HloOp τ sig (Elt F)) (y : Ref sig .tc), op.writes = {Proc.devRef .tc y} → y ∈ writesJ →
      op.writes ⊆ (writesJ.map (Proc.devRef (τ := τ) .tc)).toFinset := fun op y e h => by
    rw [e, Finset.singleton_subset_iff, List.mem_toFinset]; exact List.mem_map_of_mem h
  exact ⟨one _ main_cst_60 rfl (by decide), one _ main_v258 rfl (by decide), one _ main_cst_61 rfl (by decide), one _ main_v259 rfl (by decide), one _ main_v260 rfl (by decide), one _ main_v261 rfl (by decide), one _ main_cst_62 rfl (by decide), one _ main_v262 rfl (by decide), one _ main_v263 rfl (by decide), one _ main_cst_63 rfl (by decide), one _ main_v264 rfl (by decide), one _ main_v265 rfl (by decide), one _ main_v266 rfl (by decide), one _ main_v267 rfl (by decide), one _ main_v268 rfl (by decide), one _ main_v269 rfl (by decide), one _ main_v270 rfl (by decide), one _ main_v271 rfl (by decide), one _ main_v272 rfl (by decide), one _ main_v273 rfl (by decide)⟩
/-- A buffer block J does not write keeps its contents through it. -/
theorem keepJ (V : Valuation τ sig (Elt F)) {r : Ref sig .tc} (h : r ∉ writesJ) :
    after opsJ V (Proc.devRef .tc r) = V (Proc.devRef .tc r) :=
  after_of_writes_sub opsJ V opsJ_writes h

end Cert.RefValue

end
-- ==== Proof.RefBlockA.lean ====
/-
  The reference program's two graph-convolution blocks before any activation. From any contents of the buffers, the
  block's last buffer ends at the scaled dense layer of the neighbourhood sums of the block's input: the degree scales
  are recomputed inside the block from the two edge-endpoint lists, the source rows gathered and summed into the
  destination rows, and the host's spelling of the layer is the index-by-index one.
-/
import proofs.«115186_j77309411328099_1_alg».proof.Proof.RefRun
import proofs.«115186_j77309411328099_1_alg».proof.Proof.SpecBn
import proofs.«115186_j77309411328099_1_alg».proof.Proof.Model

noncomputable section

namespace Cert.RefValue

open Idealize.ShloMosaic Idealize.ShloMosaic.ValueIdx Idealize.ShloMosaic.StableHlo Idealize.ShloMosaic.TcCoe Idealize.SL.Sem
open Cert.ReferenceIdeal Cert.ReferenceIdeal.Gen Cert.ReferenceIdeal.RunP Cert.Spec Cert.DenseLayer

/-- The first graph convolution, read off the first block of operations. -/
theorem blockA (W : Valuation τ sig (Elt Ideal)) :
    after (opsA (F := Ideal)) W (Proc.devRef .tc main_v32)
      = linF (Model.aggK (W (Proc.devRef .tc main_arg0)) (Model.invSqrtDeg (W (Proc.devRef .tc main_arg23)))
            (W (Proc.devRef .tc main_arg23)) (W (Proc.devRef .tc main_arg24)))
          (vecOf (Model.invSqrtDeg (W (Proc.devRef .tc main_arg24)))) (W (Proc.devRef .tc main_arg3))
          (vecOf (W (Proc.devRef .tc main_arg4))) := by
  unfold opsA
  after_results_simp
  exact host_lin dot_S50000x128_S128x128_S50000x128_1_0_0_1_n_n rfl none _ _ _ _ _ _ _ _

/-- The second graph convolution, of whatever the third block finds in its input buffer. -/
theorem blockC (W : Valuation τ sig (Elt Ideal)) :
    after (opsC (F := Ideal)) W (Proc.devRef .tc main_v95)
      = linF (Model.aggK (W (Proc.devRef .tc main_v62)) (Model.invSqrtDeg (W (Proc.devRef .tc main_arg23)))
            (W (Proc.devRef .tc main_arg23)) (W (Proc.devRef .tc main_arg24)))
          (vecOf (Model.invSqrtDeg (W (Proc.devRef .tc main_arg24)))) (W (Proc.devRef .tc main_arg7))
          (vecOf (W (Proc.devRef .tc main_arg8))) := by
  unfold opsC
  after_results_simp
  exact host_lin dot_S50000x128_S128x128_S50000x128_1_0_0_1_n_n rfl none _ _ _ _ _ _ _ _

end Cert.RefValue

end
-- ==== Proof.RefBlockB.lean ====
/-
  The reference program's two normalisation blocks. The host forms every column's mean as the column sum divided by the
  number of rows, subtracts it, squares, and takes the same mean again for the variance; read by the column these are
  the model's column statistics, with the sums themselves never opened. What follows is the host's spelling of batch
  normalisation and of the rectifier.
-/
import proofs.«115186_j77309411328099_1_alg».proof.Proof.RefRun
import proofs.«115186_j77309411328099_1_alg».proof.Proof.SpecBn
import proofs.«115186_j77309411328099_1_alg».proof.Proof.Model

noncomputable section

namespace Cert.RefValue

open Idealize.ShloMosaic Idealize.ShloMosaic.ValueIdx Idealize.ShloMosaic.StableHlo Idealize.ShloMosaic.TcCoe Idealize.SL.Sem
open Cert.ReferenceIdeal Cert.ReferenceIdeal.Gen Cert.ReferenceIdeal.RunP Cert.Spec Cert.DenseLayer

/-- The host's column mean, read by the column. -/
theorem mean_eq (z : FVec Ideal S50000x128 .f32) :
    vecOf (Host.divf (Host.reduceAdd z (constant (F := Ideal) S_ .f32 0x00000000#32) reducesTo_S50000x128_S128_d0 h_S_)
        (broadcastInDim S128 ![] bcast_S_S128 (constant (F := Ideal) S_ .f32 0x47435000#32)))
      = Model.colMean z := by
  funext q
  show Ideal.div (Host.reduceAdd z (constant (F := Ideal) S_ .f32 0x00000000#32) reducesTo_S50000x128_S128_d0 h_S_ (ix1 q))
      (broadcastInDim S128 ![] bcast_S_S128 (constant (F := Ideal) S_ .f32 0x47435000#32) (ix1 q)) = _
  rw [broadcastInDim_scalar_apply]
  rfl

/-- The deviation from a vector spread over the rows, squared, when the vector is the column mean. -/
theorem sq_eq (z : FVec Ideal S50000x128 .f32) (mean : FVec Ideal S128 .f32) (hm : vecOf mean = Model.colMean z) :
    mulf
        (subf z (broadcastInDim S50000x128 ![0, 1] bcast_S1x128_S50000x128_0_1 (broadcastInDim S1x128 ![1] bcast_S128_S1x128_1 mean)))
        (subf z (broadcastInDim S50000x128 ![0, 1] bcast_S1x128_S50000x128_0_1 (broadcastInDim S1x128 ![1] bcast_S128_S1x128_1 mean)))
      = Model.sqDev z := by
  funext i
  obtain ⟨p, q, rfl⟩ : ∃ (p : Fin 50000) (q : Fin 128), i = ix2 p q := ⟨i 0, i 1, eq_ix2 i⟩
  show (z (ix2 p q) - broadcastInDim S50000x128 ![0, 1] bcast_S1x128_S50000x128_0_1
          (broadcastInDim S1x128 ![1] bcast_S128_S1x128_1 mean) (ix2 p q))
        * (z (ix2 p q) - broadcastInDim S50000x128 ![0, 1] bcast_S1x128_S50000x128_0_1
          (broadcastInDim S1x128 ![1] bcast_S128_S1x128_1 mean) (ix2 p q))
      = (z (ix2 p q) - Model.colMean z q) * (z (ix2 p q) - Model.colMean z q)
  rw [rowSpread_apply, ← hm]
  rfl

/-- The host's column variance, read by the column. -/
theorem var_eq (z : FVec Ideal S50000x128 .f32) :
    vecOf (Host.divf
        (Host.reduceAdd
          (mulf
            (subf z (broadcastInDim S50000x128 ![0, 1] bcast_S1x128_S50000x128_0_1 (broadcastInDim S1x128 ![1] bcast_S128_S1x128_1
              (Host.divf (Host.reduceAdd z (constant (F := Ideal) S_ .f32 0x00000000#32) reducesTo_S50000x128_S128_d0 h_S_)
                (broadcastInDim S128 ![] bcast_S_S128 (constant (F := Ideal) S_ .f32 0x47435000#32))))))
            (subf z (broadcastInDim S50000x128 ![0, 1] bcast_S1x128_S50000x128_0_1 (broadcastInDim S1x128 ![1] bcast_S128_S1x128_1
              (Host.divf (Host.reduceAdd z (constant (F := Ideal) S_ .f32 0x00000000#32) reducesTo_S50000x128_S128_d0 h_S_)
                (broadcastInDim S128 ![] bcast_S_S128 (constant (F := Ideal) S_ .f32 0x47435000#32)))))))
          (constant (F := Ideal) S_ .f32 0x00000000#32) reducesTo_S50000x128_S128_d0 h_S_)
        (broadcastInDim S128 ![] bcast_S_S128 (constant (F := Ideal) S_ .f32 0x47435000#32)))
      = Model.colVar z :=
  (congrArg (fun s : FVec Ideal S50000x128 .f32 =>
      vecOf (Host.divf (Host.reduceAdd s (constant (F := Ideal) S_ .f32 0x00000000#32) reducesTo_S50000x128_S128_d0 h_S_)
        (broadcastInDim S128 ![] bcast_S_S128 (constant (F := Ideal) S_ .f32 0x47435000#32))))
    (sq_eq z _ (mean_eq z))).trans (mean_eq (Model.sqDev z))

/-- The first normalisation and rectifier, of whatever the block finds in its input buffer. -/
theorem blockB (W : Valuation τ sig (Elt Ideal)) :
    after (opsB (F := Ideal)) W (Proc.devRef .tc main_v62)
      = bnF (W (Proc.devRef .tc main_v32)) (Model.colMean (W (Proc.devRef .tc main_v32))) (Model.colVar (W (Proc.devRef .tc main_v32)))
          (vecOf (W (Proc.devRef .tc main_arg5))) (vecOf (W (Proc.devRef .tc main_arg6))) := by
  unfold opsB
  after_results_simp
  refine (host_leaky _ _).trans ?_
  refine (congrArg leaky (host_bnPre _ _ _ _ _ _ _ _)).trans ?_
  rw [bnF_eq_leaky]
  refine congrArg leaky ?_
  exact congrArg₂ (fun mu va => bnPre (W (Proc.devRef .tc main_v32)) mu va (vecOf (W (Proc.devRef .tc main_arg5))) (vecOf (W (Proc.devRef .tc main_arg6))))
    (mean_eq _) (var_eq _)

/-- The second normalisation and rectifier. -/
theorem blockD (W : Valuation τ sig (Elt Ideal)) :
    after (opsD (F := Ideal)) W (Proc.devRef .tc main_v125)
      = bnF (W (Proc.devRef .tc main_v95)) (Model.colMean (W (Proc.devRef .tc main_v95))) (Model.colVar (W (Proc.devRef .tc main_v95)))
          (vecOf (W (Proc.devRef .tc main_arg9))) (vecOf (W (Proc.devRef .tc main_arg10))) := by
  unfold opsD
  after_results_simp
  refine (host_leaky _ _).trans ?_
  refine (congrArg leaky (host_bnPre _ _ _ _ _ _ _ _)).trans ?_
  rw [bnF_eq_leaky]
  refine congrArg leaky ?_
  exact congrArg₂ (fun mu va => bnPre (W (Proc.devRef .tc main_v95)) mu va (vecOf (W (Proc.devRef .tc main_arg9))) (vecOf (W (Proc.devRef .tc main_arg10))))
    (mean_eq _) (var_eq _)

end Cert.RefValue

end
-- ==== Proof.RefBlockF.lean ====
/-
  The reference program's two rectified graph-convolution blocks and its node classifier. Each convolution is followed
  by the rectifier as a block of its own: the host's comparison with a broadcast zero and product with a broadcast slope.
  The classifier is an unscaled dense layer.
-/
import proofs.«115186_j77309411328099_1_alg».proof.Proof.RefRun
import proofs.«115186_j77309411328099_1_alg».proof.Proof.SpecBn
import proofs.«115186_j77309411328099_1_alg».proof.Proof.Model

noncomputable section

namespace Cert.RefValue

open Idealize.ShloMosaic Idealize.ShloMosaic.ValueIdx Idealize.ShloMosaic.StableHlo Idealize.ShloMosaic.TcCoe Idealize.SL.Sem
open Cert.ReferenceIdeal Cert.ReferenceIdeal.Gen Cert.ReferenceIdeal.RunP Cert.Spec Cert.DenseLayer

/-- The third graph convolution before its rectifier. -/
theorem blockF (W : Valuation τ sig (Elt Ideal)) :
    after (opsF (F := Ideal)) W (Proc.devRef .tc main_v170)
      = linF (Model.aggK (W (Proc.devRef .tc main_v125)) (Model.invSqrtDeg (W (Proc.devRef .tc main_arg23)))
            (W (Proc.devRef .tc main_arg23)) (W (Proc.devRef .tc main_arg24)))
          (vecOf (Model.invSqrtDeg (W (Proc.devRef .tc main_arg24)))) (W (Proc.devRef .tc main_arg13))
          (vecOf (W (Proc.devRef .tc main_arg14))) := by
  unfold opsF
  after_results_simp
  exact host_lin dot_S50000x128_S128x128_S50000x128_1_0_0_1_n_n rfl none _ _ _ _ _ _ _ _

/-- The rectifier of the third graph convolution. -/
theorem blockFr (W : Valuation τ sig (Elt Ideal)) :
    after (opsFr (F := Ideal)) W (Proc.devRef .tc main_v175) = leaky (W (Proc.devRef .tc main_v170)) := by
  unfold opsFr
  after_results_simp
  exact host_leaky _ _

/-- The fourth graph convolution before its rectifier. -/
theorem blockG (W : Valuation τ sig (Elt Ideal)) :
    after (opsG (F := Ideal)) W (Proc.devRef .tc main_v208)
      = linF (Model.aggK (W (Proc.devRef .tc main_v175)) (Model.invSqrtDeg (W (Proc.devRef .tc main_arg23)))
            (W (Proc.devRef .tc main_arg23)) (W (Proc.devRef .tc main_arg24)))
          (vecOf (Model.invSqrtDeg (W (Proc.devRef .tc main_arg24)))) (W (Proc.devRef .tc main_arg15))
          (vecOf (W (Proc.devRef .tc main_arg16))) := by
  unfold opsG
  after_results_simp
  exact host_lin dot_S50000x128_S128x128_S50000x128_1_0_0_1_n_n rfl none _ _ _ _ _ _ _ _

/-- The rectifier of the fourth graph convolution. -/
theorem blockGr (W : Valuation τ sig (Elt Ideal)) :
    after (opsGr (F := Ideal)) W (Proc.devRef .tc main_v213) = leaky (W (Proc.devRef .tc main_v208)) := by
  unfold opsGr
  after_results_simp
  exact host_leaky _ _

/-- The node classifier: an unscaled dense layer of the block's input. -/
theorem blockH (W : Valuation τ sig (Elt Ideal)) :
    after (opsH (F := Ideal)) W (Proc.devRef .tc main_v217)
      = dense (W (Proc.devRef .tc main_v213)) (W (Proc.devRef .tc main_arg17)) (vecOf (W (Proc.devRef .tc main_arg18))) := by
  unfold opsH
  after_results_simp
  exact host_dense dot_S50000x128_S128x8_S50000x8_1_0_0_1_n_n rfl none _ _ _ _ _

end Cert.RefValue

end
-- ==== Proof.RefBlockI.lean ====
/-
  The reference program's graph branch. The node type is joined to the second hidden layer as one more column, the
  neighbourhood sums of the 129-column matrix go through a scaled dense layer, then the rectifier; then every graph's
  node rows are averaged and go through the last small layer, which is the model's own term.
-/
import proofs.«115186_j77309411328099_1_alg».proof.Proof.RefRun
import proofs.«115186_j77309411328099_1_alg».proof.Proof.SpecBn
import proofs.«115186_j77309411328099_1_alg».proof.Proof.Model

noncomputable section

namespace Cert.RefValue

open Idealize.ShloMosaic Idealize.ShloMosaic.ValueIdx Idealize.ShloMosaic.StableHlo Idealize.ShloMosaic.TcCoe Idealize.SL.Sem
open Cert.ReferenceIdeal Cert.ReferenceIdeal.Gen Cert.ReferenceIdeal.RunP Cert.Spec Cert.DenseLayer

/-- The graph branch's layer over the joined matrix, before its rectifier. -/
theorem blockI (W : Valuation τ sig (Elt Ideal)) :
    after (opsI (F := Ideal)) W (Proc.devRef .tc main_v252)
      = linF (Model.agg129K (Model.catK (W (Proc.devRef .tc main_v125)) (W (Proc.devRef .tc main_arg1)))
            (Model.invSqrtDeg (W (Proc.devRef .tc main_arg23))) (W (Proc.devRef .tc main_arg23)) (W (Proc.devRef .tc main_arg24)))
          (vecOf (Model.invSqrtDeg (W (Proc.devRef .tc main_arg24)))) (W (Proc.devRef .tc main_arg19))
          (vecOf (W (Proc.devRef .tc main_arg20))) := by
  unfold opsI
  after_results_simp
  exact host_lin dot_S50000x129_S129x128_S50000x128_1_0_0_1_n_n rfl none _ _ _ _ _ _ _ _

/-- The rectifier of the graph branch's layer. -/
theorem blockIr (W : Valuation τ sig (Elt Ideal)) :
    after (opsIr (F := Ideal)) W (Proc.devRef .tc main_v257) = leaky (W (Proc.devRef .tc main_v252)) := by
  unfold opsIr
  after_results_simp
  exact host_leaky _ _

/-- The mean over every graph's nodes and the last layer. -/
theorem blockJ (W : Valuation τ sig (Elt Ideal)) :
    after (opsJ (F := Ideal)) W (Proc.devRef .tc main_v273)
      = Model.tailK (W (Proc.devRef .tc main_v257)) (W (Proc.devRef .tc main_arg25)) (W (Proc.devRef .tc main_arg21)) (W (Proc.devRef .tc main_arg22)) := by
  unfold opsJ
  after_results_simp
  rfl

end Cert.RefValue

end
-- ==== Proof.RefValue.lean ====
/-
  The reference program's two results as the network of `Cert.Model` applied to its arguments.

  The program's operations run block by block; `VA` … `VJ` are the buffer contents after each block, from any starting
  contents `W0`. No block writes an argument, so every block reads the arguments as `W0` holds them. Each block's last
  buffer is one piece of the model applied to what the block reads: the first graph convolution `z1`, its normalisation
  `h1`, the second convolution `z2` and its normalisation `h2`, the two further convolutions each followed by its
  rectifier (`hn1`, `hn2`), the node scores, the graph branch's layer and its rectifier (`hg`), and the graph scores; a
  buffer written by one block and read by a later one is carried through the blocks between, none of which writes it.
  The fifth block's result is read by nothing.
  Every weakly fair execution of the program then ends with the node scores and the graph scores of the arguments in
  the two result buffers, and the arguments unchanged.
-/
import proofs.«115186_j77309411328099_1_alg».proof.Proof.RefRun
import proofs.«115186_j77309411328099_1_alg».proof.Proof.RefKeep
import proofs.«115186_j77309411328099_1_alg».proof.Proof.RefBlockA
import proofs.«115186_j77309411328099_1_alg».proof.Proof.RefBlockB
import proofs.«115186_j77309411328099_1_alg».proof.Proof.RefBlockF
import proofs.«115186_j77309411328099_1_alg».proof.Proof.RefBlockI

noncomputable section

namespace Cert.RefValue

open Idealize.ShloMosaic Idealize.ShloMosaic.ValueIdx Idealize.ShloMosaic.StableHlo Idealize.ShloMosaic.TcCoe Idealize.SL.Sem
open Cert.ReferenceIdeal Cert.ReferenceIdeal.Gen Cert.ReferenceIdeal.RunP Cert.Spec Cert.DenseLayer

/-! ## The arguments -/

/-- The argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- The network's inputs as a valuation holds them in the argument buffers. -/
def argsV (W0 : Valuation τ sig (Elt Ideal)) : Model.Args where
  x0 := W0 (Proc.devRef .tc main_arg0)
  nt := W0 (Proc.devRef .tc main_arg1)
  W1 := W0 (Proc.devRef .tc main_arg3)
  b1 := W0 (Proc.devRef .tc main_arg4)
  g1 := W0 (Proc.devRef .tc main_arg5)
  be1 := W0 (Proc.devRef .tc main_arg6)
  W2 := W0 (Proc.devRef .tc main_arg7)
  b2 := W0 (Proc.devRef .tc main_arg8)
  g2 := W0 (Proc.devRef .tc main_arg9)
  be2 := W0 (Proc.devRef .tc main_arg10)
  Wn1 := W0 (Proc.devRef .tc main_arg13)
  bn1 := W0 (Proc.devRef .tc main_arg14)
  Wn2 := W0 (Proc.devRef .tc main_arg15)
  bn2 := W0 (Proc.devRef .tc main_arg16)
  Wnc := W0 (Proc.devRef .tc main_arg17)
  bnc := W0 (Proc.devRef .tc main_arg18)
  Wg1 := W0 (Proc.devRef .tc main_arg19)
  bg1 := W0 (Proc.devRef .tc main_arg20)
  Wgc := W0 (Proc.devRef .tc main_arg21)
  bgc := W0 (Proc.devRef .tc main_arg22)
  src := W0 (Proc.devRef .tc main_arg23)
  dst := W0 (Proc.devRef .tc main_arg24)
  gid := W0 (Proc.devRef .tc main_arg25)

/-- The network's inputs as the launch memory of core `c` holds them. -/
def argsR (m : (ℓ : Loc nD τ sig) → Buf (Elt Ideal) ℓ) (c : Dev nD) : Model.Args where
  x0 := m ((c.tc : Thread nD τ).loc main_arg0)
  nt := m ((c.tc : Thread nD τ).loc main_arg1)
  W1 := m ((c.tc : Thread nD τ).loc main_arg3)
  b1 := m ((c.tc : Thread nD τ).loc main_arg4)
  g1 := m ((c.tc : Thread nD τ).loc main_arg5)
  be1 := m ((c.tc : Thread nD τ).loc main_arg6)
  W2 := m ((c.tc : Thread nD τ).loc main_arg7)
  b2 := m ((c.tc : Thread nD τ).loc main_arg8)
  g2 := m ((c.tc : Thread nD τ).loc main_arg9)
  be2 := m ((c.tc : Thread nD τ).loc main_arg10)
  Wn1 := m ((c.tc : Thread nD τ).loc main_arg13)
  bn1 := m ((c.tc : Thread nD τ).loc main_arg14)
  Wn2 := m ((c.tc : Thread nD τ).loc main_arg15)
  bn2 := m ((c.tc : Thread nD τ).loc main_arg16)
  Wnc := m ((c.tc : Thread nD τ).loc main_arg17)
  bnc := m ((c.tc : Thread nD τ).loc main_arg18)
  Wg1 := m ((c.tc : Thread nD τ).loc main_arg19)
  bg1 := m ((c.tc : Thread nD τ).loc main_arg20)
  Wgc := m ((c.tc : Thread nD τ).loc main_arg21)
  bgc := m ((c.tc : Thread nD τ).loc main_arg22)
  src := m ((c.tc : Thread nD τ).loc main_arg23)
  dst := m ((c.tc : Thread nD τ).loc main_arg24)
  gid := m ((c.tc : Thread nD τ).loc main_arg25)

theorem argsR_eq (m : (ℓ : Loc nD τ sig) → Buf (Elt Ideal) ℓ) (c : Dev nD) : argsR m c = argsV (launchContents m c) := rfl

theorem args_notA : ∀ r ∈ argRefs, r ∉ writesA := by decide
theorem args_notB : ∀ r ∈ argRefs, r ∉ writesB := by decide
theorem args_notC : ∀ r ∈ argRefs, r ∉ writesC := by decide
theorem args_notD : ∀ r ∈ argRefs, r ∉ writesD := by decide
theorem args_notE : ∀ r ∈ argRefs, r ∉ writesE := by decide
theorem args_notF : ∀ r ∈ argRefs, r ∉ writesF := by decide
theorem args_notFr : ∀ r ∈ argRefs, r ∉ writesFr := by decide
theorem args_notG : ∀ r ∈ argRefs, r ∉ writesG := by decide
theorem args_notGr : ∀ r ∈ argRefs, r ∉ writesGr := by decide
theorem args_notH : ∀ r ∈ argRefs, r ∉ writesH := by decide
theorem args_notI : ∀ r ∈ argRefs, r ∉ writesI := by decide
theorem args_notIr : ∀ r ∈ argRefs, r ∉ writesIr := by decide
theorem args_notJ : ∀ r ∈ argRefs, r ∉ writesJ := by decide

/-! ## The contents after each block -/

variable (W0 : Valuation τ sig (Elt Ideal))

abbrev VA : Valuation τ sig (Elt Ideal) := after (opsA (F := Ideal)) W0
abbrev VB : Valuation τ sig (Elt Ideal) := after (opsB (F := Ideal)) (VA W0)
abbrev VC : Valuation τ sig (Elt Ideal) := after (opsC (F := Ideal)) (VB W0)
abbrev VD : Valuation τ sig (Elt Ideal) := after (opsD (F := Ideal)) (VC W0)
abbrev VE : Valuation τ sig (Elt Ideal) := after (opsE (F := Ideal)) (VD W0)
abbrev VF : Valuation τ sig (Elt Ideal) := after (opsF (F := Ideal)) (VE W0)
abbrev VFr : Valuation τ sig (Elt Ideal) := after (opsFr (F := Ideal)) (VF W0)
abbrev VG : Valuation τ sig (Elt Ideal) := after (opsG (F := Ideal)) (VFr W0)
abbrev VGr : Valuation τ sig (Elt Ideal) := after (opsGr (F := Ideal)) (VG W0)
abbrev VH : Valuation τ sig (Elt Ideal) := after (opsH (F := Ideal)) (VGr W0)
abbrev VI : Valuation τ sig (Elt Ideal) := after (opsI (F := Ideal)) (VH W0)
abbrev VIr : Valuation τ sig (Elt Ideal) := after (opsIr (F := Ideal)) (VI W0)
abbrev VJ : Valuation τ sig (Elt Ideal) := after (opsJ (F := Ideal)) (VIr W0)

/-- The whole program leaves what the last block leaves. -/
theorem after_ops : after (ops (F := Ideal)) W0 = VJ W0 := by
  unfold ops
  simp only [after_append]

/-! ## The arguments through the blocks -/

theorem argA {r : Ref sig .tc} (h : r ∈ argRefs) : VA W0 (Proc.devRef .tc r) = W0 (Proc.devRef .tc r) :=
  keepA W0 (args_notA r h)
theorem argB {r : Ref sig .tc} (h : r ∈ argRefs) : VB W0 (Proc.devRef .tc r) = W0 (Proc.devRef .tc r) :=
  (keepB (VA W0) (args_notB r h)).trans (argA W0 h)
theorem argC {r : Ref sig .tc} (h : r ∈ argRefs) : VC W0 (Proc.devRef .tc r) = W0 (Proc.devRef .tc r) :=
  (keepC (VB W0) (args_notC r h)).trans (argB W0 h)
theorem argD {r : Ref sig .tc} (h : r ∈ argRefs) : VD W0 (Proc.devRef .tc r) = W0 (Proc.devRef .tc r) :=
  (keepD (VC W0) (args_notD r h)).trans (argC W0 h)
theorem argE {r : Ref sig .tc} (h : r ∈ argRefs) : VE W0 (Proc.devRef .tc r) = W0 (Proc.devRef .tc r) :=
  (keepE (VD W0) (args_notE r h)).trans (argD W0 h)
theorem argF {r : Ref sig .tc} (h : r ∈ argRefs) : VF W0 (Proc.devRef .tc r) = W0 (Proc.devRef .tc r) :=
  (keepF (VE W0) (args_notF r h)).trans (argE W0 h)
theorem argFr {r : Ref sig .tc} (h : r ∈ argRefs) : VFr W0 (Proc.devRef .tc r) = W0 (Proc.devRef .tc r) :=
  (keepFr (VF W0) (args_notFr r h)).trans (argF W0 h)
theorem argG {r : Ref sig .tc} (h : r ∈ argRefs) : VG W0 (Proc.devRef .tc r) = W0 (Proc.devRef .tc r) :=
  (keepG (VFr W0) (args_notG r h)).trans (argFr W0 h)
theorem argGr {r : Ref sig .tc} (h : r ∈ argRefs) : VGr W0 (Proc.devRef .tc r) = W0 (Proc.devRef .tc r) :=
  (keepGr (VG W0) (args_notGr r h)).trans (argG W0 h)
theorem argH {r : Ref sig .tc} (h : r ∈ argRefs) : VH W0 (Proc.devRef .tc r) = W0 (Proc.devRef .tc r) :=
  (keepH (VGr W0) (args_notH r h)).trans (argGr W0 h)
theorem argI {r : Ref sig .tc} (h : r ∈ argRefs) : VI W0 (Proc.devRef .tc r) = W0 (Proc.devRef .tc r) :=
  (keepI (VH W0) (args_notI r h)).trans (argH W0 h)
theorem argIr {r : Ref sig .tc} (h : r ∈ argRefs) : VIr W0 (Proc.devRef .tc r) = W0 (Proc.devRef .tc r) :=
  (keepIr (VI W0) (args_notIr r h)).trans (argI W0 h)
theorem argJ {r : Ref sig .tc} (h : r ∈ argRefs) : VJ W0 (Proc.devRef .tc r) = W0 (Proc.devRef .tc r) :=
  (keepJ (VIr W0) (args_notJ r h)).trans (argIr W0 h)

/-! ## The layers, block by block -/

theorem st_z1 : VA W0 (Proc.devRef .tc main_v32) = Model.z1 (argsV W0) := blockA W0

theorem st_h1 : VB W0 (Proc.devRef .tc main_v62) = Model.h1 (argsV W0) := by
  refine (blockB (VA W0)).trans ?_
  rw [st_z1 W0, argA W0 (r := main_arg5) (by decide),
    argA W0 (r := main_arg6) (by decide)]
  rfl

theorem st_z2 : VC W0 (Proc.devRef .tc main_v95) = Model.z2 (argsV W0) := by
  refine (blockC (VB W0)).trans ?_
  rw [st_h1 W0, argB W0 (r := main_arg23) (by decide),
    argB W0 (r := main_arg24) (by decide),
    argB W0 (r := main_arg7) (by decide),
    argB W0 (r := main_arg8) (by decide)]
  rfl

theorem st_h2 : VD W0 (Proc.devRef .tc main_v125) = Model.h2 (argsV W0) := by
  refine (blockD (VC W0)).trans ?_
  rw [st_z2 W0, argC W0 (r := main_arg9) (by decide),
    argC W0 (r := main_arg10) (by decide)]
  rfl

/-- The second hidden layer, carried through the block that nothing reads. -/
theorem st_h2E : VE W0 (Proc.devRef .tc main_v125) = Model.h2 (argsV W0) :=
  (keepE (VD W0) (by decide)).trans (st_h2 W0)

theorem st_c3 : VF W0 (Proc.devRef .tc main_v170)
    = Model.gconv (argsV W0) (Model.h2 (argsV W0)) (argsV W0).Wn1 (argsV W0).bn1 := by
  refine (blockF (VE W0)).trans ?_
  rw [st_h2E W0, argE W0 (r := main_arg23) (by decide),
    argE W0 (r := main_arg24) (by decide),
    argE W0 (r := main_arg13) (by decide),
    argE W0 (r := main_arg14) (by decide)]
  rfl

theorem st_hn1 : VFr W0 (Proc.devRef .tc main_v175) = Model.hn1 (argsV W0) :=
  (blockFr (VF W0)).trans (congrArg leaky (st_c3 W0))

theorem st_c4 : VG W0 (Proc.devRef .tc main_v208)
    = Model.gconv (argsV W0) (Model.hn1 (argsV W0)) (argsV W0).Wn2 (argsV W0).bn2 := by
  refine (blockG (VFr W0)).trans ?_
  rw [st_hn1 W0, argFr W0 (r := main_arg23) (by decide),
    argFr W0 (r := main_arg24) (by decide),
    argFr W0 (r := main_arg15) (by decide),
    argFr W0 (r := main_arg16) (by decide)]
  rfl

theorem st_hn2 : VGr W0 (Proc.devRef .tc main_v213) = Model.hn2 (argsV W0) :=
  (blockGr (VG W0)).trans (congrArg leaky (st_c4 W0))

theorem st_node : VH W0 (Proc.devRef .tc main_v217) = Model.nodeOut (argsV W0) := by
  refine (blockH (VGr W0)).trans ?_
  rw [st_hn2 W0, argGr W0 (r := main_arg17) (by decide),
    argGr W0 (r := main_arg18) (by decide)]
  rfl

/-- The second hidden layer, carried on to the graph branch. -/
theorem st_h2H : VH W0 (Proc.devRef .tc main_v125) = Model.h2 (argsV W0) :=
  (keepH (VGr W0) (by decide)).trans ((keepGr (VG W0) (by decide)).trans ((keepG (VFr W0) (by decide)).trans
    ((keepFr (VF W0) (by decide)).trans ((keepF (VE W0) (by decide)).trans (st_h2E W0)))))

theorem st_cI : VI W0 (Proc.devRef .tc main_v252)
    = linF (Model.agg129K (Model.catK (Model.h2 (argsV W0)) (argsV W0).nt) (Model.ro (argsV W0)) (argsV W0).src (argsV W0).dst)
        (vecOf (Model.ri (argsV W0))) (argsV W0).Wg1 (vecOf (argsV W0).bg1) := by
  refine (blockI (VH W0)).trans ?_
  rw [st_h2H W0, argH W0 (r := main_arg1) (by decide),
    argH W0 (r := main_arg23) (by decide),
    argH W0 (r := main_arg24) (by decide),
    argH W0 (r := main_arg19) (by decide),
    argH W0 (r := main_arg20) (by decide)]
  rfl

theorem st_hg : VIr W0 (Proc.devRef .tc main_v257) = Model.hg (argsV W0) :=
  (blockIr (VI W0)).trans (congrArg leaky (st_cI W0))

theorem st_graph : VJ W0 (Proc.devRef .tc main_v273) = Model.graphOut (argsV W0) := by
  refine (blockJ (VIr W0)).trans ?_
  rw [st_hg W0, argIr W0 (r := main_arg25) (by decide),
    argIr W0 (r := main_arg21) (by decide),
    argIr W0 (r := main_arg22) (by decide)]
  rfl

/-- The node scores, carried through the graph branch. -/
theorem st_nodeJ : VJ W0 (Proc.devRef .tc main_v217) = Model.nodeOut (argsV W0) :=
  (keepJ (VIr W0) (by decide)).trans ((keepIr (VI W0) (by decide)).trans ((keepI (VH W0) (by decide)).trans (st_node W0)))

/-! ## The run -/

theorem fin_node (m : (ℓ : Loc nD τ sig) → Buf (Elt Ideal) ℓ) (c : Dev nD) :
    after (ops (F := Ideal)) (launchContents m c) (Proc.devRef .tc main_v217) = Model.nodeOut (argsR m c) :=
  (congrFun (after_ops (launchContents m c)) _).trans (st_nodeJ (launchContents m c))

theorem fin_graph (m : (ℓ : Loc nD τ sig) → Buf (Elt Ideal) ℓ) (c : Dev nD) :
    after (ops (F := Ideal)) (launchContents m c) (Proc.devRef .tc main_v273) = Model.graphOut (argsR m c) :=
  (congrFun (after_ops (launchContents m c)) _).trans (st_graph (launchContents m c))

theorem fin_arg (m : (ℓ : Loc nD τ sig) → Buf (Elt Ideal) ℓ) (c : Dev nD) {r : Ref sig .tc} (h : r ∈ argRefs) :
    after (ops (F := Ideal)) (launchContents m c) (Proc.devRef .tc r) = m ((c.tc : Thread nD τ).loc r) :=
  (congrFun (after_ops (launchContents m c)) _).trans (argJ (launchContents m c) h)

/-- On every device, from any memory with zero counters: every weakly fair execution of the reference program
    terminates with the node scores and the graph scores of its arguments in the two result buffers, and the arguments
    unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v217) = Model.nodeOut (argsR m c)
      ∧ r.2.mem ((c.tc : Thread Cert.ReferenceIdeal.nD Cert.ReferenceIdeal.τ).loc Cert.ReferenceIdeal.main_v273) = Model.graphOut (argsR m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)) :=
  (θ_run _ _ _).mono (fun _ h c => ⟨(h c main_v217).trans (fin_node m c), (h c main_v273).trans (fin_graph m c),
      (h c main_arg0).trans (fin_arg m c (by decide)),
      (h c main_arg1).trans (fin_arg m c (by decide)),
      (h c main_arg2).trans (fin_arg m c (by decide)),
      (h c main_arg3).trans (fin_arg m c (by decide)),
      (h c main_arg4).trans (fin_arg m c (by decide)),
      (h c main_arg5).trans (fin_arg m c (by decide)),
      (h c main_arg6).trans (fin_arg m c (by decide)),
      (h c main_arg7).trans (fin_arg m c (by decide)),
      (h c main_arg8).trans (fin_arg m c (by decide)),
      (h c main_arg9).trans (fin_arg m c (by decide)),
      (h c main_arg10).trans (fin_arg m c (by decide)),
      (h c main_arg11).trans (fin_arg m c (by decide)),
      (h c main_arg12).trans (fin_arg m c (by decide)),
      (h c main_arg13).trans (fin_arg m c (by decide)),
      (h c main_arg14).trans (fin_arg m c (by decide)),
      (h c main_arg15).trans (fin_arg m c (by decide)),
      (h c main_arg16).trans (fin_arg m c (by decide)),
      (h c main_arg17).trans (fin_arg m c (by decide)),
      (h c main_arg18).trans (fin_arg m c (by decide)),
      (h c main_arg19).trans (fin_arg m c (by decide)),
      (h c main_arg20).trans (fin_arg m c (by decide)),
      (h c main_arg21).trans (fin_arg m c (by decide)),
      (h c main_arg22).trans (fin_arg m c (by decide)),
      (h c main_arg23).trans (fin_arg m c (by decide)),
      (h c main_arg24).trans (fin_arg m c (by decide)),
      (h c main_arg25).trans (fin_arg m c (by decide))⟩)
    (run_raw m ρ)

end Cert.RefValue

end
-- ==== Proof.lean ====
/-
  A five-layer graph network — two graph convolutions each followed by batch normalisation and a leaky rectifier, a
  node branch of two more rectified convolutions and a classifier, a graph branch of one more convolution on the features
  joined with the node type, pooled per graph — computed two ways. The kernel program forms every neighbourhood sum and
  every batch statistic on the host and hands the dense work (the row scaling, the matrix product, the bias, the
  normalisation and the rectifier) to eight tiled regions, 10000 rows at a time; the reference does all of it on the host.

  On the extended reals both are the network of `Cert.Model`: a row block of a scaled layer or of a normalisation is that
  layer applied to the block of rows, so the tiling changes nothing; narrowing the matrix product's operands to a shorter
  float format is the identity; a region's matrix product into a zero accumulator is the host's dot product, a sum over
  the same index set; the shared host pieces are the same functions on both sides. No law that needs finiteness is used,
  so the precondition is never opened. The idealization rewrote nothing, and the three frames are the generated frame
  proofs and the reference's run with its results dropped.
-/
import proofs.«115186_j77309411328099_1_alg».proof.Defs
import proofs.«115186_j77309411328099_1_alg».proof.Proof.Gen.Kernel
import proofs.«115186_j77309411328099_1_alg».proof.Proof.Gen.Kernel.Skeleton
import proofs.«115186_j77309411328099_1_alg».proof.Proof.Gen.Kernel.Launch
import proofs.«115186_j77309411328099_1_alg».proof.Proof.Gen.Kernel.Points
import proofs.«115186_j77309411328099_1_alg».proof.Proof.Gen.Kernel.Frame
import proofs.«115186_j77309411328099_1_alg».proof.Proof.Gen.KernelIdeal
import proofs.«115186_j77309411328099_1_alg».proof.Proof.Gen.KernelIdeal.Skeleton
import proofs.«115186_j77309411328099_1_alg».proof.Proof.Gen.KernelIdeal.Launch
import proofs.«115186_j77309411328099_1_alg».proof.Proof.Gen.KernelIdeal.Points
import proofs.«115186_j77309411328099_1_alg».proof.Proof.Gen.KernelIdeal.Frame
import proofs.«115186_j77309411328099_1_alg».proof.Proof.Gen.ReferenceIdeal
import proofs.«115186_j77309411328099_1_alg».proof.Proof.Gen.Pre_finite_inputs
import proofs.«115186_j77309411328099_1_alg».proof.Proof.KernelValue
import proofs.«115186_j77309411328099_1_alg».proof.Proof.RefValue
import Idealize.ShloMosaic.Adequacy
import Idealize.ShloMosaic.Init

noncomputable section

namespace Cert.Proof

open Idealize.ShloMosaic Idealize.SL.Sem

/-- The word-level kernel program runs and leaves its arguments as launched: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.RefValue.run m ρ)

/-- From memories that agree on the arguments the two programs see the same network inputs. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.RefValue.argsR m' c = Cert.KernelValue.argsK m c := by
  obtain ⟨h0, h1, h2, h3, h4, h5, h6, h7, h8, h9, h10, h11, h12, h13, h14, h15, h16, h17, h18, h19, h20, h21, h22, h23, h24, h25⟩ := hagree
  unfold Cert.RefValue.argsR Cert.KernelValue.argsK
  rw [h0, h1, h3, h4, h5, h6, h7, h8, h9, h10, h13, h14, h15, h16, h17, h18, h19, h20, h21, h22, h23, h24, h25]

/-- Both idealized programs end with the node scores and the graph scores of one network on the same inputs. -/
theorem algebraic : Cert.algebraic_KernelIdeal_ReferenceIdeal := by
  intro m ρ m' ρ' _ hagree
  refine ⟨fun c => Cert.Model.nodeOut (Cert.KernelValue.argsK m c), fun c => Cert.Model.graphOut (Cert.KernelValue.argsK m c),
    Cert.KernelValue.run m ρ, ?_⟩
  refine (θ_run Cert.ReferenceIdeal.defs _ _).mono (fun r h c => ?_) (Cert.RefValue.run m' ρ')
  have hc := h c
  rw [args_agree m m' c (hagree c)] at hc
  exact hc

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
